-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v5_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v108) = v3 c
          ∧ r.2.mem ((c.tc : Thread Cert.ReferenceIdeal.nD Cert.ReferenceIdeal.τ).loc Cert.ReferenceIdeal.main_v109) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S2048 : Shape := ⟨1, ![2048]⟩
abbrev S2048x4096 : Shape := ⟨2, ![2048, 4096]⟩
abbrev S4096 : Shape := ⟨1, ![4096]⟩
abbrev S2048x128 : Shape := ⟨2, ![2048, 128]⟩
abbrev S2048x32 : Shape := ⟨2, ![2048, 32]⟩
abbrev S4096x128 : Shape := ⟨2, ![4096, 128]⟩
abbrev S128x128 : Shape := ⟨2, ![128, 128]⟩
abbrev S16384x128 : Shape := ⟨2, ![16384, 128]⟩
abbrev S16384 : Shape := ⟨1, ![16384]⟩
abbrev S2x4096 : Shape := ⟨2, ![2, 4096]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S2048x128 : S_.BroadcastsInDim S2048x128 (![] : Fin 0 → Fin S2048x128.rank)
  reducesTo_S2048x128_S_d0_1 : S2048x128.ReducesTo [0, 1] S_
  bcast_S_S2048x32 : S_.BroadcastsInDim S2048x32 (![] : Fin 0 → Fin S2048x32.rank)
  reducesTo_S2048x32_S_d0_1 : S2048x32.ReducesTo [0, 1] S_
  bcast_S_S4096x128 : S_.BroadcastsInDim S4096x128 (![] : Fin 0 → Fin S4096x128.rank)
  reducesTo_S4096x128_S_d0_1 : S4096x128.ReducesTo [0, 1] S_
  bcast_S_S128x128 : S_.BroadcastsInDim S128x128 (![] : Fin 0 → Fin S128x128.rank)
  reducesTo_S128x128_S_d0_1 : S128x128.ReducesTo [0, 1] S_
  bcast_S_S16384x128 : S_.BroadcastsInDim S16384x128 (![] : Fin 0 → Fin S16384x128.rank)
  reducesTo_S16384x128_S_d0_1 : S16384x128.ReducesTo [0, 1] S_
  bcast_S_S16384 : S_.BroadcastsInDim S16384 (![] : Fin 0 → Fin S16384.rank)
  reducesTo_S16384_S_d0 : S16384.ReducesTo [0] S_

variable [Facts]

def fn_part4 {F : FTy → Type} [FloatOps F] (main_arg14 : FVec F S16384 .f32) (main_v63 : IVec S_ 1) (main_v67 : IVec S_ 1) : IVec S_ 1 :=
  let main_v68 : IVec S_ 1 := andi main_v63 main_v67
  let main_v69 : FVec F S16384 .f32 := Host.absf main_arg14
  let main_cst_26 : FVec F S_ .f32 := constant S_ .f32 0x7F800000#32
  let main_v70 : FVec F S16384 .f32 := broadcastInDim S16384 ![] bcast_S_S16384 main_cst_26
  let main_v71 : IVec S16384 1 := cmpf .olt main_v69 main_v70
  let main_c_27 : IVec S_ 1 := constantI S_ 1 1#1
  let main_v72 : IVec S_ 1 := (fun x v => Host.reduce IntOp.andi x v reducesTo_S16384_S_d0 h_S_) main_v71 main_c_27
  let main_v73 : IVec S_ 1 := andi main_v68 main_v72
  main_v73

def fn_part3 {F : FTy → Type} [FloatOps F] (main_arg11 : FVec F S128x128 .f32) (main_arg12 : FVec F S128x128 .f32) (main_arg13 : FVec F S16384x128 .f32) (main_arg14 : FVec F S16384 .f32) (main_v48 : IVec S_ 1) (main_v49 : FVec F S4096x128 .f32) (main_v50 : FVec F S4096x128 .f32) : IVec S_ 1 :=
  let main_v51 : IVec S4096x128 1 := cmpf .olt main_v49 main_v50
  let main_c_19 : IVec S_ 1 := constantI S_ 1 1#1
  let main_v52 : IVec S_ 1 := (fun x v => Host.reduce IntOp.andi x v reducesTo_S4096x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S16384x128 .f32 := Host.absf main_arg13
  let main_cst_24 : FVec F S_ .f32 := constant S_ .f32 0x7F800000#32
  let main_v65 : FVec F S16384x128 .f32 := broadcastInDim S16384x128 ![] bcast_S_S16384x128 main_cst_24
  let main_v66 : IVec S16384x128 1 := cmpf .olt main_v64 main_v65
  let main_c_25 : IVec S_ 1 := constantI S_ 1 1#1
  let main_v67 : IVec S_ 1 := (fun x v => Host.reduce IntOp.andi x v reducesTo_S16384x128_S_d0_1 h_S_) main_v66 main_c_25
  fn_part4 (F := F) main_arg14 main_v63 main_v67

def fn_part2 {F : FTy → Type} [FloatOps F] (main_arg7 : FVec F S2048 .f32) (main_arg8 : FVec F S2048 .f32) (main_arg9 : FVec F S4096x128 .f32) (main_arg10 : FVec F S4096x128 .f32) (main_arg11 : FVec F S128x128 .f32) (main_arg12 : FVec F S128x128 .f32) (main_arg13 : FVec F S16384x128 .f32) (main_arg14 : FVec F S16384 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S4096x128 .f32 := Host.absf main_arg9
  let main_cst_16 : FVec F S_ .f32 := constant S_ .f32 0x7F800000#32
  let main_v45 : FVec F S4096x128 .f32 := broadcastInDim S4096x128 ![] bcast_S_S4096x128 main_cst_16
  let main_v46 : IVec S4096x128 1 := cmpf .olt main_v44 main_v45
  let main_c_17 : IVec S_ 1 := constantI S_ 1 1#1
  let main_v47 : IVec S_ 1 := (fun x v => Host.reduce IntOp.andi x v reducesTo_S4096x128_S_d0_1 h_S_) main_v46 main_c_17
  let main_v48 : IVec S_ 1 := andi main_v43 main_v47
  let main_v49 : FVec F S4096x128 .f32 := Host.absf main_arg10
  let main_cst_18 : FVec F S_ .f32 := constant S_ .f32 0x7F800000#32
  let main_v50 : FVec F S4096x128 .f32 := broadcastInDim S4096x128 ![] bcast_S_S4096x128 main_cst_18
  fn_part3 (F := F) main_arg11 main_arg12 main_arg13 main_arg14 main_v48 main_v49 main_v50

def fn_part1 {F : FTy → Type} [FloatOps F] (main_arg4 : FVec F S4096 .f32) (main_arg5 : FVec F S2048x128 .f32) (main_arg6 : FVec F S2048x32 .f32) (main_arg7 : FVec F S2048 .f32) (main_arg8 : FVec F S2048 .f32) (main_arg9 : FVec F S4096x128 .f32) (main_arg10 : FVec F S4096x128 .f32) (main_arg11 : FVec F S128x128 .f32) (main_arg12 : FVec F S128x128 .f32) (main_arg13 : FVec F S16384x128 .f32) (main_arg14 : FVec F S16384 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S2048x128 .f32 := Host.absf main_arg5
  let main_cst_8 : FVec F S_ .f32 := constant S_ .f32 0x7F800000#32
  let main_v25 : FVec F S2048x128 .f32 := broadcastInDim S2048x128 ![] bcast_S_S2048x128 main_cst_8
  let main_v26 : IVec S2048x128 1 := cmpf .olt main_v24 main_v25
  let main_c_9 : IVec S_ 1 := constantI S_ 1 1#1
  let main_v27 : IVec S_ 1 := (fun x v => Host.reduce IntOp.andi x v reducesTo_S2048x128_S_d0_1 h_S_) main_v26 main_c_9
  let main_v28 : IVec S_ 1 := andi main_v23 main_v27
  let main_v29 : FVec F S2048x32 .f32 := Host.absf main_arg6
  let main_cst_10 : FVec F S_ .f32 := constant S_ .f32 0x7F800000#32
  let main_v30 : FVec F S2048x32 .f32 := broadcastInDim S2048x32 ![] bcast_S_S2048x32 main_cst_10
  let main_v31 : IVec S2048x32 1 := cmpf .olt main_v29 main_v30
  let main_c_11 : IVec S_ 1 := constantI S_ 1 1#1
  let main_v32 : IVec S_ 1 := (fun x v => Host.reduce IntOp.andi x v reducesTo_S2048x32_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2x4096x2048 .f32) (main_arg1 : FVec F S2048 .f32) (main_arg2 : FVec F S2048 .f32) (main_arg3 : FVec F S2048x4096 .f32) (main_arg4 : FVec F S4096 .f32) (main_arg5 : FVec F S2048x128 .f32) (main_arg6 : FVec F S2048x32 .f32) (main_arg7 : FVec F S2048 .f32) (main_arg8 : FVec F S2048 .f32) (main_arg9 : FVec F S4096x128 .f32) (main_arg10 : FVec F S4096x128 .f32) (main_arg11 : FVec F S128x128 .f32) (main_arg12 : FVec F S128x128 .f32) (main_arg13 : FVec F S16384x128 .f32) (main_arg14 : FVec F S16384 .f32) (main_arg15 : IVec S2x4096 32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2x4096x2048 : Shape := ⟨3, ![2, 4096, 2048]⟩
abbrev S2048 : Shape := ⟨1, ![2048]⟩
abbrev S2048x4096 : Shape := ⟨2, ![2048, 4096]⟩
abbrev S4096 : Shape := ⟨1, ![4096]⟩
abbrev S2048x128 : Shape := ⟨2, ![2048, 128]⟩
abbrev S2048x32 : Shape := ⟨2, ![2048, 32]⟩
abbrev S4096x128 : Shape := ⟨2, ![4096, 128]⟩
abbrev S128x128 : Shape := ⟨2, ![128, 128]⟩
abbrev S16384x128 : Shape := ⟨2, ![16384, 128]⟩
abbrev S16384 : Shape := ⟨1, ![16384]⟩
abbrev S2x4096 : Shape := ⟨2, ![2, 4096]⟩
abbrev S2x4096x32x128 : Shape := ⟨4, ![2, 4096, 32, 128]⟩
abbrev S2x4096x32 : Shape := ⟨3, ![2, 4096, 32]⟩
abbrev S2x4096x128 : Shape := ⟨3, ![2, 4096, 128]⟩
abbrev S2x4096x1 : Shape := ⟨3, ![2, 4096, 1]⟩
abbrev S1x128x2048 : Shape := ⟨3, ![1, 128, 2048]⟩
abbrev S1x128x32x128 : Shape := ⟨4, ![1, 128, 32, 128]⟩
abbrev S1x128x32 : Shape := ⟨3, ![1, 128, 32]⟩
abbrev S1x128x128 : Shape := ⟨3, ![1, 128, 128]⟩
abbrev S1x128x1 : Shape := ⟨3, ![1, 128, 1]⟩
abbrev S128x2048 : Shape := ⟨2, ![128, 2048]⟩
abbrev S128 : Shape := ⟨1, ![128]⟩
abbrev S128x1 : Shape := ⟨2, ![128, 1]⟩
abbrev S1x2048 : Shape := ⟨2, ![1, 2048]⟩
abbrev S128x4096 : Shape := ⟨2, ![128, 4096]⟩
abbrev S1x4096 : Shape := ⟨2, ![1, 4096]⟩
abbrev S128x32x128 : Shape := ⟨3, ![128, 32, 128]⟩
abbrev S128x1x128 : Shape := ⟨3, ![128, 1, 128]⟩
abbrev S128x32x64 : Shape := ⟨3, ![128, 32, 64]⟩
abbrev S128x32 : Shape := ⟨2, ![128, 32]⟩
abbrev S128x32x1 : Shape := ⟨3, ![128, 32, 1]⟩
abbrev S128x64 : Shape := ⟨2, ![128, 64]⟩
abbrev S8192 : Shape := ⟨1, ![8192]⟩
abbrev S8192x128 : Shape := ⟨2, ![8192, 128]⟩
abbrev S_ : Shape := ⟨0, ![]⟩
abbrev S8192x1 : Shape := ⟨2, ![8192, 1]⟩

abbrev nBuf : Space → Nat
  | .hbm => 48
  | .vmem => 26
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S2048, .f32⟩
  | .hbm, ⟨3, _⟩ => ⟨S2048x4096, .f32⟩
  | .hbm, ⟨4, _⟩ => ⟨S4096, .f32⟩
  | .hbm, ⟨5, _⟩ => ⟨S2048x128, .f32⟩
  | .hbm, ⟨6, _⟩ => ⟨S2048x32, .f32⟩
  | .hbm, ⟨7, _⟩ => ⟨S2048, .f32⟩
  | .hbm, ⟨8, _⟩ => ⟨S2048, .f32⟩
  | .hbm, ⟨9, _⟩ => ⟨S4096x128, .f32⟩
  | .hbm, ⟨10, _⟩ => ⟨S4096x128, .f32⟩
  | .hbm, ⟨11, _⟩ => ⟨S128x128, .f32⟩
  | .hbm, ⟨12, _⟩ => ⟨S128x128, .f32⟩
  | .hbm, ⟨13, _⟩ => ⟨S16384x128, .f32⟩
  | .hbm, ⟨14, _⟩ => ⟨S16384, .f32⟩
  | .hbm, ⟨15, _⟩ => ⟨S2x4096, .i32⟩
  | .hbm, ⟨16, _⟩ => ⟨S2048x4096, .bf16⟩
  | .hbm, ⟨17, _⟩ => ⟨S2048x128, .bf16⟩
  | .hbm, ⟨18, _⟩ => ⟨S2048x32, .bf16⟩
  | .hbm, ⟨19, _⟩ => ⟨S128x128, .bf16⟩
  | .hbm, ⟨20, _⟩ => ⟨S128x128, .bf16⟩
  | .hbm, ⟨21, _⟩ => ⟨S2x4096x32x128, .f32⟩
  | .hbm, ⟨22, _⟩ => ⟨S2x4096x32, .f32⟩
  | .hbm, ⟨23, _⟩ => ⟨S2x4096x128, .f32⟩
  | .hbm, ⟨24, _⟩ => ⟨S2x4096x1, .f32⟩
  | .hbm, ⟨25, _⟩ => ⟨S2x4096x32, .f32⟩
  | .hbm, ⟨26, _⟩ => ⟨S2x4096, .f32⟩
  | .hbm, ⟨27, _⟩ => ⟨S8192, .i32⟩
  | .hbm, ⟨28, _⟩ => ⟨S8192x128, .f32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S8192, .i32⟩
  | .hbm, ⟨36, _⟩ => ⟨S8192x1, .i32⟩
  | .hbm, ⟨37, _⟩ => ⟨S16384x128, .f32⟩
  | .hbm, ⟨38, _⟩ => ⟨S8192, .f32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192x1, .i32⟩
  | .hbm, ⟨47, _⟩ => ⟨S16384, .f32⟩
  | .local _ .vmem, ⟨0, _⟩ => ⟨S1x128x2048, .f32⟩
  | .local _ .vmem, ⟨1, _⟩ => ⟨S1x128x2048, .f32⟩
  | .local _ .vmem, ⟨2, _⟩ => ⟨S2048, .f32⟩
  | .local _ .vmem, ⟨3, _⟩ => ⟨S2048, .f32⟩
  | .local _ .vmem, ⟨4, _⟩ => ⟨S2048x4096, .bf16⟩
  | .local _ .vmem, ⟨5, _⟩ => ⟨S4096, .f32⟩
  | .local _ .vmem, ⟨6, _⟩ => ⟨S2048x128, .bf16⟩
  | .local _ .vmem, ⟨7, _⟩ => ⟨S2048x32, .bf16⟩
  | .local _ .vmem, ⟨8, _⟩ => ⟨S2048, .f32⟩
  | .local _ .vmem, ⟨9, _⟩ => ⟨S2048, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .bf16⟩
  | .local _ .vmem, ⟨15, _⟩ => ⟨S128x128, .bf16⟩
  | .local _ .vmem, ⟨16, _⟩ => ⟨S1x128x32x128, .f32⟩
  | .local _ .vmem, ⟨17, _⟩ => ⟨S1x128x32x128, .f32⟩
  | .local _ .vmem, ⟨18, _⟩ => ⟨S1x128x32, .f32⟩
  | .local _ .vmem, ⟨19, _⟩ => ⟨S1x128x32, .f32⟩
  | .local _ .vmem, ⟨20, _⟩ => ⟨S1x128x128, .f32⟩
  | .local _ .vmem, ⟨21, _⟩ => ⟨S1x128x128, .f32⟩
  | .local _ .vmem, ⟨22, _⟩ => ⟨S1x128x1, .f32⟩
  | .local _ .vmem, ⟨23, _⟩ => ⟨S1x128x1, .f32⟩
  | .local _ .vmem, ⟨24, _⟩ => ⟨S1x128x32, .f32⟩
  | .local _ .vmem, ⟨25, _⟩ => ⟨S1x128x32, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev main_v5_4 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_1 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x128x32x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

class Facts₀ : Prop where
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S128x128_S128x128_0_0 : ∀ a, (![0, 0] : Fin 2 → Nat) a + S128x128.size a ≤ S128x128.size a
  h_S128x128 : 0 < S128x128.numel
  reduces_S128x2048_S128 : S128x2048.Reduces [1] S128
  shapeCasts_S128_S128x1 : S128.ShapeCasts S128x1
  broadcasts_S128x1_S128x2048 : S128x1.Broadcasts S128x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S128x4096 : S1x4096.Broadcasts S128x4096
  shapeCasts_S128x4096_S128x32x128 : S128x4096.ShapeCasts S128x32x128
  shapeCasts_S128x128_S128x1x128 : S128x128.ShapeCasts S128x1x128
  slices_S128x32x128_o0_0_64_S128x32x64 : S128x32x128.Slices ![0, 0, 64] S128x32x64
  slices_S128x32x128_o0_0_0_S128x32x64 : S128x32x128.Slices ![0, 0, 0] S128x32x64
  concatenates_S128x32x64_S128x32x64_S128x32x128_d2 : Shape.Concatenates [S128x32x64, S128x32x64] S128x32x128 2
  broadcasts_S128x1x128_S128x32x128 : S128x1x128.Broadcasts S128x32x128
  shapeCasts_S128x32x128_S4096x128 : S128x32x128.ShapeCasts S4096x128
  shapeCasts_S128x128_S128x128 : S128x128.ShapeCasts S128x128
  shapeCasts_S4096x128_S128x32x128 : S4096x128.ShapeCasts S128x32x128
  reduces_S128x32x128_S128x32 : S128x32x128.Reduces [2] S128x32
  shapeCasts_S128x32_S128x32x1 : S128x32.ShapeCasts S128x32x1
  broadcasts_S128x32x1_S128x32x128 : S128x32x1.Broadcasts S128x32x128
  inb_S1x128x32x128_S1x128x32x128_0_0_0_0 : ∀ a, (![0, 0, 0, 0] : Fin 4 → Nat) a + S1x128x32x128.size a ≤ S1x128x32x128.size a
  h_S1x128x32x128 : 0 < S1x128x32x128.numel
  shapeCasts_S1x128x32x128_S128x32x128 : S1x128x32x128.ShapeCasts S128x32x128
  shapeCasts_S128x32x128_S1x128x32x128 : S128x32x128.ShapeCasts S1x128x32x128
  shapeCasts_S128x32x1_S128x32 : S128x32x1.ShapeCasts S128x32
  inb_S1x128x32_S1x128x32_0_0_0 : ∀ a, (![0, 0, 0] : Fin 3 → Nat) a + S1x128x32.size a ≤ S1x128x32.size a
  h_S1x128x32 : 0 < S1x128x32.numel
  shapeCasts_S1x128x32_S128x32 : S1x128x32.ShapeCasts S128x32
  shapeCasts_S128x32_S1x128x32 : S128x32.ShapeCasts S1x128x32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S128x128_o0_64_S128x64 : S128x128.Slices ![0, 64] S128x64
  slices_S128x128_o0_0_S128x64 : S128x128.Slices ![0, 0] S128x64
  concatenates_S128x64_S128x64_S128x128_d1 : Shape.Concatenates [S128x64, S128x64] S128x128 1
  reduces_S128x128_S128 : S128x128.Reduces [1] S128
  broadcasts_S128x1_S128x128 : S128x1.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  shapeCasts_S2x4096x1_S2x4096 : S2x4096x1.ShapeCasts S2x4096
  shapeCasts_S2x4096_S8192 : S2x4096.ShapeCasts S8192
  shapeCasts_S2x4096x128_S8192x128 : S2x4096x128.ShapeCasts S8192x128
  bcast_S_S8192 : S_.BroadcastsInDim S8192 (![] : Fin 0 → Fin S8192.rank)
  bcast_S8192_S8192x1_0 : S8192.BroadcastsInDim S8192x1 (![0] : Fin 1 → Fin S8192x1.rank)
  dot_S128x2048_S2048x4096_S128x4096_1_0_0_1_n_n_wf : DotDims.WF S128x2048 S2048x4096 S128x4096 [1] [0] [0] [1] [] []
  dot_S4096x128_S128x128_S4096x128_1_0_0_1_n_n_wf : DotDims.WF S4096x128 S128x128 S4096x128 [1] [0] [0] [1] [] []
  dot_S128x2048_S2048x128_S128x128_1_0_0_1_n_n_wf : DotDims.WF S128x2048 S2048x128 S128x128 [1] [0] [0] [1] [] []
  dot_S128x128_S128x128_S128x128_1_0_0_1_n_n_wf : DotDims.WF S128x128 S128x128 S128x128 [1] [0] [0] [1] [] []
  dot_S128x2048_S2048x32_S128x32_1_0_0_1_n_n_wf : DotDims.WF S128x2048 S2048x32 S128x32 [1] [0] [0] [1] [] []
  scatter_S16384x128_S8192x1_S8192x128_1_0_0_1_wf : ScatterDims.WF S16384x128 S8192x1 S8192x128 [1] [0] [0] 1
  scatter_S16384_S8192x1_S8192_n_0_0_1_wf : ScatterDims.WF S16384 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S2x4096x2048.size a
  hwx0_0 : ∀ i : grid0.Coords, EltTy.bits .f32 = 32 ∨ (Rect.block (s := S2x4096x2048) S1x128x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x128.size a
  hwx0_5 : ∀ i : grid0.Coords, EltTy.bits .bf16 = 32 ∨ (Rect.block (s := S2048x128) S2048x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x32.size a ≤ S2048x32.size a
  hwx0_6 : ∀ i : grid0.Coords, EltTy.bits .bf16 = 32 ∨ (Rect.block (s := S2048x32) S2048x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S2048.size a
  hwx0_8 : ∀ i : grid0.Coords, EltTy.bits .f32 = 32 ∨ (Rect.block (s := S2048) S2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S4096x128.size a
  hwx0_9 : ∀ i : grid0.Coords, EltTy.bits .f32 = 32 ∨ (Rect.block (s := S4096x128) S128x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S4096x128.size a
  hwx0_10 : ∀ i : grid0.Coords, EltTy.bits .f32 = 32 ∨ (Rect.block (s := S4096x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .bf16 = 32 ∨ (Rect.block (s := S128x128) S128x128.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x128x32x128.size a ≤ S2x4096x32x128.size a
  hwx0_13 : ∀ i : grid0.Coords, EltTy.bits .f32 = 32 ∨ (Rect.block (s := S2x4096x32x128) S1x128x32x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x128x32.size a ≤ S2x4096x32.size a
  hwx0_14 : ∀ i : grid0.Coords, EltTy.bits .f32 = 32 ∨ (Rect.block (s := S2x4096x32) S1x128x32.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x128x128.size a ≤ S2x4096x128.size a
  hwx0_15 : ∀ i : grid0.Coords, EltTy.bits .f32 = 32 ∨ (Rect.block (s := S2x4096x128) S1x128x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x128x1.size a ≤ S2x4096x1.size a
  hwx0_16 : ∀ i : grid0.Coords, EltTy.bits .f32 = 32 ∨ (Rect.block (s := S2x4096x1) S1x128x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x128x32.size a ≤ S2x4096x32.size a
  hwx0_17 : ∀ i : grid0.Coords, EltTy.bits .f32 = 32 ∨ (Rect.block (s := S2x4096x32) S1x128x32.size (cc0_transform_17 i) (hinb0_17 i)).WholeWords (EltTy.packing .f32)

variable [Facts₀]

def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x2048_S2048x32_S128x32_1_0_0_1_n_n : DotDims S128x2048 S2048x32 S128x32 where
  lhsContracting := [1]
  rhsContracting := [0]
  lhsNonContracting := [0]
  rhsNonContracting := [1]
  lhsBatch := []
  rhsBatch := []
  wf := dot_S128x2048_S2048x32_S128x32_1_0_0_1_n_n_wf
def scatter_S16384x128_S8192x1_S8192x128_1_0_0_1 : ScatterDims S16384x128 S8192x1 S8192x128 where
  updateWindowDims := [1]
  insertedWindowDims := [0]
  scatterDimsToOperandDims := [0]
  indexVectorDim := 1
  wf := scatter_S16384x128_S8192x1_S8192x128_1_0_0_1_wf
def scatter_S16384_S8192x1_S8192_n_0_0_1 : ScatterDims S16384 S8192x1 S8192 where
  updateWindowDims := []
  insertedWindowDims := [0]
  scatterDimsToOperandDims := [0]
  indexVectorDim := 1
  wf := scatter_S16384_S8192x1_S8192_n_0_0_1_wf

abbrev win0_0 : Pipeline.Window sig grid0 :=
  Pipeline.Window.ofSpec (Memref.whole main_arg0) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2048x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2048x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5_0) S1x128x32x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5_1) S1x128x32.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v5_2) S1x128x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v5_3) S1x128x1.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v5_4) S1x128x32.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S2x4096x2048 : Shape := ⟨3, ![2, 4096, 2048]⟩
abbrev S2048 : Shape := ⟨1, ![2048]⟩
abbrev S2048x4096 : Shape := ⟨2, ![2048, 4096]⟩
abbrev S4096 : Shape := ⟨1, ![4096]⟩
abbrev S2048x128 : Shape := ⟨2, ![2048, 128]⟩
abbrev S2048x32 : Shape := ⟨2, ![2048, 32]⟩
abbrev S4096x128 : Shape := ⟨2, ![4096, 128]⟩
abbrev S128x128 : Shape := ⟨2, ![128, 128]⟩
abbrev S16384x128 : Shape := ⟨2, ![16384, 128]⟩
abbrev S16384 : Shape := ⟨1, ![16384]⟩
abbrev S2x4096 : Shape := ⟨2, ![2, 4096]⟩
abbrev S_ : Shape := ⟨0, ![]⟩
abbrev S2x4096x1 : Shape := ⟨3, ![2, 4096, 1]⟩
abbrev S1x1x2048 : Shape := ⟨3, ![1, 1, 2048]⟩
abbrev S2x4096x4096 : Shape := ⟨3, ![2, 4096, 4096]⟩
abbrev S1x1x4096 : Shape := ⟨3, ![1, 1, 4096]⟩
abbrev S2x4096x32x128 : Shape := ⟨4, ![2, 4096, 32, 128]⟩
abbrev S1x4096x1x128 : Shape := ⟨4, ![1, 4096, 1, 128]⟩
abbrev S2x4096x32x64 : Shape := ⟨4, ![2, 4096, 32, 64]⟩
abbrev S2x4096x32 : Shape := ⟨3, ![2, 4096, 32]⟩
abbrev S2x4096x32x1 : Shape := ⟨4, ![2, 4096, 32, 1]⟩
abbrev S2x4096x128 : Shape := ⟨3, ![2, 4096, 128]⟩
abbrev S1x4096x128 : Shape := ⟨3, ![1, 4096, 128]⟩
abbrev S2x4096x64 : Shape := ⟨3, ![2, 4096, 64]⟩
abbrev S8192 : Shape := ⟨1, ![8192]⟩
abbrev S8192x128 : Shape := ⟨2, ![8192, 128]⟩
abbrev S8192x1 : Shape := ⟨2, ![8192, 1]⟩

abbrev nBuf : Space → Nat
  | .hbm => 144
  | .vmem => 0
  | .smem => 0
  | _ => 0

abbrev hbmTy0_0 (i : Nat) : BufTy := match i % 128 with
  | 0 => ⟨S2x4096x2048, .f32⟩
  | 1 => ⟨S2048, .f32⟩
  | 2 => ⟨S2048, .f32⟩
  | 3 => ⟨S2048x4096, .f32⟩
  | 4 => ⟨S4096, .f32⟩
  | 5 => ⟨S2048x128, .f32⟩
  | 6 => ⟨S2048x32, .f32⟩
  | 7 => ⟨S2048, .f32⟩
  | 8 => ⟨S2048, .f32⟩
  | 9 => ⟨S4096x128, .f32⟩
  | 10 => ⟨S4096x128, .f32⟩
  | 11 => ⟨S128x128, .f32⟩
  | 12 => ⟨S128x128, .f32⟩
  | 13 => ⟨S16384x128, .f32⟩
  | 14 => ⟨S16384, .f32⟩
  | 15 => ⟨S2x4096, .i32⟩
  | 16 => ⟨S2x4096x2048, .f32⟩
  | 17 => ⟨S_, .f32⟩
  | 18 => ⟨S2x4096, .f32⟩
  | 19 => ⟨S2x4096x1, .f32⟩
  | 20 => ⟨S_, .f32⟩
  | 21 => ⟨S2x4096x1, .f32⟩
  | 22 => ⟨S2x4096x1, .f32⟩
  | 23 => ⟨S_, .f32⟩
  | 24 => ⟨S2x4096x1, .f32⟩
  | 25 => ⟨S2x4096x1, .f32⟩
  | 26 => ⟨S2x4096x1, .f32⟩
  | 27 => ⟨S2x4096x2048, .f32⟩
  | 28 => ⟨S2x4096x2048, .f32⟩
  | 29 => ⟨S1x1x2048, .f32⟩
  | 30 => ⟨S2x4096x2048, .f32⟩
  | 31 => ⟨S2x4096x2048, .f32⟩
  | 32 => ⟨S1x1x2048, .f32⟩
  | 33 => ⟨S2x4096x2048, .f32⟩
  | 34 => ⟨S2x4096x2048, .f32⟩
  | 35 => ⟨S2x4096x4096, .f32⟩
  | 36 => ⟨S1x1x4096, .f32⟩
  | 37 => ⟨S2x4096x4096, .f32⟩
  | 38 => ⟨S2x4096x4096, .f32⟩
  | 39 => ⟨S2x4096x32x128, .f32⟩
  | 40 => ⟨S1x4096x1x128, .f32⟩
  | 41 => ⟨S1x4096x1x128, .f32⟩
  | 42 => ⟨S2x4096x32x128, .f32⟩
  | 43 => ⟨S2x4096x32x128, .f32⟩
  | 44 => ⟨S2x4096x32x64, .f32⟩
  | 45 => ⟨S2x4096x32x64, .f32⟩
  | 46 => ⟨S2x4096x32x64, .f32⟩
  | 47 => ⟨S2x4096x32x128, .f32⟩
  | 48 => ⟨S2x4096x32x128, .f32⟩
  | 49 => ⟨S2x4096x32x128, .f32⟩
  | 50 => ⟨S2x4096x32x128, .f32⟩
  | 51 => ⟨S2x4096x32x128, .f32⟩
  | 52 => ⟨S2x4096x32x128, .f32⟩
  | 53 => ⟨S_, .f32⟩
  | 54 => ⟨S2x4096x32, .f32⟩
  | 55 => ⟨S2x4096x32x1, .f32⟩
  | 56 => ⟨S_, .f32⟩
  | 57 => ⟨S2x4096x32x1, .f32⟩
  | 58 => ⟨S2x4096x32x1, .f32⟩
  | 59 => ⟨S_, .f32⟩
  | 60 => ⟨S2x4096x32x1, .f32⟩
  | 61 => ⟨S2x4096x32x1, .f32⟩
  | 62 => ⟨S2x4096x32x128, .f32⟩
  | 63 => ⟨S2x4096x32x128, .f32⟩
  | 64 => ⟨S2x4096x32x128, .f32⟩
  | 65 => ⟨S2x4096x32, .f32⟩
  | 66 => ⟨S_, .f32⟩
  | 67 => ⟨S2x4096, .f32⟩
  | 68 => ⟨S2x4096x1, .f32⟩
  | 69 => ⟨S_, .f32⟩
  | 70 => ⟨S2x4096x1, .f32⟩
  | 71 => ⟨S2x4096x1, .f32⟩
  | 72 => ⟨S2x4096x2048, .f32⟩
  | 73 => ⟨S2x4096x2048, .f32⟩
  | 74 => ⟨S2x4096x2048, .f32⟩
  | 75 => ⟨S_, .f32⟩
  | 76 => ⟨S2x4096, .f32⟩
  | 77 => ⟨S2x4096x1, .f32⟩
  | 78 => ⟨S_, .f32⟩
  | 79 => ⟨S2x4096x1, .f32⟩
  | 80 => ⟨S2x4096x1, .f32⟩
  | 81 => ⟨S2x4096x2048, .f32⟩
  | 82 => ⟨S2x4096x2048, .f32⟩
  | 83 => ⟨S_, .f32⟩
  | 84 => ⟨S2x4096x1, .f32⟩
  | 85 => ⟨S2x4096x1, .f32⟩
  | 86 => ⟨S2x4096x1, .f32⟩
  | 87 => ⟨S2x4096x2048, .f32⟩
  | 88 => ⟨S2x4096x2048, .f32⟩
  | 89 => ⟨S1x1x2048, .f32⟩
  | 90 => ⟨S2x4096x2048, .f32⟩
  | 91 => ⟨S2x4096x2048, .f32⟩
  | 92 => ⟨S1x1x2048, .f32⟩
  | 93 => ⟨S2x4096x2048, .f32⟩
  | 94 => ⟨S2x4096x2048, .f32⟩
  | 95 => ⟨S2x4096x128, .f32⟩
  | 96 => ⟨S1x4096x128, .f32⟩
  | 97 => ⟨S1x4096x128, .f32⟩
  | 98 => ⟨S2x4096x128, .f32⟩
  | 99 => ⟨S2x4096x128, .f32⟩
  | 100 => ⟨S2x4096x64, .f32⟩
  | 101 => ⟨S2x4096x64, .f32⟩
  | 102 => ⟨S2x4096x64, .f32⟩
  | 103 => ⟨S2x4096x128, .f32⟩
  | 104 => ⟨S2x4096x128, .f32⟩
  | 105 => ⟨S2x4096x128, .f32⟩
  | 106 => ⟨S2x4096x128, .f32⟩
  | 107 => ⟨S2x4096x128, .f32⟩
  | 108 => ⟨S2x4096x128, .f32⟩
  | 109 => ⟨S_, .f32⟩
  | 110 => ⟨S2x4096, .f32⟩
  | 111 => ⟨S2x4096x1, .f32⟩
  | 112 => ⟨S_, .f32⟩
  | 113 => ⟨S2x4096x1, .f32⟩
  | 114 => ⟨S2x4096x1, .f32⟩
  | 115 => ⟨S_, .f32⟩
  | 116 => ⟨S2x4096x1, .f32⟩
  | 117 => ⟨S2x4096x1, .f32⟩
  | 118 => ⟨S2x4096x128, .f32⟩
  | 119 => ⟨S2x4096x128, .f32⟩
  | 120 => ⟨S2x4096x128, .f32⟩
  | 121 => ⟨S2x4096, .f32⟩
  | 122 => ⟨S8192, .i32⟩
  | 123 => ⟨S8192x128, .f32⟩
  | 124 => ⟨S_, .i32⟩
  | 125 => ⟨S8192, .i32⟩
  | 126 => ⟨S8192, .i1⟩
  | 127 => ⟨S_, .i32⟩
  | _ => ⟨S2x4096x2048, .f32⟩

abbrev hbmTy0_1 (i : Nat) : BufTy := match i % 128 with
  | 0 => ⟨S8192, .i32⟩
  | 1 => ⟨S8192, .i32⟩
  | 2 => ⟨S8192, .i32⟩
  | 3 => ⟨S8192x1, .i32⟩
  | 4 => ⟨S16384x128, .f32⟩
  | 5 => ⟨S8192, .f32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S16384, .f32⟩
  | 15 => ⟨S2x4096x32, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_cst_8 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_10 : Ref sig .tc := ⟨.hbm, 109, rfl⟩
abbrev main_v82 : Ref sig .tc := ⟨.hbm, 110, rfl⟩
abbrev main_v83 : Ref sig .tc := ⟨.hbm, 111, rfl⟩
abbrev main_cst_11 : Ref sig .tc := ⟨.hbm, 112, rfl⟩
abbrev main_v84 : Ref sig .tc := ⟨.hbm, 113, rfl⟩
abbrev main_v85 : Ref sig .tc := ⟨.hbm, 114, rfl⟩
abbrev main_cst_12 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c : Ref sig .tc := ⟨.hbm, 124, rfl⟩
abbrev main_v94 : Ref sig .tc := ⟨.hbm, 125, rfl⟩
abbrev main_v95 : Ref sig .tc := ⟨.hbm, 126, rfl⟩
abbrev main_c_13 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_c_14 : Ref sig .tc := ⟨.hbm, 134, rfl⟩
abbrev main_v102 : Ref sig .tc := ⟨.hbm, 135, rfl⟩
abbrev main_v103 : Ref sig .tc := ⟨.hbm, 136, rfl⟩
abbrev main_c_15 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩

abbrev nD : Nat := 1
abbrev τ : Topo := Topo.v7x

variable {F : FTy → Type} [FloatOps F]

class Facts₀ : Prop where
  reducesTo_S2x4096x2048_S2x4096_d2 : S2x4096x2048.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x2048_0_1_2 : S2x4096x1.BroadcastsInDim S2x4096x2048 (![0, 1, 2] : Fin 3 → Fin S2x4096x2048.rank)
  bcast_S2048_S1x1x2048_2 : S2048.BroadcastsInDim S1x1x2048 (![2] : Fin 1 → Fin S1x1x2048.rank)
  bcast_S1x1x2048_S2x4096x2048_0_1_2 : S1x1x2048.BroadcastsInDim S2x4096x2048 (![0, 1, 2] : Fin 3 → Fin S2x4096x2048.rank)
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  shapeCasts_S2x4096x4096_S2x4096x32x128 : S2x4096x4096.ShapeCasts S2x4096x32x128
  bcast_S4096x128_S1x4096x1x128_1_3 : S4096x128.BroadcastsInDim S1x4096x1x128 (![1, 3] : Fin 2 → Fin S1x4096x1x128.rank)
  bcast_S1x4096x1x128_S2x4096x32x128_0_1_2_3 : S1x4096x1x128.BroadcastsInDim S2x4096x32x128 (![0, 1, 2, 3] : Fin 4 → Fin S2x4096x32x128.rank)
  slices_S2x4096x32x128_S2x4096x32x64_0_0_0_64 : S2x4096x32x128.Slices ![0, 0, 0, 64] S2x4096x32x64
  slices_S2x4096x32x128_S2x4096x32x64_0_0_0_0 : S2x4096x32x128.Slices ![0, 0, 0, 0] S2x4096x32x64
  concatenates_S2x4096x32x64_S2x4096x32x64_S2x4096x32x128_d3 : Shape.Concatenates [S2x4096x32x64, S2x4096x32x64] S2x4096x32x128 3
  reducesTo_S2x4096x32x128_S2x4096x32_d3 : S2x4096x32x128.ReducesTo [3] S2x4096x32
  bcast_S2x4096x32_S2x4096x32x1_0_1_2 : S2x4096x32.BroadcastsInDim S2x4096x32x1 (![0, 1, 2] : Fin 3 → Fin S2x4096x32x1.rank)
  bcast_S_S2x4096x32x1 : S_.BroadcastsInDim S2x4096x32x1 (![] : Fin 0 → Fin S2x4096x32x1.rank)
  bcast_S2x4096x32x1_S2x4096x32x128_0_1_2_3 : S2x4096x32x1.BroadcastsInDim S2x4096x32x128 (![0, 1, 2, 3] : Fin 4 → Fin S2x4096x32x128.rank)
  shapeCasts_S2x4096x32x1_S2x4096x32 : S2x4096x32x1.ShapeCasts S2x4096x32
  bcast_S4096x128_S1x4096x128_1_2 : S4096x128.BroadcastsInDim S1x4096x128 (![1, 2] : Fin 2 → Fin S1x4096x128.rank)
  bcast_S1x4096x128_S2x4096x128_0_1_2 : S1x4096x128.BroadcastsInDim S2x4096x128 (![0, 1, 2] : Fin 3 → Fin S2x4096x128.rank)
  slices_S2x4096x128_S2x4096x64_0_0_64 : S2x4096x128.Slices ![0, 0, 64] S2x4096x64
  slices_S2x4096x128_S2x4096x64_0_0_0 : S2x4096x128.Slices ![0, 0, 0] S2x4096x64
  concatenates_S2x4096x64_S2x4096x64_S2x4096x128_d2 : Shape.Concatenates [S2x4096x64, S2x4096x64] S2x4096x128 2
  reducesTo_S2x4096x128_S2x4096_d2 : S2x4096x128.ReducesTo [2] S2x4096
  bcast_S2x4096x1_S2x4096x128_0_1_2 : S2x4096x1.BroadcastsInDim S2x4096x128 (![0, 1, 2] : Fin 3 → Fin S2x4096x128.rank)
  shapeCasts_S2x4096x1_S2x4096 : S2x4096x1.ShapeCasts S2x4096
  shapeCasts_S2x4096_S8192 : S2x4096.ShapeCasts S8192
  shapeCasts_S2x4096x128_S8192x128 : S2x4096x128.ShapeCasts S8192x128
  bcast_S_S8192 : S_.BroadcastsInDim S8192 (![] : Fin 0 → Fin S8192.rank)
  bcast_S8192_S8192x1_0 : S8192.BroadcastsInDim S8192x1 (![0] : Fin 1 → Fin S8192x1.rank)
  dot_S2x4096x2048_S2048x4096_S2x4096x4096_2_0_01_1_n_n_wf : DotDims.WF S2x4096x2048 S2048x4096 S2x4096x4096 [2] [0] [0, 1] [1] [] []
  dot_S2x4096x32x128_S128x128_S2x4096x32x128_3_0_012_1_n_n_wf : DotDims.WF S2x4096x32x128 S128x128 S2x4096x32x128 [3] [0] [0, 1, 2] [1] [] []
  dot_S2x4096x2048_S2048x128_S2x4096x128_2_0_01_1_n_n_wf : DotDims.WF S2x4096x2048 S2048x128 S2x4096x128 [2] [0] [0, 1] [1] [] []
  dot_S2x4096x128_S128x128_S2x4096x128_2_0_01_1_n_n_wf : DotDims.WF S2x4096x128 S128x128 S2x4096x128 [2] [0] [0, 1] [1] [] []
  scatter_S16384x128_S8192x1_S8192x128_1_0_0_1_wf : ScatterDims.WF S16384x128 S8192x1 S8192x128 [1] [0] [0] 1
  scatter_S16384_S8192x1_S8192_n_0_0_1_wf : ScatterDims.WF S16384 S8192x1 S8192 [] [0] [0] 1
  dot_S2x4096x2048_S2048x32_S2x4096x32_2_0_01_1_n_n_wf : DotDims.WF S2x4096x2048 S2048x32 S2x4096x32 [2] [0] [0, 1] [1] [] []

variable [Facts₀]

def dot_S2x4096x2048_S2048x4096_S2x4096x4096_2_0_01_1_n_n : DotDims S2x4096x2048 S2048x4096 S2x4096x4096 where
  lhsContracting := [2]
  rhsContracting := [0]
  lhsNonContracting := [0, 1]
  rhsNonContracting := [1]
  lhsBatch := []
  rhsBatch := []
  wf := dot_S2x4096x2048_S2048x4096_S2x4096x4096_2_0_01_1_n_n_wf
def dot_S2x4096x32x128_S128x128_S2x4096x32x128_3_0_012_1_n_n : DotDims S2x4096x32x128 S128x128 S2x4096x32x128 where
  lhsContracting := [3]
  rhsContracting := [0]
  lhsNonContracting := [0, 1, 2]
  rhsNonContracting := [1]
  lhsBatch := []
  rhsBatch := []
  wf := dot_S2x4096x32x128_S128x128_S2x4096x32x128_3_0_012_1_n_n_wf
def dot_S2x4096x2048_S2048x128_S2x4096x128_2_0_01_1_n_n : DotDims S2x4096x2048 S2048x128 S2x4096x128 where
  lhsContracting := [2]
  rhsContracting := [0]
  lhsNonContracting := [0, 1]
  rhsNonContracting := [1]
  lhsBatch := []
  rhsBatch := []
  wf := dot_S2x4096x2048_S2048x128_S2x4096x128_2_0_01_1_n_n_wf
def dot_S2x4096x128_S128x128_S2x4096x128_2_0_01_1_n_n : DotDims S2x4096x128 S128x128 S2x4096x128 where
  lhsContracting := [2]
  rhsContracting := [0]
  lhsNonContracting := [0, 1]
  rhsNonContracting := [1]
  lhsBatch := []
  rhsBatch := []
  wf := dot_S2x4096x128_S128x128_S2x4096x128_2_0_01_1_n_n_wf
def scatter_S16384x128_S8192x1_S8192x128_1_0_0_1 : ScatterDims S16384x128 S8192x1 S8192x128 where
  updateWindowDims := [1]
  insertedWindowDims := [0]
  scatterDimsToOperandDims := [0]
  indexVectorDim := 1
  wf := scatter_S16384x128_S8192x1_S8192x128_1_0_0_1_wf
def scatter_S16384_S8192x1_S8192_n_0_0_1 : ScatterDims S16384 S8192x1 S8192 where
  updateWindowDims := []
  insertedWindowDims := [0]
  scatterDimsToOperandDims := [0]
  indexVectorDim := 1
  wf := scatter_S16384_S8192x1_S8192_n_0_0_1_wf
def dot_S2x4096x2048_S2048x32_S2x4096x32_2_0_01_1_n_n : DotDims S2x4096x2048 S2048x32 S2x4096x32 where
  lhsContracting := [2]
  rhsContracting := [0]
  lhsNonContracting := [0, 1]
  rhsNonContracting := [1]
  lhsBatch := []
  rhsBatch := []
  wf := dot_S2x4096x2048_S2048x32_S2x4096x32_2_0_01_1_n_n_wf

class Facts : Prop extends Facts₀ where

variable [Facts]
-- ==== Proof.Rows.lean ====
/-
  One row's mathematics, over the extended reals, with no program in sight.

  Every entry of the five results depends on ONE row of `x` (its 2048 entries), on ONE row of the two rotation
  tables (128 cosines, 128 sines) and on the whole weight arrays. This module states that dependence as plain
  functions of rows:

  * the query branch: the row scaled by the reciprocal root of its mean square (plus ε) and by two gain vectors, projected
    to 4096 columns, each column scaled, the 4096 columns read as 32 heads of 128, each head rotated (the half-swap with a
    sign, times the sine row, added to the head times the cosine row), mixed by a 128×128 matrix, and quantized: the head's
    scale is its largest absolute entry over 127, floored at a tiny constant, and each entry is rounded (half to even)
    after division by that scale;
  * the key branch: the row centred and scaled by the reciprocal root of its variance (plus ε), gained and shifted,
    projected to 128 columns, rotated, mixed and quantized the same way;
  * the indexer weights: the row projected to 32 columns.

  The float constants are kept as their bit patterns read at the ideal instance; both programs carry the same words,
  so they are never evaluated.
-/
import Idealize.ShloMosaic.PureOps.Ideal

noncomputable section

namespace Cert.Rows

open Idealize.ShloMosaic

/-- 2048.0, the row length the means divide by. -/
abbrev cLen : EReal := Ideal.ofBits .f32 0x45000000#32
/-- The ε added under both reciprocal roots. -/
abbrev cEps : EReal := Ideal.ofBits .f32 0x358637BD#32
/-- 127.0, the quantization range. -/
abbrev cRange : EReal := Ideal.ofBits .f32 0x42FE0000#32
/-- The floor of a quantization scale. -/
abbrev cFloor : EReal := Ideal.ofBits .f32 0x322BCC77#32
/-- −∞, the neutral element the maxima start from. -/
abbrev cBot : EReal := Ideal.ofBits .f32 0xFF800000#32

/-- The mean of a row of 2048 entries: their sum over 2048.0. -/
def mean (v : Fin 2048 → EReal) : EReal := Ideal.div (∑ h, v h) cLen

/-- The reciprocal root of (the mean of the squares plus ε). -/
def invRms (x : Fin 2048 → EReal) : EReal := Ideal.rsqrt (mean (fun h => x h * x h) + cEps)

/-- The query branch's normalized row: `((x · invRms) · g₁) · g₂`. -/
def qIn (x g₁ g₂ : Fin 2048 → EReal) (h : Fin 2048) : EReal := x h * invRms x * g₁ h * g₂ h

/-- A row times a weight matrix: column `j` is the sum over the 2048 entries. -/
def proj {n : Nat} (v : Fin 2048 → EReal) (w : Fin 2048 → Fin n → EReal) (j : Fin n) : EReal := ∑ h, v h * w h j

/-- The query projection with its per-column scale. -/
def qLin (x g₁ g₂ : Fin 2048 → EReal) (w : Fin 2048 → Fin 4096 → EReal) (ws : Fin 4096 → EReal) (j : Fin 4096) : EReal :=
  proj (qIn x g₁ g₂) w j * ws j

/-- Head `hd` of a row of 4096 columns: columns `128·hd … 128·hd + 127`. -/
def headOf (v : Fin 4096 → EReal) (hd : Fin 32) (d : Fin 128) : EReal :=
  v ⟨hd.val * 128 + d.val, by have := hd.isLt; have := d.isLt; omega⟩

/-- The half-swap with a sign: entry `d < 64` is minus entry `d + 64`, entry `d ≥ 64` is entry `d − 64`. -/
def halfSwap (v : Fin 128 → EReal) (d : Fin 128) : EReal :=
  if h : d.val < 64 then -(v ⟨d.val + 64, by omega⟩) else v ⟨d.val - 64, by have := d.isLt; omega⟩

/-- The rotation: `v · cos + halfSwap v · sin`, entry by entry. -/
def rope (v cs sn : Fin 128 → EReal) (d : Fin 128) : EReal := v d * cs d + halfSwap v d * sn d

/-- A row of 128 times a 128×128 matrix. -/
def mix (v : Fin 128 → EReal) (hm : Fin 128 → Fin 128 → EReal) (e : Fin 128) : EReal := ∑ d, v d * hm d e

/-- The quantization scale of a row of 128: its largest absolute entry over 127, floored. -/
def scaleOf (v : Fin 128 → EReal) : EReal :=
  max (Ideal.div ((Finset.univ : Finset (Fin 128)).fold max cBot (fun e => max (v e) (-(v e)))) cRange) cFloor

/-- A quantized entry: the entry over the row's scale, rounded half to even. -/
def quant (v : Fin 128 → EReal) (e : Fin 128) : EReal :=
  Ideal.liftRound Ideal.roundHalfEven (Ideal.div (v e) (scaleOf v))

/-- The query branch's mixed head, before quantization. -/
def qMixed (x g₁ g₂ : Fin 2048 → EReal) (w : Fin 2048 → Fin 4096 → EReal) (ws : Fin 4096 → EReal)
    (cs sn : Fin 128 → EReal) (hm : Fin 128 → Fin 128 → EReal) (hd : Fin 32) : Fin 128 → EReal :=
  mix (rope (headOf (qLin x g₁ g₂ w ws) hd) cs sn) hm

/-- The key branch's centred row. -/
def centred (x : Fin 2048 → EReal) (h : Fin 2048) : EReal := x h - mean x

/-- The key branch's normalized row: `((x − μ) · rsqrt(var + ε)) · γ + β`. -/
def kIn (x γ β : Fin 2048 → EReal) (h : Fin 2048) : EReal :=
  centred x h * Ideal.rsqrt (mean (fun h' => centred x h' * centred x h') + cEps) * γ h + β h

/-- The key branch's mixed row, before quantization. -/
def kMixed (x γ β : Fin 2048 → EReal) (w : Fin 2048 → Fin 128 → EReal) (cs sn : Fin 128 → EReal)
    (hm : Fin 128 → Fin 128 → EReal) : Fin 128 → EReal :=
  mix (rope (proj (kIn x γ β) w) cs sn) hm

end Cert.Rows

end
-- ==== Proof.Arrays.lean ====
/-
  The five results as whole-array functions of the argument arrays, index by index.

  Entry `(b, s, …)` of each result is a function of row `(b, s)` of `x`, of row `s` of the cosine and sine tables, and of
  the weight arrays: the row functions of `Rows`, read off the arrays through their coordinates. Results: the quantized
  query heads `[2, 4096, 32, 128]`, their scales `[2, 4096, 32]`, the quantized keys `[2, 4096, 128]`, the key scales with
  their unit axis `[2, 4096, 1]`, and the indexer weights `[2, 4096, 32]`. (Both programs then scatter the quantized keys
  and the key scales into the caches by the same host operations; that tail is not part of these functions.)
-/
import Idealize.ShloMosaic.Lib.ValueIdx
import proofs.«167153_j59992103190876_2_alg».proof.Proof.Rows

noncomputable section

namespace Cert.Arrays

open Idealize.ShloMosaic Idealize.ShloMosaic.ValueIdx Cert.Rows

/-- A rank-1 array of extended reals. -/
abbrev Arr1 (n : Nat) : Type := (⟨1, ![n]⟩ : Shape).Idx → EReal
/-- A rank-2 array. -/
abbrev Arr2 (a b : Nat) : Type := (⟨2, ![a, b]⟩ : Shape).Idx → EReal
/-- A rank-3 array. -/
abbrev Arr3 (a b c : Nat) : Type := (⟨3, ![a, b, c]⟩ : Shape).Idx → EReal
/-- A rank-4 array. -/
abbrev Arr4 (a b c d : Nat) : Type := (⟨4, ![a, b, c, d]⟩ : Shape).Idx → EReal

/-- A rank-1 array as a function of its one coordinate. -/
def vec {n : Nat} (A : Arr1 n) : Fin n → EReal := fun h => A (ix1 h)
/-- A rank-2 array as a function of its two coordinates. -/
def mat {a b : Nat} (A : Arr2 a b) : Fin a → Fin b → EReal := fun p q => A (ix2 p q)
/-- Row `p` of a rank-2 array. -/
def row2 {a b : Nat} (A : Arr2 a b) (p : Fin a) : Fin b → EReal := fun h => A (ix2 p h)
/-- Row `(p, q)` of a rank-3 array. -/
def row3 {a b c : Nat} (A : Arr3 a b c) (p : Fin a) (q : Fin b) : Fin c → EReal := fun h => A (ix3 p q h)

/-- The quantized query heads. -/
def GQ (X : Arr3 2 4096 2048) (G1 G2 : Arr1 2048) (W : Arr2 2048 4096) (WS : Arr1 4096) (CS SN : Arr2 4096 128)
    (HQ : Arr2 128 128) : Arr4 2 4096 32 128 := fun i =>
  quant (qMixed (row3 X (i 0) (i 1)) (vec G1) (vec G2) (mat W) (vec WS) (row2 CS (i 1)) (row2 SN (i 1)) (mat HQ) (i 2)) (i 3)

/-- The query heads' scales. -/
def GQS (X : Arr3 2 4096 2048) (G1 G2 : Arr1 2048) (W : Arr2 2048 4096) (WS : Arr1 4096) (CS SN : Arr2 4096 128)
    (HQ : Arr2 128 128) : Arr3 2 4096 32 := fun i =>
  scaleOf (qMixed (row3 X (i 0) (i 1)) (vec G1) (vec G2) (mat W) (vec WS) (row2 CS (i 1)) (row2 SN (i 1)) (mat HQ) (i 2))

/-- The quantized keys. -/
def GK (X : Arr3 2 4096 2048) (Γ Β : Arr1 2048) (WK : Arr2 2048 128) (CS SN : Arr2 4096 128) (HK : Arr2 128 128) :
    Arr3 2 4096 128 := fun i =>
  quant (kMixed (row3 X (i 0) (i 1)) (vec Γ) (vec Β) (mat WK) (row2 CS (i 1)) (row2 SN (i 1)) (mat HK)) (i 2)

/-- The key scales, with the unit axis the kernel's result keeps. -/
def GKS (X : Arr3 2 4096 2048) (Γ Β : Arr1 2048) (WK : Arr2 2048 128) (CS SN : Arr2 4096 128) (HK : Arr2 128 128) :
    Arr3 2 4096 1 := fun i =>
  scaleOf (kMixed (row3 X (i 0) (i 1)) (vec Γ) (vec Β) (mat WK) (row2 CS (i 1)) (row2 SN (i 1)) (mat HK))

/-- The indexer weights. -/
def GW (X : Arr3 2 4096 2048) (WP : Arr2 2048 32) : Arr3 2 4096 32 := fun i =>
  proj (row3 X (i 0) (i 1)) (mat WP) (i 2)

end Cert.Arrays

end
-- ==== Proof.PayQuery.lean ====
/-
  The kernel's query branch at one grid point, read at an index.

  One grid point handles 128 rows of `x` (a [1, 128, 2048] block), the matching 128 rows of the cosine and sine tables,
  and the whole weight arrays. The body's arithmetic is a chain of pure vector operations on those blocks. Read at row
  `r`, head `hd` and entry `e`, it is the row mathematics of `Rows`:

  * a lane sum over the 2048 entries of a row is the sum of the row; viewed as a column and broadcast back along the
    lanes it is the same number in every entry of the row; so the scaled row is `Rows.qIn` of row `r`;
  * a matrix product into a zero accumulator is, entry by entry, the sum over the shared coordinate; the [128, 4096]
    product reshaped to [128, 32, 128] puts column `128·hd + d` at `(hd, d)`: `Rows.headOf (Rows.qLin …)`;
  * the two half slices, the subtraction from zero and the join along the last axis are `Rows.halfSwap`;
  * the heads laid out as 4096 rows, times the mixing matrix, and laid out as heads again: `Rows.mix` of the rotated head;
  * the lane maximum of the absolute values, over 127, floored: `Rows.scaleOf`; the division and the rounding: `Rows.quant`.

  Every format change (to bf16 and back) is the identity at the ideal instance. The only law used beyond unfolding is
  `0 − x = −x` on the extended reals, for the half-swap's sign.
-/
import proofs.«167153_j59992103190876_2_alg».proof.Proof.Gen.KernelIdeal.Skeleton
import proofs.«167153_j59992103190876_2_alg».proof.Proof.Arrays
import Idealize.ShloMosaic.Lib.Pipeline.Value
import Idealize.ShloMosaic.Lib.ValueIdx
import Idealize.ShloMosaic.Lib.ValueLayout
import Idealize.ShloMosaic.PureOps.Ideal.Laws

noncomputable section

namespace Cert.PayQuery

open Idealize.ShloMosaic Idealize.ShloMosaic.ValueIdx Cert.KernelIdeal Cert.KernelIdeal.Gen Cert.Rows

/-- A lane sum of a [128, 2048] vector at row `r` is the sum of the row's 2048 entries. -/
theorem laneSum (src : FVec Ideal S128x2048 .f32) (r : Fin 128) :
    multiReduction .add [1] S128 src 0x00000000#32 reduces_S128x2048_S128 (.inl rfl) rfl (ix1 r) = ∑ h : Fin 2048, src (ix2 r h) := by
  refine (Ideal.multiReduction_add_single src 0x00000000#32 reduces_S128x2048_S128 (.inl rfl) rfl (ix1 r)).trans ?_
  refine Finset.sum_congr rfl fun k _ => congrArg src ?_
  funext c; apply Fin.ext
  match c with
  | ⟨0, _⟩ => rfl
  | ⟨1, _⟩ => rfl

/-- A [128] vector viewed as a [128, 1] column reads row `r` at `r`. -/
theorem colCast {φ : FTy} (v : FVec Ideal S128 φ) (r : Fin 128) :
    shapeCast S128x1 v shapeCasts_S128_S128x1 (ix2 r (0 : Fin 1)) = v (ix1 r) := by
  refine shapeCast_apply v _ (ix2 r 0) (ix1 r) ?_
  rw [Shape.rowMajor_val_one, Shape.rowMajor_val_two]
  show r.val = r.val * 1 + 0
  omega

/-- A [128, 1] column broadcast along the lanes reads entry `(r, h)` at `(r, 0)`. -/
theorem colBcast (v : FVec Ideal S128x1 .f32) (r : Fin 128) (h : Fin 2048) :
    broadcastTo S128x2048 v broadcasts_S128x1_S128x2048 (ix2 r h) = v (ix2 r 0) := by
  refine broadcastTo_apply v _ (ix2 r h) (ix2 r 0) ?_
  intro a
  match a with
  | ⟨0, _⟩ => rfl
  | ⟨1, _⟩ => rfl

/-- A [2048] vector viewed as one row and broadcast down 128 rows reads entry `(r, h)` at `h`. -/
theorem rowBcast (v : FVec Ideal S2048 .f32) (r : Fin 128) (h : Fin 2048) :
    broadcastTo S128x2048 (shapeCast S1x2048 v shapeCasts_S2048_S1x2048) broadcasts_S1x2048_S128x2048 (ix2 r h) = v (ix1 h) := by
  refine (broadcastTo_apply _ _ (ix2 r h) (ix2 (0 : Fin 1) h) ?_).trans ?_
  · intro a
    match a with
    | ⟨0, _⟩ => rfl
    | ⟨1, _⟩ => rfl
  · refine shapeCast_apply v _ (ix2 (0 : Fin 1) h) (ix1 h) ?_
    rw [Shape.rowMajor_val_one, Shape.rowMajor_val_two]
    show h.val = 0 * 2048 + h.val
    omega

/-- The block of `x` with its leading unit axis dropped. -/
theorem pay3_apply (x0 : Vec Ideal S1x128x2048 .f32) (r : Fin 128) (h : Fin 2048) :
    k0_pay3 (F := Ideal) x0 (ix2 r h) = x0 (ix3 (0 : Fin 1) r h) := by
  unfold k0_pay3
  refine shapeCast_apply x0 _ (ix2 r h) (ix3 (0 : Fin 1) r h) ?_
  rw [Shape.rowMajor_val_two, Shape.rowMajor_val_three]
  show ((0 : Nat) * 128 + r.val) * 2048 + h.val = r.val * 2048 + h.val
  omega

/-- The reciprocal root acts entry by entry. -/
theorem rsqrt_apply {s : Shape} {φ : FTy} (v : FVec Ideal s φ) (i : s.Idx) : rsqrt v i = Ideal.rsqrt (v i) := rfl

/-- A [4096] vector viewed as one row and broadcast down 128 rows reads entry `(r, j)` at `j`. -/
theorem rowBcastWide (v : FVec Ideal S4096 .f32) (r : Fin 128) (j : Fin 4096) :
    broadcastTo S128x4096 (shapeCast S1x4096 v shapeCasts_S4096_S1x4096) broadcasts_S1x4096_S128x4096 (ix2 r j) = v (ix1 j) := by
  refine (broadcastTo_apply _ _ (ix2 r j) (ix2 (0 : Fin 1) j) ?_).trans ?_
  · intro a
    match a with
    | ⟨0, _⟩ => rfl
    | ⟨1, _⟩ => rfl
  · refine shapeCast_apply v _ (ix2 (0 : Fin 1) j) (ix1 j) ?_
    rw [Shape.rowMajor_val_one, Shape.rowMajor_val_two]
    show j.val = 0 * 4096 + j.val
    omega

/-- The dimensions of the first query product: [128, 2048] times [2048, 4096]. -/
abbrev DQ : DotDims S128x2048 S2048x4096 S128x4096 := dot_S128x2048_S2048x4096_S128x4096_1_0_0_1_n_n

/-- The first query product into a zero accumulator: entry `(r, j)` is the sum over the 2048 shared coordinates. -/
theorem lhsQ_0 (i : S128x4096.Idx) (q : DQ.contr.Idx) : (DQ.lhsIdx i q 0).val = (i 0).val := by
  unfold DotDims.lhsIdx
  rw [dif_neg (show ¬(0 : Fin S128x2048.rank) ∈ DQ.lhsBatch by decide), dif_pos (show (0 : Fin S128x2048.rank) ∈ DQ.lhsNonContracting by decide)]
  rfl
theorem rhsQ_1 (i : S128x4096.Idx) (q : DQ.contr.Idx) : (DQ.rhsIdx i q 1).val = (i 1).val := by
  unfold DotDims.rhsIdx
  rw [dif_neg (show ¬(1 : Fin S2048x4096.rank) ∈ DQ.rhsBatch by decide), dif_pos (show (1 : Fin S2048x4096.rank) ∈ DQ.rhsNonContracting by decide)]
  rfl

/-- The first query product into a zero accumulator: entry `(r, j)` is the sum over the 2048 shared coordinates. -/
theorem matmulQ (lhs : FVec Ideal S128x2048 .bf16) (rhs : FVec Ideal S2048x4096 .bf16) (r : Fin 128) (j : Fin 4096) :
    matmul DQ none lhs rhs (constant S128x4096 .f32 0x00000000#32) (ix2 r j) = ∑ k : Fin 2048, lhs (ix2 r k) * rhs (ix2 k j) := by
  simp only [matmul]
  rw [Ideal.matmul_constant_zero_apply, ← Equiv.sum_comp (contrEquiv1 DQ 2048 rfl rfl).symm]
  refine Finset.sum_congr rfl fun k _ => ?_
  have hk := contrEquiv1_symm_val DQ 2048 rfl rfl k
  have el : DQ.lhsIdx (ix2 r j) ((contrEquiv1 DQ 2048 rfl rfl).symm k) = ix2 r k := funext fun a => Fin.ext (by
    match a with
    | ⟨0, _⟩ => exact lhsQ_0 _ _
    | ⟨1, _⟩ => exact (DQ.lhsIdx_val_of_single rfl _ _).trans hk)
  have er : DQ.rhsIdx (ix2 r j) ((contrEquiv1 DQ 2048 rfl rfl).symm k) = ix2 k j := funext fun a => Fin.ext (by
    match a with
    | ⟨0, _⟩ => exact (DQ.rhsIdx_val_of_single rfl _ _).trans hk
    | ⟨1, _⟩ => exact rhsQ_1 _ _)
  rw [el, er]

/-- The query branch's normalized row, as the kernel computes it from a [128, 2048] block: entry `(r, h)`. -/
theorem normRow (v1 : FVec Ideal S128x2048 .f32) (g1 g2 : Vec Ideal S2048 .f32) (r : Fin 128) (h : Fin 2048) :
    mulf (mulf (mulf v1 (broadcastTo S128x2048 (rsqrt (addf (divf (shapeCast S128x1
        (multiReduction .add [1] S128 (mulf v1 v1) 0x00000000#32 reduces_S128x2048_S128 (.inl rfl) rfl) shapeCasts_S128_S128x1)
        (broadcast S128x1 (Scalar.ofBits (F := Ideal) .f32 0x45000000#32))) (broadcast S128x1 (Scalar.ofBits (F := Ideal) .f32 0x358637BD#32))))
        broadcasts_S128x1_S128x2048))
      (broadcastTo S128x2048 (shapeCast S1x2048 g1 shapeCasts_S2048_S1x2048) broadcasts_S1x2048_S128x2048))
      (broadcastTo S128x2048 (shapeCast S1x2048 g2 shapeCasts_S2048_S1x2048) broadcasts_S1x2048_S128x2048) (ix2 r h)
      = qIn (fun h' => v1 (ix2 r h')) (Cert.Arrays.vec g1) (Cert.Arrays.vec g2) h := by
  simp only [mulf_apply, addf_apply, divf_apply, broadcast_apply, rsqrt_apply, colBcast, rowBcast, colCast]
  rw [laneSum (mulf v1 v1) r]
  rfl

/-- The query projection with its column scale, read as heads: entry `(r, hd, d)` of the kernel's [128, 32, 128] value is
    column `128·hd + d` of row `r`'s scaled projection. -/
theorem pay4_apply (x0 : Vec Ideal S1x128x2048 .f32) (g1 g2 : Vec Ideal S2048 .f32) (w : Vec Ideal S2048x4096 .bf16)
    (ws : Vec Ideal S4096 .f32) (r : Fin 128) (hd : Fin 32) (d : Fin 128) :
    k0_pay4 (F := Ideal) x0 g1 g2 w ws (ix3 r hd d)
      = headOf (qLin (fun h => x0 (ix3 (0 : Fin 1) r h)) (Cert.Arrays.vec g1) (Cert.Arrays.vec g2) (Cert.Arrays.mat w) (Cert.Arrays.vec ws)) hd d := by
  unfold k0_pay4
  refine (shapeCast_apply _ _ (ix3 r hd d)
    (ix2 r (⟨hd.val * 128 + d.val, by have := hd.isLt; have := d.isLt; omega⟩ : Fin 4096)) ?_).trans ?_
  · rw [Shape.rowMajor_val_two, Shape.rowMajor_val_three]
    show r.val * 4096 + (hd.val * 128 + d.val) = (r.val * 32 + hd.val) * 128 + d.val
    omega
  · rw [mulf_apply, matmulQ, rowBcastWide]
    simp only [truncf_apply, shapeCast_self]
    refine congrArg (fun s => s * ws (ix1 _)) (Finset.sum_congr rfl fun k _ => congrArg (fun t => t * w (ix2 k _)) ?_)
    exact (normRow (k0_pay3 (F := Ideal) x0) g1 g2 r k).trans
      (congrArg (fun f => qIn f (Cert.Arrays.vec g1) (Cert.Arrays.vec g2) k) (funext fun h' => pay3_apply x0 r h'))

/-- The kernel's half-swap of a [128, 32, 128] value — minus the upper half of the last axis, then the lower half, joined
    along that axis — read at `(r, hd, d)`. -/
theorem halfSwap_apply (q : FVec Ideal S128x32x128 .f32) (r : Fin 128) (hd : Fin 32) (d : Fin 128) :
    concatenate S128x32x128 2
        [⟨S128x32x64, subf (broadcast S128x32x64 (Scalar.ofBits (F := Ideal) .f32 0x00000000#32))
            (extractStridedSlice S128x32x64 ![0, 0, 64] q slices_S128x32x128_o0_0_64_S128x32x64)⟩,
         ⟨S128x32x64, extractStridedSlice S128x32x64 ![0, 0, 0] q slices_S128x32x128_o0_0_0_S128x32x64⟩]
        concatenates_S128x32x64_S128x32x64_S128x32x128_d2 (ix3 r hd d)
      = halfSwap (fun d' => q (ix3 r hd d')) d := by
  unfold halfSwap
  by_cases h : d.val < 64
  · rw [dif_pos h]
    refine (concatenate_pair_apply_left (t := S128x32x128) (s₁ := S128x32x64) (s₂ := S128x32x64) (2 : Fin S128x32x128.rank) _ _ _ (ix3 r hd d) rfl
      (ix3 r hd (⟨d.val, h⟩ : Fin 64)) ?_).trans ?_
    · intro b
      match b with
      | ⟨0, _⟩ => rfl
      | ⟨1, _⟩ => rfl
      | ⟨2, _⟩ => rfl
    · rw [subf_apply, broadcast_apply,
        extractStridedSlice_apply _ q _ (ix3 r hd (⟨d.val, h⟩ : Fin 64)) (ix3 r hd (⟨d.val + 64, by omega⟩ : Fin 128)) ?_]
      · show Ideal.ofBits .f32 0x00000000#32 - _ = _
        rw [Ideal.ofBits_zero_f32, zero_sub]
      · intro a
        match a with
        | ⟨0, _⟩ => show r.val = 0 + r.val; omega
        | ⟨1, _⟩ => show hd.val = 0 + hd.val; omega
        | ⟨2, _⟩ => show d.val + 64 = 64 + d.val; omega
  · rw [dif_neg h]
    have hd128 := d.isLt
    refine (concatenate_pair_apply_right (t := S128x32x128) (s₁ := S128x32x64) (s₂ := S128x32x64) (2 : Fin S128x32x128.rank) _ _ _ (ix3 r hd d) rfl rfl
      (ix3 r hd (⟨d.val - 64, by omega⟩ : Fin 64)) ?_ ?_).trans ?_
    · intro b hb
      match b with
      | ⟨0, _⟩ => rfl
      | ⟨1, _⟩ => rfl
      | ⟨2, _⟩ => exact absurd rfl hb
    · show d.val - 64 + 64 = d.val
      omega
    · refine extractStridedSlice_apply _ q _ (ix3 r hd (⟨d.val - 64, by omega⟩ : Fin 64)) (ix3 r hd (⟨d.val - 64, by omega⟩ : Fin 128)) ?_
      intro a
      match a with
      | ⟨0, _⟩ => show r.val = 0 + r.val; omega
      | ⟨1, _⟩ => show hd.val = 0 + hd.val; omega
      | ⟨2, _⟩ => show d.val - 64 = 0 + (d.val - 64); omega

/-- A [128, 128] table viewed [128, 1, 128] and broadcast over the 32 heads reads entry `(r, hd, d)` at `(r, d)`. -/
theorem headBcast (v : FVec Ideal S128x128 .f32) (r : Fin 128) (hd : Fin 32) (d : Fin 128) :
    broadcastTo S128x32x128 (shapeCast S128x1x128 v shapeCasts_S128x128_S128x1x128) broadcasts_S128x1x128_S128x32x128 (ix3 r hd d)
      = v (ix2 r d) := by
  refine (broadcastTo_apply _ _ (ix3 r hd d) (ix3 r (0 : Fin 1) d) ?_).trans ?_
  · intro a
    match a with
    | ⟨0, _⟩ => rfl
    | ⟨1, _⟩ => rfl
    | ⟨2, _⟩ => rfl
  · refine shapeCast_apply v _ (ix3 r (0 : Fin 1) d) (ix2 r d) ?_
    rw [Shape.rowMajor_val_two, Shape.rowMajor_val_three]
    show r.val * 128 + d.val = (r.val * 1 + 0) * 128 + d.val
    omega

/-- The rotated half of the query heads at `(r, hd, d)`. -/
theorem pay5_apply (x0 : Vec Ideal S1x128x2048 .f32) (g1 g2 : Vec Ideal S2048 .f32) (w : Vec Ideal S2048x4096 .bf16)
    (ws : Vec Ideal S4096 .f32) (r : Fin 128) (hd : Fin 32) (d : Fin 128) :
    k0_pay5 (F := Ideal) x0 g1 g2 w ws (ix3 r hd d)
      = halfSwap (headOf (qLin (fun h => x0 (ix3 (0 : Fin 1) r h)) (Cert.Arrays.vec g1) (Cert.Arrays.vec g2) (Cert.Arrays.mat w) (Cert.Arrays.vec ws)) hd) d := by
  unfold k0_pay5
  refine (halfSwap_apply (k0_pay4 (F := Ideal) x0 g1 g2 w ws) r hd d).trans ?_
  exact congrArg (fun f => halfSwap f d) (funext fun d' => pay4_apply x0 g1 g2 w ws r hd d')

/-- The query heads times the cosine row at `(r, hd, d)`. -/
theorem pay6_apply (x0 : Vec Ideal S1x128x2048 .f32) (cs : Vec Ideal S128x128 .f32) (g1 g2 : Vec Ideal S2048 .f32)
    (w : Vec Ideal S2048x4096 .bf16) (ws : Vec Ideal S4096 .f32) (r : Fin 128) (hd : Fin 32) (d : Fin 128) :
    k0_pay6 (F := Ideal) x0 cs g1 g2 w ws (ix3 r hd d)
      = headOf (qLin (fun h => x0 (ix3 (0 : Fin 1) r h)) (Cert.Arrays.vec g1) (Cert.Arrays.vec g2) (Cert.Arrays.mat w) (Cert.Arrays.vec ws)) hd d * cs (ix2 r d) := by
  unfold k0_pay6
  rw [mulf_apply, pay4_apply, headBcast]

/-- The sine table broadcast over the heads at `(r, hd, d)`. -/
theorem pay7_apply (sn : Vec Ideal S128x128 .f32) (r : Fin 128) (hd : Fin 32) (d : Fin 128) :
    k0_pay7 (F := Ideal) sn (ix3 r hd d) = sn (ix2 r d) := by
  unfold k0_pay7
  exact headBcast sn r hd d

/-- The dimensions of the mixing product: [4096, 128] times [128, 128]. -/
abbrev DM : DotDims S4096x128 S128x128 S4096x128 := dot_S4096x128_S128x128_S4096x128_1_0_0_1_n_n

theorem lhsM_0 (i : S4096x128.Idx) (q : DM.contr.Idx) : (DM.lhsIdx i q 0).val = (i 0).val := by
  unfold DotDims.lhsIdx
  rw [dif_neg (show ¬(0 : Fin S4096x128.rank) ∈ DM.lhsBatch by decide), dif_pos (show (0 : Fin S4096x128.rank) ∈ DM.lhsNonContracting by decide)]
  rfl
theorem rhsM_1 (i : S4096x128.Idx) (q : DM.contr.Idx) : (DM.rhsIdx i q 1).val = (i 1).val := by
  unfold DotDims.rhsIdx
  rw [dif_neg (show ¬(1 : Fin S128x128.rank) ∈ DM.rhsBatch by decide), dif_pos (show (1 : Fin S128x128.rank) ∈ DM.rhsNonContracting by decide)]
  rfl

/-- The mixing product into a zero accumulator: entry `(p, e)` is the sum over the 128 shared coordinates. -/
theorem matmulM (lhs : FVec Ideal S4096x128 .bf16) (rhs : FVec Ideal S128x128 .bf16) (p : Fin 4096) (e : Fin 128) :
    matmul DM none lhs rhs (constant S4096x128 .f32 0x00000000#32) (ix2 p e) = ∑ k : Fin 128, lhs (ix2 p k) * rhs (ix2 k e) := by
  simp only [matmul]
  rw [Ideal.matmul_constant_zero_apply, ← Equiv.sum_comp (contrEquiv1 DM 128 rfl rfl).symm]
  refine Finset.sum_congr rfl fun k _ => ?_
  have hk := contrEquiv1_symm_val DM 128 rfl rfl k
  have el : DM.lhsIdx (ix2 p e) ((contrEquiv1 DM 128 rfl rfl).symm k) = ix2 p k := funext fun a => Fin.ext (by
    match a with
    | ⟨0, _⟩ => exact lhsM_0 _ _
    | ⟨1, _⟩ => exact (DM.lhsIdx_val_of_single rfl _ _).trans hk)
  have er : DM.rhsIdx (ix2 p e) ((contrEquiv1 DM 128 rfl rfl).symm k) = ix2 k e := funext fun a => Fin.ext (by
    match a with
    | ⟨0, _⟩ => exact (DM.rhsIdx_val_of_single rfl _ _).trans hk
    | ⟨1, _⟩ => exact rhsM_1 _ _)
  rw [el, er]

/-- The 128 rows of 32 heads laid out as 4096 rows: row `32·r + hd` is head `hd` of row `r`. -/
theorem headsAsRows {φ : FTy} (v : FVec Ideal S128x32x128 φ) (r : Fin 128) (hd : Fin 32) (d : Fin 128) :
    shapeCast S4096x128 v shapeCasts_S128x32x128_S4096x128
      (ix2 (⟨r.val * 32 + hd.val, by have := r.isLt; have := hd.isLt; omega⟩ : Fin 4096) d) = v (ix3 r hd d) := by
  refine shapeCast_apply v _ _ (ix3 r hd d) ?_
  rw [Shape.rowMajor_val_two, Shape.rowMajor_val_three]
  show (r.val * 32 + hd.val) * 128 + d.val = (r.val * 32 + hd.val) * 128 + d.val
  rfl

/-- And back: entry `(r, hd, e)` of the 4096 rows viewed as 128 rows of 32 heads. -/
theorem rowsAsHeads {φ : FTy} (v : FVec Ideal S4096x128 φ) (r : Fin 128) (hd : Fin 32) (e : Fin 128) :
    shapeCast S128x32x128 v shapeCasts_S4096x128_S128x32x128 (ix3 r hd e)
      = v (ix2 (⟨r.val * 32 + hd.val, by have := r.isLt; have := hd.isLt; omega⟩ : Fin 4096) e) := by
  refine shapeCast_apply v _ (ix3 r hd e) _ ?_
  rw [Shape.rowMajor_val_two, Shape.rowMajor_val_three]
  show (r.val * 32 + hd.val) * 128 + e.val = (r.val * 32 + hd.val) * 128 + e.val
  rfl

/-- The mixed heads from the three [128, 32, 128] values the body carries (the rotated half, the heads times the cosines,
    the sines): entry `(r, hd, e)` is the head's rotated row times column `e` of the mixing matrix. -/
theorem pay8_apply (v37 v39 v40 : FVec Ideal S128x32x128 .f32) (hq : Vec Ideal S128x128 .bf16)
    (r : Fin 128) (hd : Fin 32) (e : Fin 128) :
    k0_pay8 (F := Ideal) v37 v39 v40 hq (ix3 r hd e)
      = ∑ d : Fin 128, (v39 (ix3 r hd d) + v37 (ix3 r hd d) * v40 (ix3 r hd d)) * hq (ix2 d e) := by
  unfold k0_pay8
  rw [rowsAsHeads, matmulM]
  refine Finset.sum_congr rfl fun d _ => ?_
  rw [headsAsRows]
  simp only [truncf_apply, addf_apply, mulf_apply, shapeCast_self]

/-- A lane maximum of a [128, 32, 128] vector at `(r, hd)`: the fold of `max` from −∞ over the head's 128 entries. -/
theorem laneMax (src : FVec Ideal S128x32x128 .f32) (r : Fin 128) (hd : Fin 32) :
    multiReduction .maximumf [2] S128x32 src 0xFF800000#32 reduces_S128x32x128_S128x32 (.inl rfl) rfl (ix2 r hd)
      = (Finset.univ : Finset (Fin 128)).fold max cBot (fun e => src (ix3 r hd e)) := by
  refine (Ideal.multiReduction_maximumf_single src 0xFF800000#32 reduces_S128x32x128_S128x32 (.inl rfl) rfl (ix2 r hd)).trans ?_
  refine congrArg (fun f => (Finset.univ : Finset (Fin 128)).fold max cBot f) (funext fun e => congrArg src ?_)
  funext c; apply Fin.ext
  match c with
  | ⟨0, _⟩ => rfl
  | ⟨1, _⟩ => rfl
  | ⟨2, _⟩ => rfl

/-- The heads' scales from the same three values, at `(r, hd)`. -/
theorem pay9_apply (v37 v39 v40 : FVec Ideal S128x32x128 .f32) (hq : Vec Ideal S128x128 .bf16) (r : Fin 128) (hd : Fin 32) :
    k0_pay9 (F := Ideal) v37 v39 v40 hq (ix3 r hd (0 : Fin 1))
      = scaleOf (fun e => k0_pay8 (F := Ideal) v37 v39 v40 hq (ix3 r hd e)) := by
  unfold k0_pay9
  rw [maximumf_apply, divf_apply, broadcast_apply, broadcast_apply]
  rw [shapeCast_apply (multiReduction .maximumf [2] S128x32 (absf (k0_pay8 (F := Ideal) v37 v39 v40 hq)) 0xFF800000#32
      reduces_S128x32x128_S128x32 (.inl rfl) rfl) shapeCasts_S128x32_S128x32x1 (ix3 r hd (0 : Fin 1)) (ix2 r hd)
      (by rw [Shape.rowMajor_val_two, Shape.rowMajor_val_three]; show r.val * 32 + hd.val = (r.val * 32 + hd.val) * 1 + 0; omega),
    laneMax]
  rfl

/-- The quantized query heads, as stored: entry `(0, r, hd, e)`. -/
theorem pay10_apply (v37 v39 v40 : FVec Ideal S128x32x128 .f32) (hq : Vec Ideal S128x128 .bf16)
    (r : Fin 128) (hd : Fin 32) (e : Fin 128) :
    k0_pay10 (F := Ideal) v37 v39 v40 hq (ix4 (0 : Fin 1) r hd e)
      = quant (fun e' => k0_pay8 (F := Ideal) v37 v39 v40 hq (ix3 r hd e')) e := by
  unfold k0_pay10
  refine (shapeCast_apply _ _ (ix4 (0 : Fin 1) r hd e) (ix3 r hd e) ?_).trans ?_
  · rw [Shape.rowMajor_val_three, Shape.rowMajor_val_four]
    show (r.val * 32 + hd.val) * 128 + e.val = (((0 : Nat) * 128 + r.val) * 32 + hd.val) * 128 + e.val
    omega
  · show Ideal.liftRound Ideal.roundHalfEven (Ideal.div (k0_pay8 (F := Ideal) v37 v39 v40 hq (ix3 r hd e))
        (broadcastTo S128x32x128 (k0_pay9 (F := Ideal) v37 v39 v40 hq) broadcasts_S128x32x1_S128x32x128 (ix3 r hd e))) = _
    rw [broadcastTo_apply (k0_pay9 (F := Ideal) v37 v39 v40 hq) broadcasts_S128x32x1_S128x32x128 (ix3 r hd e) (ix3 r hd (0 : Fin 1))
      (by intro a; match a with
        | ⟨0, _⟩ => rfl
        | ⟨1, _⟩ => rfl
        | ⟨2, _⟩ => rfl), pay9_apply]
    rfl

/-- The heads' scales, as stored: entry `(0, r, hd)`. -/
theorem pay11_apply (v37 v39 v40 : FVec Ideal S128x32x128 .f32) (hq : Vec Ideal S128x128 .bf16) (r : Fin 128) (hd : Fin 32) :
    k0_pay11 (F := Ideal) v37 v39 v40 hq (ix3 (0 : Fin 1) r hd)
      = scaleOf (fun e => k0_pay8 (F := Ideal) v37 v39 v40 hq (ix3 r hd e)) := by
  unfold k0_pay11
  refine (shapeCast_apply _ _ (ix3 (0 : Fin 1) r hd) (ix2 r hd) ?_).trans ?_
  · rw [Shape.rowMajor_val_two, Shape.rowMajor_val_three]
    show r.val * 32 + hd.val = ((0 : Nat) * 128 + r.val) * 32 + hd.val
    omega
  · refine (shapeCast_apply _ _ (ix2 r hd) (ix3 r hd (0 : Fin 1)) ?_).trans (pay9_apply v37 v39 v40 hq r hd)
    rw [Shape.rowMajor_val_two, Shape.rowMajor_val_three]
    show (r.val * 32 + hd.val) * 1 + 0 = r.val * 32 + hd.val
    omega

section Query

variable (x0 : Vec Ideal S1x128x2048 .f32) (g1 g2 : Vec Ideal S2048 .f32) (w : Vec Ideal S2048x4096 .bf16)
  (ws : Vec Ideal S4096 .f32) (cs sn : Vec Ideal S128x128 .f32) (hq : Vec Ideal S128x128 .bf16)

/-- Row `r` of the block's mixed head `hd`, in the specification's words. -/
abbrev mixedOf (r : Fin 128) (hd : Fin 32) : Fin 128 → EReal :=
  qMixed (fun h => x0 (ix3 (0 : Fin 1) r h)) (Cert.Arrays.vec g1) (Cert.Arrays.vec g2) (Cert.Arrays.mat w) (Cert.Arrays.vec ws)
    (fun d => cs (ix2 r d)) (fun d => sn (ix2 r d)) (Cert.Arrays.mat hq) hd

/-- The body's mixed heads are the specification's. -/
theorem mixed_eq (r : Fin 128) (hd : Fin 32) (e : Fin 128) :
    k0_pay8 (F := Ideal) (k0_pay5 x0 g1 g2 w ws) (k0_pay6 x0 cs g1 g2 w ws) (k0_pay7 sn) hq (ix3 r hd e)
      = mixedOf x0 g1 g2 w ws cs sn hq r hd e := by
  rw [pay8_apply]
  unfold mixedOf qMixed mix
  refine Finset.sum_congr rfl fun d _ => ?_
  rw [pay5_apply, pay6_apply, pay7_apply]
  rfl

/-- WHAT THE BODY STORES for the quantized query heads, at `(0, r, hd, e)`. -/
theorem payQ (r : Fin 128) (hd : Fin 32) (e : Fin 128) :
    k0_pay10 (F := Ideal) (k0_pay5 x0 g1 g2 w ws) (k0_pay6 x0 cs g1 g2 w ws) (k0_pay7 sn) hq (ix4 (0 : Fin 1) r hd e)
      = quant (mixedOf x0 g1 g2 w ws cs sn hq r hd) e := by
  rw [pay10_apply]
  exact congrArg (fun f => quant f e) (funext fun e' => mixed_eq x0 g1 g2 w ws cs sn hq r hd e')

/-- WHAT THE BODY STORES for the heads' scales, at `(0, r, hd)`. -/
theorem payQS (r : Fin 128) (hd : Fin 32) :
    k0_pay11 (F := Ideal) (k0_pay5 x0 g1 g2 w ws) (k0_pay6 x0 cs g1 g2 w ws) (k0_pay7 sn) hq (ix3 (0 : Fin 1) r hd)
      = scaleOf (mixedOf x0 g1 g2 w ws cs sn hq r hd) := by
  rw [pay11_apply]
  exact congrArg scaleOf (funext fun e' => mixed_eq x0 g1 g2 w ws cs sn hq r hd e')

end Query

end Cert.PayQuery

end
-- ==== Proof.PayKey.lean ====
/-
  The kernel's side of the key branch and of the indexer weights: one grid point's block, read at an index.

  One grid point handles 128 rows. Its stored values are pure terms of the loaded blocks: the block of `x`
  (`[1, 128, 2048]`), the cosine and sine blocks (`[128, 128]`), and the weight arrays whole. This module reads each
  stored value at an index `(0, r, e)` and identifies it with the row functions of `Rows` applied to row `r` of the
  block of `x`, row `r` of the two rotation blocks, and the weights:

  * the indexer weights are the row's projection to 32 columns;
  * the quantized key is the quantization of the mixed row: the row centred, scaled by the reciprocal root of its
    variance plus ε, gained and shifted, projected to 128 columns, rotated, mixed;
  * the key scale is that mixed row's quantization scale.

  Every step is one operation of the program read at an index: a pointwise operation reads through, a shape cast keeps
  the row-major position, a broadcast of a column reads the column's one entry, a lane sum is the sum over the lane, a
  lane maximum the fold of `max` over the lane, and a matrix product into a zero accumulator is the sum over the one
  contracted coordinate.
-/
import proofs.«167153_j59992103190876_2_alg».proof.Proof.Gen.KernelIdeal.Skeleton
import proofs.«167153_j59992103190876_2_alg».proof.Proof.Arrays
import Idealize.ShloMosaic.PureOps.Ideal.Laws
import Idealize.ShloMosaic.Lib.ValueIdx
import Idealize.ShloMosaic.Lib.ValueLayout
import Idealize.ShloMosaic.Lib.Pipeline.Value

noncomputable section

namespace Cert.PayKey

open Idealize.ShloMosaic Idealize.ShloMosaic.ValueIdx Cert.KernelIdeal Cert.KernelIdeal.Gen

/-! ## The three matrix products into a zero accumulator, at an index -/

theorem mm32_lhs0 (i : S128x32.Idx) (q : dot_S128x2048_S2048x32_S128x32_1_0_0_1_n_n.contr.Idx) : (dot_S128x2048_S2048x32_S128x32_1_0_0_1_n_n.lhsIdx i q 0).val = (i 0).val := by
  unfold DotDims.lhsIdx
  rw [dif_neg (show ¬(0 : Fin S128x2048.rank) ∈ dot_S128x2048_S2048x32_S128x32_1_0_0_1_n_n.lhsBatch by decide), dif_pos (show (0 : Fin S128x2048.rank) ∈ dot_S128x2048_S2048x32_S128x32_1_0_0_1_n_n.lhsNonContracting by decide)]
  rfl
theorem mm32_lhs1 (i : S128x32.Idx) (q : dot_S128x2048_S2048x32_S128x32_1_0_0_1_n_n.contr.Idx) : (dot_S128x2048_S2048x32_S128x32_1_0_0_1_n_n.lhsIdx i q 1).val = (q ⟨0, by decide⟩).val :=
  dot_S128x2048_S2048x32_S128x32_1_0_0_1_n_n.lhsIdx_val_of_single rfl i q
theorem mm32_rhs0 (i : S128x32.Idx) (q : dot_S128x2048_S2048x32_S128x32_1_0_0_1_n_n.contr.Idx) : (dot_S128x2048_S2048x32_S128x32_1_0_0_1_n_n.rhsIdx i q 0).val = (q ⟨0, by decide⟩).val :=
  dot_S128x2048_S2048x32_S128x32_1_0_0_1_n_n.rhsIdx_val_of_single rfl i q
theorem mm32_rhs1 (i : S128x32.Idx) (q : dot_S128x2048_S2048x32_S128x32_1_0_0_1_n_n.contr.Idx) : (dot_S128x2048_S2048x32_S128x32_1_0_0_1_n_n.rhsIdx i q 1).val = (i 1).val := by
  unfold DotDims.rhsIdx
  rw [dif_neg (show ¬(1 : Fin S2048x32.rank) ∈ dot_S128x2048_S2048x32_S128x32_1_0_0_1_n_n.rhsBatch by decide), dif_pos (show (1 : Fin S2048x32.rank) ∈ dot_S128x2048_S2048x32_S128x32_1_0_0_1_n_n.rhsNonContracting by decide)]
  rfl

/-- `[128, 2048] × [2048, 32]` into zeros, at `(r, c)`: the sum over the 2048 contracted entries. -/
theorem mm32_apply (lhs : FVec Ideal S128x2048 .bf16) (rhs : FVec Ideal S2048x32 .bf16) (r : Fin 128) (c : Fin 32) :
    FloatOps.matmul dot_S128x2048_S2048x32_S128x32_1_0_0_1_n_n none lhs rhs (constant (F := Ideal) S128x32 .f32 0x00000000#32) (ix2 r c)
      = ∑ k : Fin 2048, lhs (ix2 r k) * rhs (ix2 k c) := by
  rw [Ideal.matmul_constant_zero_apply, ← Equiv.sum_comp (contrEquiv1 dot_S128x2048_S2048x32_S128x32_1_0_0_1_n_n 2048 rfl rfl).symm]
  refine Finset.sum_congr rfl fun k _ => ?_
  have hk := contrEquiv1_symm_val dot_S128x2048_S2048x32_S128x32_1_0_0_1_n_n 2048 rfl rfl k
  have el : dot_S128x2048_S2048x32_S128x32_1_0_0_1_n_n.lhsIdx (ix2 r c) ((contrEquiv1 dot_S128x2048_S2048x32_S128x32_1_0_0_1_n_n 2048 rfl rfl).symm k) = ix2 r k :=
    funext fun a => Fin.ext (by
      match a with
      | ⟨0, _⟩ => exact mm32_lhs0 _ _
      | ⟨1, _⟩ => exact (mm32_lhs1 _ _).trans hk)
  have er : dot_S128x2048_S2048x32_S128x32_1_0_0_1_n_n.rhsIdx (ix2 r c) ((contrEquiv1 dot_S128x2048_S2048x32_S128x32_1_0_0_1_n_n 2048 rfl rfl).symm k) = ix2 k c :=
    funext fun a => Fin.ext (by
      match a with
      | ⟨0, _⟩ => exact (mm32_rhs0 _ _).trans hk
      | ⟨1, _⟩ => exact mm32_rhs1 _ _)
  rw [el, er]

theorem mm128_lhs0 (i : S128x128.Idx) (q : dot_S128x2048_S2048x128_S128x128_1_0_0_1_n_n.contr.Idx) : (dot_S128x2048_S2048x128_S128x128_1_0_0_1_n_n.lhsIdx i q 0).val = (i 0).val := by
  unfold DotDims.lhsIdx
  rw [dif_neg (show ¬(0 : Fin S128x2048.rank) ∈ dot_S128x2048_S2048x128_S128x128_1_0_0_1_n_n.lhsBatch by decide), dif_pos (show (0 : Fin S128x2048.rank) ∈ dot_S128x2048_S2048x128_S128x128_1_0_0_1_n_n.lhsNonContracting by decide)]
  rfl
theorem mm128_lhs1 (i : S128x128.Idx) (q : dot_S128x2048_S2048x128_S128x128_1_0_0_1_n_n.contr.Idx) : (dot_S128x2048_S2048x128_S128x128_1_0_0_1_n_n.lhsIdx i q 1).val = (q ⟨0, by decide⟩).val :=
  dot_S128x2048_S2048x128_S128x128_1_0_0_1_n_n.lhsIdx_val_of_single rfl i q
theorem mm128_rhs0 (i : S128x128.Idx) (q : dot_S128x2048_S2048x128_S128x128_1_0_0_1_n_n.contr.Idx) : (dot_S128x2048_S2048x128_S128x128_1_0_0_1_n_n.rhsIdx i q 0).val = (q ⟨0, by decide⟩).val :=
  dot_S128x2048_S2048x128_S128x128_1_0_0_1_n_n.rhsIdx_val_of_single rfl i q
theorem mm128_rhs1 (i : S128x128.Idx) (q : dot_S128x2048_S2048x128_S128x128_1_0_0_1_n_n.contr.Idx) : (dot_S128x2048_S2048x128_S128x128_1_0_0_1_n_n.rhsIdx i q 1).val = (i 1).val := by
  unfold DotDims.rhsIdx
  rw [dif_neg (show ¬(1 : Fin S2048x128.rank) ∈ dot_S128x2048_S2048x128_S128x128_1_0_0_1_n_n.rhsBatch by decide), dif_pos (show (1 : Fin S2048x128.rank) ∈ dot_S128x2048_S2048x128_S128x128_1_0_0_1_n_n.rhsNonContracting by decide)]
  rfl

/-- `[128, 2048] × [2048, 128]` into zeros, at `(r, c)`: the sum over the 2048 contracted entries. -/
theorem mm128_apply (lhs : FVec Ideal S128x2048 .bf16) (rhs : FVec Ideal S2048x128 .bf16) (r : Fin 128) (c : Fin 128) :
    FloatOps.matmul dot_S128x2048_S2048x128_S128x128_1_0_0_1_n_n none lhs rhs (constant (F := Ideal) S128x128 .f32 0x00000000#32) (ix2 r c)
      = ∑ k : Fin 2048, lhs (ix2 r k) * rhs (ix2 k c) := by
  rw [Ideal.matmul_constant_zero_apply, ← Equiv.sum_comp (contrEquiv1 dot_S128x2048_S2048x128_S128x128_1_0_0_1_n_n 2048 rfl rfl).symm]
  refine Finset.sum_congr rfl fun k _ => ?_
  have hk := contrEquiv1_symm_val dot_S128x2048_S2048x128_S128x128_1_0_0_1_n_n 2048 rfl rfl k
  have el : dot_S128x2048_S2048x128_S128x128_1_0_0_1_n_n.lhsIdx (ix2 r c) ((contrEquiv1 dot_S128x2048_S2048x128_S128x128_1_0_0_1_n_n 2048 rfl rfl).symm k) = ix2 r k :=
    funext fun a => Fin.ext (by
      match a with
      | ⟨0, _⟩ => exact mm128_lhs0 _ _
      | ⟨1, _⟩ => exact (mm128_lhs1 _ _).trans hk)
  have er : dot_S128x2048_S2048x128_S128x128_1_0_0_1_n_n.rhsIdx (ix2 r c) ((contrEquiv1 dot_S128x2048_S2048x128_S128x128_1_0_0_1_n_n 2048 rfl rfl).symm k) = ix2 k c :=
    funext fun a => Fin.ext (by
      match a with
      | ⟨0, _⟩ => exact (mm128_rhs0 _ _).trans hk
      | ⟨1, _⟩ => exact mm128_rhs1 _ _)
  rw [el, er]

theorem mmMix_lhs0 (i : S128x128.Idx) (q : dot_S128x128_S128x128_S128x128_1_0_0_1_n_n.contr.Idx) : (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem mmMix_lhs1 (i : S128x128.Idx) (q : dot_S128x128_S128x128_S128x128_1_0_0_1_n_n.contr.Idx) : (dot_S128x128_S128x128_S128x128_1_0_0_1_n_n.lhsIdx i q 1).val = (q ⟨0, by decide⟩).val :=
  dot_S128x128_S128x128_S128x128_1_0_0_1_n_n.lhsIdx_val_of_single rfl i q
theorem mmMix_rhs0 (i : S128x128.Idx) (q : dot_S128x128_S128x128_S128x128_1_0_0_1_n_n.contr.Idx) : (dot_S128x128_S128x128_S128x128_1_0_0_1_n_n.rhsIdx i q 0).val = (q ⟨0, by decide⟩).val :=
  dot_S128x128_S128x128_S128x128_1_0_0_1_n_n.rhsIdx_val_of_single rfl i q
theorem mmMix_rhs1 (i : S128x128.Idx) (q : dot_S128x128_S128x128_S128x128_1_0_0_1_n_n.contr.Idx) : (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- `[128, 128] × [128, 128]` into zeros, at `(r, c)`: the sum over the 128 contracted entries. -/
theorem mmMix_apply (lhs : FVec Ideal S128x128 .bf16) (rhs : FVec Ideal S128x128 .bf16) (r : Fin 128) (c : Fin 128) :
    FloatOps.matmul dot_S128x128_S128x128_S128x128_1_0_0_1_n_n none lhs rhs (constant (F := Ideal) S128x128 .f32 0x00000000#32) (ix2 r c)
      = ∑ k : Fin 128, lhs (ix2 r k) * rhs (ix2 k c) := by
  rw [Ideal.matmul_constant_zero_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 r c) ((contrEquiv1 dot_S128x128_S128x128_S128x128_1_0_0_1_n_n 128 rfl rfl).symm k) = ix2 r k :=
    funext fun a => Fin.ext (by
      match a with
      | ⟨0, _⟩ => exact mmMix_lhs0 _ _
      | ⟨1, _⟩ => exact (mmMix_lhs1 _ _).trans hk)
  have er : dot_S128x128_S128x128_S128x128_1_0_0_1_n_n.rhsIdx (ix2 r c) ((contrEquiv1 dot_S128x128_S128x128_S128x128_1_0_0_1_n_n 128 rfl rfl).symm k) = ix2 k c :=
    funext fun a => Fin.ext (by
      match a with
      | ⟨0, _⟩ => exact (mmMix_rhs0 _ _).trans hk
      | ⟨1, _⟩ => exact mmMix_rhs1 _ _)
  rw [el, er]

/-! ## The indexer weights -/

/-- The block of `x` with its unit axis dropped, at `(r, h)`: the block at `(0, r, h)`. -/
theorem pay3_apply (x0 : Vec Ideal S1x128x2048 .f32) (r : Fin 128) (h : Fin 2048) :
    k0_pay3 (F := Ideal) x0 (ix2 r h) = x0 (ix3 0 r h) := by
  unfold k0_pay3
  exact shapeCast_1ab_ab_apply x0 _ r h

/-- The indexer weights at `(0, r, e)`: row `r` of the block projected to column `e`. -/
theorem payW (x0 : Vec Ideal S1x128x2048 .f32) (x6 : Vec Ideal S2048x32 .bf16) (r : Fin 128) (e32 : Fin 32) :
    k0_pay2 (F := Ideal) (k0_pay3 x0) x6 (ix3 0 r e32)
      = Rows.proj (fun h => x0 (ix3 0 r h)) (Arrays.mat x6) e32 := by
  unfold k0_pay2
  refine (shapeCast_ab_1ab_apply _ _ 0 r e32).trans ?_
  refine (mm32_apply _ _ r e32).trans ?_
  unfold Rows.proj Arrays.mat
  refine Finset.sum_congr rfl fun k _ => ?_
  rw [truncf_apply, pay3_apply, shapeCast_self]

/-! ## Column forms of a shape cast and a broadcast, and the two lane reductions -/

section Columns
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  have hu : u.val = 0 := by omega
  refine broadcastTo_apply v h (ix2 p c) (ix2 p u) fun ax => ?_
  match ax with
  | ⟨0, _⟩ =>
    show p.val = if a = 1 then 0 else p.val
    split
    · have := p.isLt; omega
    · rfl
  | ⟨1, _⟩ => exact hu

end Columns

/-- The sum along the lanes of a `[128, 2048]` vector, at row `r`: the sum of the row's 2048 entries. -/
theorem laneSum_apply (v : FVec Ideal S128x2048 .f32) (r : Fin 128) :
    multiReduction (F := Ideal) .add [1] S128 v 0x00000000#32 reduces_S128x2048_S128 (.inl rfl) rfl (ix1 r)
      = ∑ k : Fin 2048, v (ix2 r k) := by
  refine (Ideal.multiReduction_add_single v 0x00000000#32 reduces_S128x2048_S128 (.inl rfl) rfl (ix1 r)).trans ?_
  refine Finset.sum_congr rfl fun k _ => congrArg v (funext fun a => Fin.ext ?_)
  match a with
  | ⟨0, _⟩ => rfl
  | ⟨1, _⟩ => rfl

/-- The maximum along the lanes of a `[128, 128]` vector from −∞, at row `r`: the fold of `max` over the row. -/
theorem laneMax_apply (v : FVec Ideal S128x128 .f32) (r : Fin 128) :
    multiReduction (F := Ideal) .maximumf [1] S128 v 0xFF800000#32 reduces_S128x128_S128 (.inl rfl) rfl (ix1 r)
      = (Finset.univ : Finset (Fin 128)).fold max Rows.cBot (fun e => v (ix2 r e)) := by
  refine (Ideal.multiReduction_maximumf_single v 0xFF800000#32 reduces_S128x128_S128 (.inl rfl) rfl (ix1 r)).trans ?_
  refine congrArg (fun f => (Finset.univ : Finset (Fin 128)).fold max Rows.cBot f) (funext fun e => congrArg v (funext fun a => Fin.ext ?_))
  match a with
  | ⟨0, _⟩ => rfl
  | ⟨1, _⟩ => rfl

/-! ## The row's mean, the centred row, and its variance plus ε -/

/-- The column of row means, at `(r, u)`: the mean of row `r`. -/
theorem pay12_apply (v1 : FVec Ideal S128x2048 .f32) (r : Fin 128) (u : Fin 1) :
    k0_pay12 (F := Ideal) v1 (ix2 r u) = Rows.mean (fun h => v1 (ix2 r h)) := by
  unfold k0_pay12 Rows.mean
  refine congrArg (fun s => Ideal.div s Rows.cLen) ?_
  exact (shapeCast_a_a1_apply _ _ r u).trans (laneSum_apply v1 r)

/-- The centred block at `(r, h)`: the entry less the row's mean. -/
theorem pay13_apply (v1 : FVec Ideal S128x2048 .f32) (r : Fin 128) (h : Fin 2048) :
    k0_pay13 (F := Ideal) v1 (ix2 r h) = Rows.centred (fun h' => v1 (ix2 r h')) h := by
  unfold k0_pay13 Rows.centred
  refine congrArg (fun m => v1 (ix2 r h) - m) ?_
  exact (broadcastTo_a1_ab_apply _ _ r h 0).trans (pay12_apply v1 r 0)

/-- The column of variances plus ε, at `(r, u)`: the mean of the squares of the centred row, plus ε. -/
theorem pay14_apply (v1 : FVec Ideal S128x2048 .f32) (r : Fin 128) (u : Fin 1) :
    k0_pay14 (F := Ideal) v1 (ix2 r u)
      = Rows.mean (fun h' => Rows.centred (fun h => v1 (ix2 r h)) h' * Rows.centred (fun h => v1 (ix2 r h)) h') + Rows.cEps := by
  unfold k0_pay14 Rows.mean
  refine congrArg (fun s => Ideal.div s Rows.cLen + Rows.cEps) ?_
  refine (shapeCast_a_a1_apply _ _ r u).trans ?_
  refine (laneSum_apply _ r).trans ?_
  refine Finset.sum_congr rfl fun k _ => ?_
  have hk := pay13_apply v1 r k
  unfold k0_pay13 at hk
  exact congrArg₂ (· * ·) hk hk

/-! ## The key branch: the normalized row, its projection, the rotation, the mixing -/

/-- A vector of 2048 gains laid along every row of a `[128, 2048]` block, at `(r, h)`: gain `h`. -/
theorem rowBcast_apply (v : Vec Ideal S2048 .f32) (r : Fin 128) (h : Fin 2048) :
    broadcastTo S128x2048 (shapeCast S1x2048 v shapeCasts_S2048_S1x2048) broadcasts_S1x2048_S128x2048 (ix2 r h) = v (ix1 h) :=
  (broadcastTo_1b_ab_apply _ _ r h).trans (shapeCast_a_1a_apply v _ 0 h)

/-- The block `((c · rsqrt q) · γ) + β`: a block `c` scaled row by row by the reciprocal root of a column `q`, gained
    and shifted entry by entry along the rows. -/
def normBlock (c : FVec Ideal S128x2048 .f32) (q : FVec Ideal S128x1 .f32) (g b : Vec Ideal S2048 .f32) : FVec Ideal S128x2048 .f32 :=
  addf (mulf (mulf c (broadcastTo S128x2048 (rsqrt q) broadcasts_S128x1_S128x2048))
      (broadcastTo S128x2048 (shapeCast S1x2048 g shapeCasts_S2048_S1x2048) broadcasts_S1x2048_S128x2048))
    (broadcastTo S128x2048 (shapeCast S1x2048 b shapeCasts_S2048_S1x2048) broadcasts_S1x2048_S128x2048)

/-- That block at `(r, h)`. -/
theorem normBlock_apply (c : FVec Ideal S128x2048 .f32) (q : FVec Ideal S128x1 .f32) (g b : Vec Ideal S2048 .f32) (r : Fin 128) (h : Fin 2048) :
    normBlock c q g b (ix2 r h) = c (ix2 r h) * Ideal.rsqrt (q (ix2 r (0 : Fin 1))) * g (ix1 h) + b (ix1 h) := by
  unfold normBlock
  refine congrArg₂ (· + ·) (congrArg₂ (· * ·) (congrArg (c (ix2 r h) * ·) ?_) (rowBcast_apply g r h)) (rowBcast_apply b r h)
  exact broadcastTo_a1_ab_apply _ _ r h 0

/-- The normalized block times the `[2048, 128]` weights. -/
def projBlock (c : FVec Ideal S128x2048 .f32) (q : FVec Ideal S128x1 .f32) (g b : Vec Ideal S2048 .f32) (w : FVec Ideal S2048x128 .bf16) :
    FVec Ideal S128x128 .f32 :=
  matmul dot_S128x2048_S2048x128_S128x128_1_0_0_1_n_n none (truncf .bf16 (normBlock c q g b) bitsLt_bf16_f32)
    (shapeCast S2048x128 w shapeCasts_S2048x128_S2048x128) (constant S128x128 .f32 0x00000000#32)

/-- That product at `(r, d)`: the normalized row projected to column `d`. -/
theorem projBlock_apply (c : FVec Ideal S128x2048 .f32) (q : FVec Ideal S128x1 .f32) (g b : Vec Ideal S2048 .f32) (w : FVec Ideal S2048x128 .bf16)
    (r d : Fin 128) :
    projBlock c q g b w (ix2 r d)
      = Rows.proj (fun h => c (ix2 r h) * Ideal.rsqrt (q (ix2 r (0 : Fin 1))) * g (ix1 h) + b (ix1 h)) (Arrays.mat w) d := by
  unfold projBlock
  refine (mm128_apply _ _ r d).trans ?_
  unfold Rows.proj Arrays.mat
  refine Finset.sum_congr rfl fun h _ => ?_
  exact congrArg₂ (· * ·) (normBlock_apply c q g b r h) (congrFun (shapeCast_self w _) (ix2 h d))

/-- The two halves of every row exchanged, the upper half negated into the lower: at `(r, d)` the half-swap of row `r`. -/
theorem halfSwap_apply (p : FVec Ideal S128x128 .f32) (r d : Fin 128) :
    concatenate S128x128 1
        [⟨S128x64, subf (broadcast S128x64 (Scalar.ofBits (F := Ideal) .f32 0x00000000#32))
            (extractStridedSlice S128x64 ![0, 64] p slices_S128x128_o0_64_S128x64)⟩,
          ⟨S128x64, extractStridedSlice S128x64 ![0, 0] p slices_S128x128_o0_0_S128x64⟩]
        concatenates_S128x64_S128x64_S128x128_d1 (ix2 r d)
      = Rows.halfSwap (fun d' => p (ix2 r d')) d := by
  unfold Rows.halfSwap
  by_cases hd : d.val < 64
  · rw [dif_pos hd]
    refine (concatenate_pair_apply_left (t := S128x128) (s₁ := S128x64) (s₂ := S128x64) (1 : Fin 2) _ _ concatenates_S128x64_S128x64_S128x128_d1 (ix2 r d) rfl
      (ix2 r (⟨d.val, hd⟩ : Fin 64)) (fun b => by match b with | ⟨0, _⟩ => rfl | ⟨1, _⟩ => rfl)).trans ?_
    show Ideal.ofBits .f32 0x00000000#32 - _ = _
    rw [Ideal.ofBits_zero_f32, sub_eq_add_neg, zero_add]
    exact congrArg Neg.neg (slice2_axis1_apply 64 p slices_S128x128_o0_64_S128x64 r ⟨d.val, hd⟩ ⟨d.val + 64, by omega⟩
      (by show d.val + 64 = 64 + d.val; omega))
  · rw [dif_neg hd]
    have hlt : d.val - 64 < 64 := by have := d.isLt; omega
    refine (concatenate_pair_apply_right (t := S128x128) (s₁ := S128x64) (s₂ := S128x64) (1 : Fin 2) _ _ concatenates_S128x64_S128x64_S128x128_d1 (ix2 r d) rfl rfl
      (ix2 r (⟨d.val - 64, hlt⟩ : Fin 64))
      (fun b => by
        match b with
        | ⟨0, _⟩ => exact fun _ => rfl
        | ⟨1, _⟩ => exact fun hne => absurd (Fin.ext rfl) hne)
      (by show d.val - 64 + 64 = d.val; omega)).trans ?_
    exact slice2_axis1_apply 0 p slices_S128x128_o0_0_S128x64 r ⟨d.val - 64, hlt⟩ ⟨d.val - 64, by have := d.isLt; omega⟩
      (by show d.val - 64 = 0 + (d.val - 64); omega)

/-- The rotation of a `[128, 128]` block: the block times the cosines plus its half-swap times the sines. -/
def ropeBlock (cs sn p : FVec Ideal S128x128 .f32) : FVec Ideal S128x128 .f32 :=
  addf (mulf p cs)
    (mulf (concatenate S128x128 1
        [⟨S128x64, subf (broadcast S128x64 (Scalar.ofBits (F := Ideal) .f32 0x00000000#32))
            (extractStridedSlice S128x64 ![0, 64] p slices_S128x128_o0_64_S128x64)⟩,
          ⟨S128x64, extractStridedSlice S128x64 ![0, 0] p slices_S128x128_o0_0_S128x64⟩]
        concatenates_S128x64_S128x64_S128x128_d1) sn)

/-- The rotated block at `(r, d)`: the rotation of row `r`. -/
theorem ropeBlock_apply (cs sn p : FVec Ideal S128x128 .f32) (r d : Fin 128) :
    ropeBlock cs sn p (ix2 r d)
      = Rows.rope (fun d' => p (ix2 r d')) (fun d' => cs (ix2 r d')) (fun d' => sn (ix2 r d')) d := by
  unfold ropeBlock Rows.rope
  exact congrArg (fun t => p (ix2 r d) * cs (ix2 r d) + t * sn (ix2 r d)) (halfSwap_apply p r d)

/-- The mixed block is the rotated projection times the `[128, 128]` mixing matrix. -/
theorem pay15_eq (v2 v3 : Vec Ideal S128x128 .f32) (v78 : FVec Ideal S128x2048 .f32) (v80 : FVec Ideal S128x1 .f32)
    (v84 v88 : Vec Ideal S2048 .f32) (v93 : FVec Ideal S2048x128 .bf16) (v105 : FVec Ideal S128x128 .bf16) :
    k0_pay15 (F := Ideal) v2 v3 v78 v80 v84 v88 v93 v105
      = matmul dot_S128x128_S128x128_S128x128_1_0_0_1_n_n none
          (truncf .bf16 (ropeBlock v2 v3 (projBlock v78 v80 v84 v88 v93)) bitsLt_bf16_f32)
          (shapeCast S128x128 v105 shapeCasts_S128x128_S128x128) (constant S128x128 .f32 0x00000000#32) := rfl

/-- The mixed block at `(r, e)`: the normalized row projected, rotated and mixed. -/
theorem pay15_apply (v2 v3 : Vec Ideal S128x128 .f32) (v78 : FVec Ideal S128x2048 .f32) (v80 : FVec Ideal S128x1 .f32)
    (v84 v88 : Vec Ideal S2048 .f32) (v93 : FVec Ideal S2048x128 .bf16) (v105 : FVec Ideal S128x128 .bf16) (r e : Fin 128) :
    k0_pay15 (F := Ideal) v2 v3 v78 v80 v84 v88 v93 v105 (ix2 r e)
      = Rows.mix (Rows.rope (Rows.proj (fun h => v78 (ix2 r h) * Ideal.rsqrt (v80 (ix2 r (0 : Fin 1))) * v84 (ix1 h) + v88 (ix1 h)) (Arrays.mat v93))
          (fun d => v2 (ix2 r d)) (fun d => v3 (ix2 r d))) (Arrays.mat v105) e := by
  rw [pay15_eq]
  refine (mmMix_apply _ _ r e).trans ?_
  unfold Rows.mix Arrays.mat
  refine Finset.sum_congr rfl fun d _ => ?_
  refine congrArg₂ (· * ·) ?_ (congrFun (shapeCast_self v105 _) (ix2 d e))
  refine (ropeBlock_apply v2 v3 _ r d).trans ?_
  exact congrArg (fun f => Rows.rope f (fun d' => v2 (ix2 r d')) (fun d' => v3 (ix2 r d')) d)
    (funext fun d' => projBlock_apply v78 v80 v84 v88 v93 r d')

/-! ## The quantization scale and the quantized entries -/

/-- The column of scales at `(r, u)`: the quantization scale of row `r` of the mixed block. -/
theorem pay16_apply (v2 v3 : Vec Ideal S128x128 .f32) (v78 : FVec Ideal S128x2048 .f32) (v80 : FVec Ideal S128x1 .f32)
    (v84 v88 : Vec Ideal S2048 .f32) (v93 : FVec Ideal S2048x128 .bf16) (v105 : FVec Ideal S128x128 .bf16) (r : Fin 128) (u : Fin 1) :
    k0_pay16 (F := Ideal) v2 v3 v78 v80 v84 v88 v93 v105 (ix2 r u)
      = Rows.scaleOf (fun e => k0_pay15 (F := Ideal) v2 v3 v78 v80 v84 v88 v93 v105 (ix2 r e)) := by
  unfold k0_pay16 Rows.scaleOf
  generalize k0_pay15 (F := Ideal) v2 v3 v78 v80 v84 v88 v93 v105 = m
  refine congrArg (fun s => max (Ideal.div s Rows.cRange) Rows.cFloor) ?_
  refine (shapeCast_a_a1_apply _ _ r u).trans ?_
  exact laneMax_apply (absf m) r

/-- The quantized block at `(0, r, e)`: entry `e` of row `r` of the mixed block over the row's scale, rounded. -/
theorem pay17_apply (v2 v3 : Vec Ideal S128x128 .f32) (v78 : FVec Ideal S128x2048 .f32) (v80 : FVec Ideal S128x1 .f32)
    (v84 v88 : Vec Ideal S2048 .f32) (v93 : FVec Ideal S2048x128 .bf16) (v105 : FVec Ideal S128x128 .bf16) (r e : Fin 128) :
    k0_pay17 (F := Ideal) v2 v3 v78 v80 v84 v88 v93 v105 (ix3 0 r e)
      = Rows.quant (fun e' => k0_pay15 (F := Ideal) v2 v3 v78 v80 v84 v88 v93 v105 (ix2 r e')) e := by
  unfold k0_pay17 Rows.quant
  refine (shapeCast_ab_1ab_apply _ _ 0 r e).trans ?_
  refine congrArg (fun s => Ideal.liftRound Ideal.roundHalfEven
    (Ideal.div (k0_pay15 (F := Ideal) v2 v3 v78 v80 v84 v88 v93 v105 (ix2 r e)) s)) ?_
  exact (broadcastTo_a1_ab_apply _ _ r e 0).trans (pay16_apply v2 v3 v78 v80 v84 v88 v93 v105 r 0)

/-- The stored column of scales at `(0, r, 0)`: the column at `(r, 0)`. -/
theorem pay1_apply (v114 : FVec Ideal S128x1 .f32) (r : Fin 128) :
    k0_pay1 (F := Ideal) v114 (ix3 0 r 0) = v114 (ix2 r 0) := by
  unfold k0_pay1
  exact shapeCast_ab_1ab_apply v114 _ 0 r 0

/-! ## The block of `x` put in: the key branch of row `r` -/

section Block
variable (x0 : Vec Ideal S1x128x2048 .f32) (x5 : Vec Ideal S2048x128 .bf16) (x7 x8 : Vec Ideal S2048 .f32)
  (x9 x10 : Vec Ideal S128x128 .f32) (x12 : Vec Ideal S128x128 .bf16) (r e : Fin 128)

/-- The centred block of `x` at `(r, h)`. -/
theorem centred_x0 (h : Fin 2048) :
    k0_pay13 (F := Ideal) (k0_pay3 x0) (ix2 r h) = Rows.centred (fun h' => x0 (ix3 0 r h')) h :=
  (pay13_apply (k0_pay3 x0) r h).trans
    (congrArg (fun f => Rows.centred f h) (funext fun h' => pay3_apply x0 r h'))

/-- The variance plus ε of row `r` of the block of `x`. -/
theorem var_x0 (u : Fin 1) :
    k0_pay14 (F := Ideal) (k0_pay3 x0) (ix2 r u)
      = Rows.mean (fun h' => Rows.centred (fun h => x0 (ix3 0 r h)) h' * Rows.centred (fun h => x0 (ix3 0 r h)) h') + Rows.cEps :=
  (pay14_apply (k0_pay3 x0) r u).trans
    (congrArg (fun f => Rows.mean (fun h' => Rows.centred f h' * Rows.centred f h') + Rows.cEps)
      (funext fun h' => pay3_apply x0 r h'))

/-- The normalized, gained and shifted row `r` of the block of `x`. -/
theorem kIn_x0 :
    (fun h => k0_pay13 (F := Ideal) (k0_pay3 x0) (ix2 r h) * Ideal.rsqrt (k0_pay14 (F := Ideal) (k0_pay3 x0) (ix2 r (0 : Fin 1)))
        * x7 (ix1 h) + x8 (ix1 h))
      = Rows.kIn (fun h => x0 (ix3 0 r h)) (Arrays.vec x7) (Arrays.vec x8) := by
  funext h
  unfold Rows.kIn Arrays.vec
  exact congrArg₂ (· + ·) (congrArg₂ (· * ·)
    (congrArg₂ (· * ·) (centred_x0 x0 r h) (congrArg Ideal.rsqrt (var_x0 x0 r 0))) rfl) rfl

/-- The mixed block of the key branch at `(r, e)`: the mixed row `r`. -/
theorem mixed_x0 :
    k0_pay15 (F := Ideal) x9 x10 (k0_pay13 (k0_pay3 x0)) (k0_pay14 (k0_pay3 x0)) x7 x8 x5 x12 (ix2 r e)
      = Rows.kMixed (fun h => x0 (ix3 0 r h)) (Arrays.vec x7) (Arrays.vec x8) (Arrays.mat x5)
          (fun d => x9 (ix2 r d)) (fun d => x10 (ix2 r d)) (Arrays.mat x12) e := by
  refine (pay15_apply x9 x10 _ _ x7 x8 x5 x12 r e).trans ?_
  unfold Rows.kMixed
  exact congrArg (fun f => Rows.mix (Rows.rope (Rows.proj f (Arrays.mat x5)) (fun d => x9 (ix2 r d)) (fun d => x10 (ix2 r d)))
    (Arrays.mat x12) e) (kIn_x0 x0 x7 x8 r)

/-- THE QUANTIZED KEY at `(0, r, e)` of a grid point's block: the quantization of the mixed row `r`, entry `e`. -/
theorem payK :
    k0_pay17 (F := Ideal) x9 x10 (k0_pay13 (k0_pay3 x0)) (k0_pay14 (k0_pay3 x0)) x7 x8 x5 x12 (ix3 0 r e)
      = Rows.quant (Rows.kMixed (fun h => x0 (ix3 0 r h)) (Arrays.vec x7) (Arrays.vec x8) (Arrays.mat x5)
          (fun d => x9 (ix2 r d)) (fun d => x10 (ix2 r d)) (Arrays.mat x12)) e :=
  (pay17_apply x9 x10 _ _ x7 x8 x5 x12 r e).trans
    (congrArg (fun f => Rows.quant f e) (funext fun e' => mixed_x0 x0 x5 x7 x8 x9 x10 x12 r e'))

/-- THE KEY SCALE at `(0, r, 0)` of a grid point's block: the quantization scale of the mixed row `r`. -/
theorem payKS :
    k0_pay1 (F := Ideal) (k0_pay16 x9 x10 (k0_pay13 (k0_pay3 x0)) (k0_pay14 (k0_pay3 x0)) x7 x8 x5 x12) (ix3 0 r 0)
      = Rows.scaleOf (Rows.kMixed (fun h => x0 (ix3 0 r h)) (Arrays.vec x7) (Arrays.vec x8) (Arrays.mat x5)
          (fun d => x9 (ix2 r d)) (fun d => x10 (ix2 r d)) (Arrays.mat x12)) :=
  (pay1_apply _ r).trans ((pay16_apply x9 x10 _ _ x7 x8 x5 x12 r 0).trans
    (congrArg Rows.scaleOf (funext fun e' => mixed_x0 x0 x5 x7 x8 x9 x10 x12 r e')))

end Block

end Cert.PayKey

end
-- ==== Proof.KBlocks.lean ====
/-
  From one grid point's blocks to the arrays.

  The kernel runs on a grid of 64 points: point `t` is batch `t / 32` and row tile `t % 32`, and handles rows
  `128·(t % 32) … 128·(t % 32) + 127` of that batch. Its windows cut the arrays accordingly: `x`'s block is rows of one
  batch, the cosine and sine blocks are the same rows of the two tables (they do not depend on the batch), the gain
  vectors and the weight matrices are whole at every point, and each result's block is the rows the point computed.

  So an entry of an input block IS an entry of the array the region finds (one lemma per window, the printed index maps
  decided once over the 64 points), and what point `t` writes back to a result window is the block, at `t`, of the
  result's whole-array function (`Arrays`) of those arrays: the body's stores read at an index (`PayQuery`, `PayKey`),
  every block entry replaced by the array entry it is.
-/
import proofs.«167153_j59992103190876_2_alg».proof.Proof.Gen.KernelIdeal.Frame
import proofs.«167153_j59992103190876_2_alg».proof.Proof.Arrays
import proofs.«167153_j59992103190876_2_alg».proof.Proof.PayQuery
import proofs.«167153_j59992103190876_2_alg».proof.Proof.PayKey
import Idealize.ShloMosaic.Lib.Pipeline.Value
import Idealize.ShloMosaic.Lib.ValueIdx

noncomputable section

namespace Cert.KBlocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The grid has 64 points: point `t` is batch `t / 32`, row tile `t % 32`. -/
theorem hN : cfg0.N = 64 := N_0

/-- The printed index maps, decided once over the grid: `x`'s window and the five result windows sit at block
    `(t / 32, t % 32, 0 …)`, the cosine and sine windows at `(t % 32, 0)`. -/
theorem idx_facts : ∀ t : Fin cfg0.N,
    win0_0.index t (0 : Fin 3) = t.val / 32 ∧ win0_0.index t (1 : Fin 3) = t.val % 32 ∧ win0_0.index t (2 : Fin 3) = 0
    ∧ win0_9.index t (0 : Fin 2) = t.val % 32 ∧ win0_9.index t (1 : Fin 2) = 0
    ∧ win0_10.index t (0 : Fin 2) = t.val % 32 ∧ win0_10.index t (1 : Fin 2) = 0 :=
  (by decide +kernel : ∀ t : Fin grid0.N, _)

/-- The result windows' index maps, likewise. -/
theorem out_facts : ∀ t : Fin cfg0.N,
    (win0_13.index t (0 : Fin 4) = t.val / 32 ∧ win0_13.index t (1 : Fin 4) = t.val % 32 ∧ win0_13.index t (2 : Fin 4) = 0 ∧ win0_13.index t (3 : Fin 4) = 0)
    ∧ (win0_14.index t (0 : Fin 3) = t.val / 32 ∧ win0_14.index t (1 : Fin 3) = t.val % 32 ∧ win0_14.index t (2 : Fin 3) = 0)
    ∧ (win0_15.index t (0 : Fin 3) = t.val / 32 ∧ win0_15.index t (1 : Fin 3) = t.val % 32 ∧ win0_15.index t (2 : Fin 3) = 0)
    ∧ (win0_16.index t (0 : Fin 3) = t.val / 32 ∧ win0_16.index t (1 : Fin 3) = t.val % 32 ∧ win0_16.index t (2 : Fin 3) = 0)
    ∧ (win0_17.index t (0 : Fin 3) = t.val / 32 ∧ win0_17.index t (1 : Fin 3) = t.val % 32 ∧ win0_17.index t (2 : Fin 3) = 0) :=
  (by decide +kernel : ∀ t : Fin grid0.N, _)

/-- The batch a point works on. -/
def bOf (t : Fin cfg0.N) : Fin 2 := ⟨t.val / 32, by have h1 := t.isLt; have h2 : cfg0.N = 64 := hN; omega⟩
/-- The array row a point's block row `r` is. -/
def sOf (t : Fin cfg0.N) (r : Fin 128) : Fin 4096 := ⟨t.val % 32 * 128 + r.val, by have := r.isLt; omega⟩

/-- `x`'s block at point `t`, entry `(0, r, h)`, is the array's entry `(t / 32, 128·(t % 32) + r, h)`. -/
theorem blk_x (c : Dev nD) (t : Fin cfg0.N) (r : Fin 128) (h : Fin 2048) :
    iblk m c 0 t (ix3 (0 : Fin 1) r h) = V m c main_arg0 (ix3 (bOf t) (sOf t r) h) := by
  obtain ⟨e0, e1, e2, -⟩ := idx_facts t
  show V m c main_arg0 (((cfg0.win 0).blk t).view.emb (ix3 (0 : Fin 1) r h)) = _
  refine congrArg (V m c main_arg0) ?_
  funext a
  apply Fin.ext
  match a with
  | ⟨0, _⟩ => show win0_0.index t (0 : Fin 3) * 1 + 1 * 0 = t.val / 32; omega
  | ⟨1, _⟩ => show win0_0.index t (1 : Fin 3) * 128 + 1 * r.val = t.val % 32 * 128 + r.val; omega
  | ⟨2, _⟩ => show win0_0.index t (2 : Fin 3) * 2048 + 1 * h.val = h.val; omega

/-- The cosine table's block at point `t`, entry `(r, d)`, is the table's entry `(128·(t % 32) + r, d)`. -/
theorem blk_cos (c : Dev nD) (t : Fin cfg0.N) (r : Fin 128) (d : Fin 128) :
    iblk m c 9 t (ix2 r d) = V m c main_arg9 (ix2 (sOf t r) d) := by
  obtain ⟨-, -, -, e0, e1, -⟩ := idx_facts t
  show V m c main_arg9 (((cfg0.win 9).blk t).view.emb (ix2 r d)) = _
  refine congrArg (V m c main_arg9) ?_
  funext a
  apply Fin.ext
  match a with
  | ⟨0, _⟩ => show win0_9.index t (0 : Fin 2) * 128 + 1 * r.val = t.val % 32 * 128 + r.val; omega
  | ⟨1, _⟩ => show win0_9.index t (1 : Fin 2) * 128 + 1 * d.val = d.val; omega

/-- The sine table's block, likewise. -/
theorem blk_sin (c : Dev nD) (t : Fin cfg0.N) (r : Fin 128) (d : Fin 128) :
    iblk m c 10 t (ix2 r d) = V m c main_arg10 (ix2 (sOf t r) d) := by
  obtain ⟨-, -, -, -, -, e0, e1⟩ := idx_facts t
  show V m c main_arg10 (((cfg0.win 10).blk t).view.emb (ix2 r d)) = _
  refine congrArg (V m c main_arg10) ?_
  funext a
  apply Fin.ext
  match a with
  | ⟨0, _⟩ => show win0_10.index t (0 : Fin 2) * 128 + 1 * r.val = t.val % 32 * 128 + r.val; omega
  | ⟨1, _⟩ => show win0_10.index t (1 : Fin 2) * 128 + 1 * d.val = d.val; omega

/-- The windows that hold a whole array: every block index is zero. -/
theorem whole_facts : ∀ t : Fin cfg0.N,
    win0_1.index t (0 : Fin 1) = 0 ∧ win0_2.index t (0 : Fin 1) = 0
    ∧ (win0_3.index t (0 : Fin 2) = 0 ∧ win0_3.index t (1 : Fin 2) = 0) ∧ win0_4.index t (0 : Fin 1) = 0
    ∧ (win0_5.index t (0 : Fin 2) = 0 ∧ win0_5.index t (1 : Fin 2) = 0)
    ∧ (win0_6.index t (0 : Fin 2) = 0 ∧ win0_6.index t (1 : Fin 2) = 0)
    ∧ win0_7.index t (0 : Fin 1) = 0 ∧ win0_8.index t (0 : Fin 1) = 0
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

theorem blk_g1 (c : Dev nD) (t : Fin cfg0.N) (h : Fin 2048) : iblk m c 1 t (ix1 h) = V m c main_arg1 (ix1 h) := by
  obtain ⟨e, -⟩ := whole_facts t
  show V m c main_arg1 (((cfg0.win 1).blk t).view.emb (ix1 h)) = _
  refine congrArg (V m c main_arg1) ?_
  funext a; apply Fin.ext
  match a with
  | ⟨0, _⟩ => show win0_1.index t (0 : Fin 1) * 2048 + 1 * h.val = h.val; omega

theorem blk_g2 (c : Dev nD) (t : Fin cfg0.N) (h : Fin 2048) : iblk m c 2 t (ix1 h) = V m c main_arg2 (ix1 h) := by
  obtain ⟨-, e, -⟩ := whole_facts t
  show V m c main_arg2 (((cfg0.win 2).blk t).view.emb (ix1 h)) = _
  refine congrArg (V m c main_arg2) ?_
  funext a; apply Fin.ext
  match a with
  | ⟨0, _⟩ => show win0_2.index t (0 : Fin 1) * 2048 + 1 * h.val = h.val; omega

theorem blk_wq (c : Dev nD) (t : Fin cfg0.N) (h : Fin 2048) (j : Fin 4096) : iblk m c 3 t (ix2 h j) = V m c main_v0 (ix2 h j) := by
  obtain ⟨-, -, ⟨e0, e1⟩, -⟩ := whole_facts t
  show V m c main_v0 (((cfg0.win 3).blk t).view.emb (ix2 h j)) = _
  refine congrArg (V m c main_v0) ?_
  funext a; apply Fin.ext
  match a with
  | ⟨0, _⟩ => show win0_3.index t (0 : Fin 2) * 2048 + 1 * h.val = h.val; omega
  | ⟨1, _⟩ => show win0_3.index t (1 : Fin 2) * 4096 + 1 * j.val = j.val; omega

theorem blk_ws (c : Dev nD) (t : Fin cfg0.N) (j : Fin 4096) : iblk m c 4 t (ix1 j) = V m c main_arg4 (ix1 j) := by
  obtain ⟨-, -, -, e, -⟩ := whole_facts t
  show V m c main_arg4 (((cfg0.win 4).blk t).view.emb (ix1 j)) = _
  refine congrArg (V m c main_arg4) ?_
  funext a; apply Fin.ext
  match a with
  | ⟨0, _⟩ => show win0_4.index t (0 : Fin 1) * 4096 + 1 * j.val = j.val; omega

theorem blk_wk (c : Dev nD) (t : Fin cfg0.N) (h : Fin 2048) (d : Fin 128) : iblk m c 5 t (ix2 h d) = V m c main_v1 (ix2 h d) := by
  obtain ⟨-, -, -, -, ⟨e0, e1⟩, -⟩ := whole_facts t
  show V m c main_v1 (((cfg0.win 5).blk t).view.emb (ix2 h d)) = _
  refine congrArg (V m c main_v1) ?_
  funext a; apply Fin.ext
  match a with
  | ⟨0, _⟩ => show win0_5.index t (0 : Fin 2) * 2048 + 1 * h.val = h.val; omega
  | ⟨1, _⟩ => show win0_5.index t (1 : Fin 2) * 128 + 1 * d.val = d.val; omega

theorem blk_wp (c : Dev nD) (t : Fin cfg0.N) (h : Fin 2048) (e : Fin 32) : iblk m c 6 t (ix2 h e) = V m c main_v2 (ix2 h e) := by
  obtain ⟨-, -, -, -, -, ⟨e0, e1⟩, -⟩ := whole_facts t
  show V m c main_v2 (((cfg0.win 6).blk t).view.emb (ix2 h e)) = _
  refine congrArg (V m c main_v2) ?_
  funext a; apply Fin.ext
  match a with
  | ⟨0, _⟩ => show win0_6.index t (0 : Fin 2) * 2048 + 1 * h.val = h.val; omega
  | ⟨1, _⟩ => show win0_6.index t (1 : Fin 2) * 32 + 1 * e.val = e.val; omega

theorem blk_gamma (c : Dev nD) (t : Fin cfg0.N) (h : Fin 2048) : iblk m c 7 t (ix1 h) = V m c main_arg7 (ix1 h) := by
  obtain ⟨-, -, -, -, -, -, e, -⟩ := whole_facts t
  show V m c main_arg7 (((cfg0.win 7).blk t).view.emb (ix1 h)) = _
  refine congrArg (V m c main_arg7) ?_
  funext a; apply Fin.ext
  match a with
  | ⟨0, _⟩ => show win0_7.index t (0 : Fin 1) * 2048 + 1 * h.val = h.val; omega

theorem blk_beta (c : Dev nD) (t : Fin cfg0.N) (h : Fin 2048) : iblk m c 8 t (ix1 h) = V m c main_arg8 (ix1 h) := by
  obtain ⟨-, -, -, -, -, -, -, e, -⟩ := whole_facts t
  show V m c main_arg8 (((cfg0.win 8).blk t).view.emb (ix1 h)) = _
  refine congrArg (V m c main_arg8) ?_
  funext a; apply Fin.ext
  match a with
  | ⟨0, _⟩ => show win0_8.index t (0 : Fin 1) * 2048 + 1 * h.val = h.val; omega

theorem blk_hq (c : Dev nD) (t : Fin cfg0.N) (d e : Fin 128) : iblk m c 11 t (ix2 d e) = V m c main_v3 (ix2 d e) := by
  obtain ⟨-, -, -, -, -, -, -, -, ⟨e0, e1⟩, -⟩ := whole_facts t
  show V m c main_v3 (((cfg0.win 11).blk t).view.emb (ix2 d e)) = _
  refine congrArg (V m c main_v3) ?_
  funext a; apply Fin.ext
  match a with
  | ⟨0, _⟩ => show win0_11.index t (0 : Fin 2) * 128 + 1 * d.val = d.val; omega
  | ⟨1, _⟩ => show win0_11.index t (1 : Fin 2) * 128 + 1 * e.val = e.val; omega

theorem blk_hk (c : Dev nD) (t : Fin cfg0.N) (d e : Fin 128) : iblk m c 12 t (ix2 d e) = V m c main_v4 (ix2 d e) := by
  obtain ⟨-, -, -, -, -, -, -, -, -, ⟨e0, e1⟩⟩ := whole_facts t
  show V m c main_v4 (((cfg0.win 12).blk t).view.emb (ix2 d e)) = _
  refine congrArg (V m c main_v4) ?_
  funext a; apply Fin.ext
  match a with
  | ⟨0, _⟩ => show win0_12.index t (0 : Fin 2) * 128 + 1 * d.val = d.val; omega
  | ⟨1, _⟩ => show win0_12.index t (1 : Fin 2) * 128 + 1 * e.val = e.val; omega

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

open Cert.Rows Cert.Arrays

/-- The quantized query heads of the arrays as the region finds them. -/
abbrev GQV (c : Dev nD) : S2x4096x32x128.Idx → EReal :=
  GQ (V m c main_arg0) (V m c main_arg1) (V m c main_arg2) (V m c main_v0) (V m c main_arg4) (V m c main_arg9) (V m c main_arg10) (V m c main_v3)

/-- Their scales, likewise. -/
abbrev GQSV (c : Dev nD) : S2x4096x32.Idx → EReal :=
  GQS (V m c main_arg0) (V m c main_arg1) (V m c main_arg2) (V m c main_v0) (V m c main_arg4) (V m c main_arg9) (V m c main_arg10) (V m c main_v3)

/-- Row `r` of point `t`'s mixed head, in the body's blocks, is the specification's mixed head of array row
    `(t / 32, 128·(t % 32) + r)`. -/
theorem mixed_blk (c : Dev nD) (t : Fin cfg0.N) (r : Fin 128) (hd : Fin 32) :
    Cert.PayQuery.mixedOf (iblk m c 0 t) (iblk m c 1 t) (iblk m c 2 t) (iblk m c 3 t) (iblk m c 4 t) (iblk m c 9 t) (iblk m c 10 t) (iblk m c 11 t) r hd
      = qMixed (row3 (V m c main_arg0) (bOf t) (sOf t r)) (vec (V m c main_arg1)) (vec (V m c main_arg2)) (mat (V m c main_v0)) (vec (V m c main_arg4))
          (row2 (V m c main_arg9) (sOf t r)) (row2 (V m c main_arg10) (sOf t r)) (mat (V m c main_v3)) hd := by
  unfold Cert.PayQuery.mixedOf vec mat row2 row3
  simp only [blk_x, blk_g1, blk_g2, blk_wq, blk_ws, blk_cos, blk_sin, blk_hq]

/-- WHAT POINT `t` WRITES BACK for the quantized query heads: block `t` of `GQ` of the arrays the region finds. -/
theorem flushed13 (c : Dev nD) (t : Fin cfg0.N) :
    (dats m 0 c).flushed 13 t = ((cfg0.win 13).blk t).view.read (Elt Ideal) (GQV m c) := by
  show (cfg0.win 13).cut (grid0.coords t) ((dats m 0 c).after 13 t) = _
  rw [after0_13]
  unfold out0_13
  rw [View.canon_unit_zero hz4]
  simp only [View.ld_unit_zero (S := S1x128x2048) hz3, View.ld_unit_zero (S := S2048) hz1, View.ld_unit_zero (S := S2048x4096) hz2,
    View.ld_unit_zero (S := S4096) hz1, View.ld_unit_zero (S := S128x128) hz2]
  funext j
  obtain ⟨u, r, hd, e, rfl⟩ : ∃ (u : Fin 1) (r : Fin 128) (hd : Fin 32) (e : Fin 128), j = ix4 u r hd e := ⟨j 0, j 1, j 2, j 3, eq_ix4 j⟩
  obtain rfl : u = 0 := Subsingleton.elim _ _
  obtain ⟨⟨o0, o1, o2, o3⟩, -⟩ := out_facts t
  refine (Cert.PayQuery.payQ (iblk m c 0 t) (iblk m c 1 t) (iblk m c 2 t) (iblk m c 3 t) (iblk m c 4 t) (iblk m c 9 t) (iblk m c 10 t)
    (iblk m c 11 t) r hd e).trans ?_
  rw [mixed_blk]
  have hi : ((cfg0.win 13).blk t).view.emb (ix4 (0 : Fin 1) r hd e) = ix4 (bOf t) (sOf t r) hd e := by
    funext a; apply Fin.ext
    match a with
    | ⟨0, _⟩ => show win0_13.index t (0 : Fin 4) * 1 + 1 * 0 = t.val / 32; omega
    | ⟨1, _⟩ => show win0_13.index t (1 : Fin 4) * 128 + 1 * r.val = t.val % 32 * 128 + r.val; omega
    | ⟨2, _⟩ => show win0_13.index t (2 : Fin 4) * 32 + 1 * hd.val = hd.val; omega
    | ⟨3, _⟩ => show win0_13.index t (3 : Fin 4) * 128 + 1 * e.val = e.val; omega
  show _ = GQV m c (((cfg0.win 13).blk t).view.emb (ix4 (0 : Fin 1) r hd e))
  rw [hi]
  rfl

/-- WHAT POINT `t` WRITES BACK for the heads' scales. -/
theorem flushed14 (c : Dev nD) (t : Fin cfg0.N) :
    (dats m 0 c).flushed 14 t = ((cfg0.win 14).blk t).view.read (Elt Ideal) (GQSV m c) := by
  show (cfg0.win 14).cut (grid0.coords t) ((dats m 0 c).after 14 t) = _
  rw [after0_14]
  unfold out0_14
  rw [View.canon_unit_zero hz3]
  simp only [View.ld_unit_zero (S := S1x128x2048) hz3, View.ld_unit_zero (S := S2048) hz1, View.ld_unit_zero (S := S2048x4096) hz2,
    View.ld_unit_zero (S := S4096) hz1, View.ld_unit_zero (S := S128x128) hz2]
  funext j
  obtain ⟨u, r, hd, rfl⟩ : ∃ (u : Fin 1) (r : Fin 128) (hd : Fin 32), j = ix3 u r hd := ⟨j 0, j 1, j 2, eq_ix3 j⟩
  obtain rfl : u = 0 := Subsingleton.elim _ _
  obtain ⟨-, ⟨o0, o1, o2⟩, -⟩ := out_facts t
  refine (Cert.PayQuery.payQS (iblk m c 0 t) (iblk m c 1 t) (iblk m c 2 t) (iblk m c 3 t) (iblk m c 4 t) (iblk m c 9 t) (iblk m c 10 t)
    (iblk m c 11 t) r hd).trans ?_
  rw [mixed_blk]
  have hi : ((cfg0.win 14).blk t).view.emb (ix3 (0 : Fin 1) r hd) = ix3 (bOf t) (sOf t r) hd := by
    funext a; apply Fin.ext
    match a with
    | ⟨0, _⟩ => show win0_14.index t (0 : Fin 3) * 1 + 1 * 0 = t.val / 32; omega
    | ⟨1, _⟩ => show win0_14.index t (1 : Fin 3) * 128 + 1 * r.val = t.val % 32 * 128 + r.val; omega
    | ⟨2, _⟩ => show win0_14.index t (2 : Fin 3) * 32 + 1 * hd.val = hd.val; omega
  show _ = GQSV m c (((cfg0.win 14).blk t).view.emb (ix3 (0 : Fin 1) r hd))
  rw [hi]
  rfl

/-- The quantized keys of the arrays as the region finds them. -/
abbrev GKV (c : Dev nD) : S2x4096x128.Idx → EReal :=
  GK (V m c main_arg0) (V m c main_arg7) (V m c main_arg8) (V m c main_v1) (V m c main_arg9) (V m c main_arg10) (V m c main_v4)

/-- The key scales, with their unit axis, likewise. -/
abbrev GKSV (c : Dev nD) : S2x4096x1.Idx → EReal :=
  GKS (V m c main_arg0) (V m c main_arg7) (V m c main_arg8) (V m c main_v1) (V m c main_arg9) (V m c main_arg10) (V m c main_v4)

/-- The indexer weights, likewise. -/
abbrev GWV (c : Dev nD) : S2x4096x32.Idx → EReal := GW (V m c main_arg0) (V m c main_v2)

/-- Row `r` of point `t`'s mixed key row, in the body's blocks, is the specification's of array row `(t / 32, 128·(t % 32) + r)`. -/
theorem kmixed_blk (c : Dev nD) (t : Fin cfg0.N) (r : Fin 128) :
    kMixed (fun h => iblk m c 0 t (ix3 (0 : Fin 1) r h)) (vec (iblk m c 7 t)) (vec (iblk m c 8 t)) (mat (iblk m c 5 t))
        (fun d => iblk m c 9 t (ix2 r d)) (fun d => iblk m c 10 t (ix2 r d)) (mat (iblk m c 12 t))
      = kMixed (row3 (V m c main_arg0) (bOf t) (sOf t r)) (vec (V m c main_arg7)) (vec (V m c main_arg8)) (mat (V m c main_v1))
          (row2 (V m c main_arg9) (sOf t r)) (row2 (V m c main_arg10) (sOf t r)) (mat (V m c main_v4)) := by
  unfold vec mat row2 row3
  simp only [blk_x, blk_gamma, blk_beta, blk_wk, blk_cos, blk_sin, blk_hk]

/-- WHAT POINT `t` WRITES BACK for the quantized keys. -/
theorem flushed15 (c : Dev nD) (t : Fin cfg0.N) :
    (dats m 0 c).flushed 15 t = ((cfg0.win 15).blk t).view.read (Elt Ideal) (GKV m c) := by
  show (cfg0.win 15).cut (grid0.coords t) ((dats m 0 c).after 15 t) = _
  rw [after0_15]
  unfold out0_15
  rw [View.canon_unit_zero hz3]
  simp only [View.ld_unit_zero (S := S1x128x2048) hz3, View.ld_unit_zero (S := S2048) hz1, View.ld_unit_zero (S := S2048x128) hz2,
    View.ld_unit_zero (S := S128x128) hz2]
  funext j
  obtain ⟨u, r, e, rfl⟩ : ∃ (u : Fin 1) (r : Fin 128) (e : Fin 128), j = ix3 u r e := ⟨j 0, j 1, j 2, eq_ix3 j⟩
  obtain rfl : u = 0 := Subsingleton.elim _ _
  obtain ⟨-, -, ⟨o0, o1, o2⟩, -⟩ := out_facts t
  refine (Cert.PayKey.payK (iblk m c 0 t) (iblk m c 5 t) (iblk m c 7 t) (iblk m c 8 t) (iblk m c 9 t) (iblk m c 10 t) (iblk m c 12 t) r e).trans ?_
  rw [kmixed_blk]
  have hi : ((cfg0.win 15).blk t).view.emb (ix3 (0 : Fin 1) r e) = ix3 (bOf t) (sOf t r) e := by
    funext a; apply Fin.ext
    match a with
    | ⟨0, _⟩ => show win0_15.index t (0 : Fin 3) * 1 + 1 * 0 = t.val / 32; omega
    | ⟨1, _⟩ => show win0_15.index t (1 : Fin 3) * 128 + 1 * r.val = t.val % 32 * 128 + r.val; omega
    | ⟨2, _⟩ => show win0_15.index t (2 : Fin 3) * 128 + 1 * e.val = e.val; omega
  show _ = GKV m c (((cfg0.win 15).blk t).view.emb (ix3 (0 : Fin 1) r e))
  rw [hi]
  rfl

/-- WHAT POINT `t` WRITES BACK for the key scales. -/
theorem flushed16 (c : Dev nD) (t : Fin cfg0.N) :
    (dats m 0 c).flushed 16 t = ((cfg0.win 16).blk t).view.read (Elt Ideal) (GKSV m c) := by
  show (cfg0.win 16).cut (grid0.coords t) ((dats m 0 c).after 16 t) = _
  rw [after0_16]
  unfold out0_16
  rw [View.canon_unit_zero hz3]
  simp only [View.ld_unit_zero (S := S1x128x2048) hz3, View.ld_unit_zero (S := S2048) hz1, View.ld_unit_zero (S := S2048x128) hz2,
    View.ld_unit_zero (S := S128x128) hz2]
  funext j
  obtain ⟨u, r, z, rfl⟩ : ∃ (u : Fin 1) (r : Fin 128) (z : Fin 1), j = ix3 u r z := ⟨j 0, j 1, j 2, eq_ix3 j⟩
  obtain rfl : u = 0 := Subsingleton.elim _ _
  obtain rfl : z = 0 := Subsingleton.elim _ _
  obtain ⟨-, -, -, ⟨o0, o1, o2⟩, -⟩ := out_facts t
  refine (Cert.PayKey.payKS (iblk m c 0 t) (iblk m c 5 t) (iblk m c 7 t) (iblk m c 8 t) (iblk m c 9 t) (iblk m c 10 t) (iblk m c 12 t) r).trans ?_
  rw [kmixed_blk]
  have hi : ((cfg0.win 16).blk t).view.emb (ix3 (0 : Fin 1) r (0 : Fin 1)) = ix3 (bOf t) (sOf t r) (0 : Fin 1) := by
    funext a; apply Fin.ext
    match a with
    | ⟨0, _⟩ => show win0_16.index t (0 : Fin 3) * 1 + 1 * 0 = t.val / 32; omega
    | ⟨1, _⟩ => show win0_16.index t (1 : Fin 3) * 128 + 1 * r.val = t.val % 32 * 128 + r.val; omega
    | ⟨2, _⟩ => show win0_16.index t (2 : Fin 3) * 1 + 1 * 0 = 0; omega
  show _ = GKSV m c (((cfg0.win 16).blk t).view.emb (ix3 (0 : Fin 1) r (0 : Fin 1)))
  rw [hi]
  rfl

/-- WHAT POINT `t` WRITES BACK for the indexer weights. -/
theorem flushed17 (c : Dev nD) (t : Fin cfg0.N) :
    (dats m 0 c).flushed 17 t = ((cfg0.win 17).blk t).view.read (Elt Ideal) (GWV m c) := by
  show (cfg0.win 17).cut (grid0.coords t) ((dats m 0 c).after 17 t) = _
  rw [after0_17]
  unfold out0_17
  rw [View.canon_unit_zero hz3]
  simp only [View.ld_unit_zero (S := S1x128x2048) hz3, View.ld_unit_zero (S := S2048x32) hz2]
  funext j
  obtain ⟨u, r, e, rfl⟩ : ∃ (u : Fin 1) (r : Fin 128) (e : Fin 32), j = ix3 u r e := ⟨j 0, j 1, j 2, eq_ix3 j⟩
  obtain rfl : u = 0 := Subsingleton.elim _ _
  obtain ⟨-, -, -, -, ⟨o0, o1, o2⟩⟩ := out_facts t
  refine (Cert.PayKey.payW (iblk m c 0 t) (iblk m c 6 t) r e).trans ?_
  have hx : (fun h => iblk m c 0 t (ix3 (0 : Fin 1) r h)) = row3 (V m c main_arg0) (bOf t) (sOf t r) := funext fun h => blk_x m c t r h
  have hw : mat (iblk m c 6 t) = mat (V m c main_v2) := by
    unfold mat
    simp only [blk_wp]
  rw [hx, hw]
  have hi : ((cfg0.win 17).blk t).view.emb (ix3 (0 : Fin 1) r e) = ix3 (bOf t) (sOf t r) e := by
    funext a; apply Fin.ext
    match a with
    | ⟨0, _⟩ => show win0_17.index t (0 : Fin 3) * 1 + 1 * 0 = t.val / 32; omega
    | ⟨1, _⟩ => show win0_17.index t (1 : Fin 3) * 128 + 1 * r.val = t.val % 32 * 128 + r.val; omega
    | ⟨2, _⟩ => show win0_17.index t (2 : Fin 3) * 32 + 1 * e.val = e.val; omega
  show _ = GWV m c (((cfg0.win 17).blk t).view.emb (ix3 (0 : Fin 1) r e))
  rw [hi]
  rfl

end Cert.KBlocks

end
-- ==== Proof.KCover.lean ====
/-
  The kernel's five result windows tile their arrays.

  The grid has 64 points; point `t` handles batch `t / 32` and row tile `t % 32` (128 rows). Each result array has 2
  batches of 4096 rows, and each result window's block is one batch's 128 consecutive rows, whole on every later axis, at
  block index `(t / 32, t % 32, 0 …)`. So the index `(b, s, …)` of a result array lies in the block of the point with
  block index `(b, s / 128, 0 …)`: `128 · (s / 128) ≤ s < 128 · (s / 128) + 128`, and on the later axes the block is the
  whole extent. Every point writes its blocks back. Hence every index of each result array is in some written-back block.
-/
import proofs.«167153_j59992103190876_2_alg».proof.Proof.Gen.KernelIdeal.Frame
import Idealize.ShloMosaic.Lib.Pipeline.Value
import Idealize.ShloMosaic.Lib.ValueIdx

noncomputable section

namespace Cert.KCover

open Idealize.ShloMosaic Cert.KernelIdeal Cert.KernelIdeal.Gen

/-! ## Window 13: the quantized query heads, `[2, 4096, 32, 128]` in blocks `[1, 128, 32, 128]` -/

/-- The block index of point `t`: batch `t / 32`, row tile `t % 32`, and `0` on every other axis. -/
theorem index13 : ∀ t : Fin cfg0.N, win0_13.index t (0 : Fin 4) = t.val / 32
    ∧ win0_13.index t (1 : Fin 4) = t.val % 32
    ∧ win0_13.index t (2 : Fin 4) = 0
    ∧ win0_13.index t (3 : Fin 4) = 0 :=
  (by decide +kernel : ∀ t : Fin grid0.N, _)

/-- Every batch and row tile is some point's block index. -/
theorem onto13 : ∀ (q0 : Fin 2) (q1 : Fin 32), ∃ t : Fin cfg0.N, win0_13.index t = ![q0.val, q1.val, 0, 0] :=
  (by decide +kernel : ∀ (q0 : Fin 2) (q1 : Fin 32), ∃ t : Fin grid0.N, win0_13.index t = ![q0.val, q1.val, 0, 0])

/-- An index of the array is in point `t`'s block iff each coordinate is in the block's range on its axis. -/
theorem mem_blk13 (t : Fin cfg0.N) (i : S2x4096x32x128.Idx) :
    i ∈ ((cfg0.win 13).blk t).view.set ↔ ∀ a : Fin 4, win0_13.index t a * S1x128x32x128.size a ≤ (i a).val
      ∧ (i a).val < win0_13.index t a * S1x128x32x128.size a + S1x128x32x128.size a := by
  show i ∈ ((View.whole main_v5_0).slice (win0_13.rect t)).set ↔ _
  rw [View.set_slice_whole, Rect.mem_set_unit]
  exact Iff.rfl

/-- THE BLOCKS TILE THE ARRAY: index `(b, s, …)` lies in the block of the point whose block index is `(b, s / 128, 0 …)`,
    and every point writes its block back. -/
theorem cover13 : ∀ i : S2x4096x32x128.Idx, ∃ t : Fin cfg0.N, (cfg0.win 13).flush t = true ∧ i ∈ ((cfg0.win 13).blk t).view.set := by
  intro i
  have hi0 : (i 0).val < 2 := (i 0).isLt
  have hi1 : (i 1).val < 4096 := (i 1).isLt
  have hi2 : (i 2).val < 32 := (i 2).isLt
  have hi3 : (i 3).val < 128 := (i 3).isLt
  obtain ⟨t, ht⟩ := onto13 ⟨(i 0).val, hi0⟩ ⟨(i 1).val / 128, by omega⟩
  have q0 : win0_13.index t (0 : Fin 4) = (i 0).val := congrFun ht 0
  have q1 : win0_13.index t (1 : Fin 4) = (i 1).val / 128 := congrFun ht 1
  have q2 : win0_13.index t (2 : Fin 4) = 0 := congrFun ht 2
  have q3 : win0_13.index t (3 : Fin 4) = 0 := congrFun ht 3
  refine ⟨t, flush0_13 t, ?_⟩
  rw [mem_blk13]
  intro a
  match a with
  | ⟨0, _⟩ =>
    show win0_13.index t (0 : Fin 4) * 1 ≤ (i 0).val ∧ (i 0).val < win0_13.index t (0 : Fin 4) * 1 + 1
    omega
  | ⟨1, _⟩ =>
    show win0_13.index t (1 : Fin 4) * 128 ≤ (i 1).val ∧ (i 1).val < win0_13.index t (1 : Fin 4) * 128 + 128
    omega
  | ⟨2, _⟩ =>
    show win0_13.index t (2 : Fin 4) * 32 ≤ (i 2).val ∧ (i 2).val < win0_13.index t (2 : Fin 4) * 32 + 32
    omega
  | ⟨3, _⟩ =>
    show win0_13.index t (3 : Fin 4) * 128 ≤ (i 3).val ∧ (i 3).val < win0_13.index t (3 : Fin 4) * 128 + 128
    omega

/-! ## Window 14: the query heads' scales, `[2, 4096, 32]` in blocks `[1, 128, 32]` -/

/-- The block index of point `t`: batch `t / 32`, row tile `t % 32`, and `0` on every other axis. -/
theorem index14 : ∀ t : Fin cfg0.N, win0_14.index t (0 : Fin 3) = t.val / 32
    ∧ win0_14.index t (1 : Fin 3) = t.val % 32
    ∧ win0_14.index t (2 : Fin 3) = 0 :=
  (by decide +kernel : ∀ t : Fin grid0.N, _)

/-- Every batch and row tile is some point's block index. -/
theorem onto14 : ∀ (q0 : Fin 2) (q1 : Fin 32), ∃ t : Fin cfg0.N, win0_14.index t = ![q0.val, q1.val, 0] :=
  (by decide +kernel : ∀ (q0 : Fin 2) (q1 : Fin 32), ∃ t : Fin grid0.N, win0_14.index t = ![q0.val, q1.val, 0])

/-- An index of the array is in point `t`'s block iff each coordinate is in the block's range on its axis. -/
theorem mem_blk14 (t : Fin cfg0.N) (i : S2x4096x32.Idx) :
    i ∈ ((cfg0.win 14).blk t).view.set ↔ ∀ a : Fin 3, win0_14.index t a * S1x128x32.size a ≤ (i a).val
      ∧ (i a).val < win0_14.index t a * S1x128x32.size a + S1x128x32.size a := by
  show i ∈ ((View.whole main_v5_1).slice (win0_14.rect t)).set ↔ _
  rw [View.set_slice_whole, Rect.mem_set_unit]
  exact Iff.rfl

/-- THE BLOCKS TILE THE ARRAY: index `(b, s, …)` lies in the block of the point whose block index is `(b, s / 128, 0 …)`,
    and every point writes its block back. -/
theorem cover14 : ∀ i : S2x4096x32.Idx, ∃ t : Fin cfg0.N, (cfg0.win 14).flush t = true ∧ i ∈ ((cfg0.win 14).blk t).view.set := by
  intro i
  have hi0 : (i 0).val < 2 := (i 0).isLt
  have hi1 : (i 1).val < 4096 := (i 1).isLt
  have hi2 : (i 2).val < 32 := (i 2).isLt
  obtain ⟨t, ht⟩ := onto14 ⟨(i 0).val, hi0⟩ ⟨(i 1).val / 128, by omega⟩
  have q0 : win0_14.index t (0 : Fin 3) = (i 0).val := congrFun ht 0
  have q1 : win0_14.index t (1 : Fin 3) = (i 1).val / 128 := congrFun ht 1
  have q2 : win0_14.index t (2 : Fin 3) = 0 := congrFun ht 2
  refine ⟨t, flush0_14 t, ?_⟩
  rw [mem_blk14]
  intro a
  match a with
  | ⟨0, _⟩ =>
    show win0_14.index t (0 : Fin 3) * 1 ≤ (i 0).val ∧ (i 0).val < win0_14.index t (0 : Fin 3) * 1 + 1
    omega
  | ⟨1, _⟩ =>
    show win0_14.index t (1 : Fin 3) * 128 ≤ (i 1).val ∧ (i 1).val < win0_14.index t (1 : Fin 3) * 128 + 128
    omega
  | ⟨2, _⟩ =>
    show win0_14.index t (2 : Fin 3) * 32 ≤ (i 2).val ∧ (i 2).val < win0_14.index t (2 : Fin 3) * 32 + 32
    omega

/-! ## Window 15: the quantized keys, `[2, 4096, 128]` in blocks `[1, 128, 128]` -/

/-- The block index of point `t`: batch `t / 32`, row tile `t % 32`, and `0` on every other axis. -/
theorem index15 : ∀ t : Fin cfg0.N, win0_15.index t (0 : Fin 3) = t.val / 32
    ∧ win0_15.index t (1 : Fin 3) = t.val % 32
    ∧ win0_15.index t (2 : Fin 3) = 0 :=
  (by decide +kernel : ∀ t : Fin grid0.N, _)

/-- Every batch and row tile is some point's block index. -/
theorem onto15 : ∀ (q0 : Fin 2) (q1 : Fin 32), ∃ t : Fin cfg0.N, win0_15.index t = ![q0.val, q1.val, 0] :=
  (by decide +kernel : ∀ (q0 : Fin 2) (q1 : Fin 32), ∃ t : Fin grid0.N, win0_15.index t = ![q0.val, q1.val, 0])

/-- An index of the array is in point `t`'s block iff each coordinate is in the block's range on its axis. -/
theorem mem_blk15 (t : Fin cfg0.N) (i : S2x4096x128.Idx) :
    i ∈ ((cfg0.win 15).blk t).view.set ↔ ∀ a : Fin 3, win0_15.index t a * S1x128x128.size a ≤ (i a).val
      ∧ (i a).val < win0_15.index t a * S1x128x128.size a + S1x128x128.size a := by
  show i ∈ ((View.whole main_v5_2).slice (win0_15.rect t)).set ↔ _
  rw [View.set_slice_whole, Rect.mem_set_unit]
  exact Iff.rfl

/-- THE BLOCKS TILE THE ARRAY: index `(b, s, …)` lies in the block of the point whose block index is `(b, s / 128, 0 …)`,
    and every point writes its block back. -/
theorem cover15 : ∀ i : S2x4096x128.Idx, ∃ t : Fin cfg0.N, (cfg0.win 15).flush t = true ∧ i ∈ ((cfg0.win 15).blk t).view.set := by
  intro i
  have hi0 : (i 0).val < 2 := (i 0).isLt
  have hi1 : (i 1).val < 4096 := (i 1).isLt
  have hi2 : (i 2).val < 128 := (i 2).isLt
  obtain ⟨t, ht⟩ := onto15 ⟨(i 0).val, hi0⟩ ⟨(i 1).val / 128, by omega⟩
  have q0 : win0_15.index t (0 : Fin 3) = (i 0).val := congrFun ht 0
  have q1 : win0_15.index t (1 : Fin 3) = (i 1).val / 128 := congrFun ht 1
  have q2 : win0_15.index t (2 : Fin 3) = 0 := congrFun ht 2
  refine ⟨t, flush0_15 t, ?_⟩
  rw [mem_blk15]
  intro a
  match a with
  | ⟨0, _⟩ =>
    show win0_15.index t (0 : Fin 3) * 1 ≤ (i 0).val ∧ (i 0).val < win0_15.index t (0 : Fin 3) * 1 + 1
    omega
  | ⟨1, _⟩ =>
    show win0_15.index t (1 : Fin 3) * 128 ≤ (i 1).val ∧ (i 1).val < win0_15.index t (1 : Fin 3) * 128 + 128
    omega
  | ⟨2, _⟩ =>
    show win0_15.index t (2 : Fin 3) * 128 ≤ (i 2).val ∧ (i 2).val < win0_15.index t (2 : Fin 3) * 128 + 128
    omega

/-! ## Window 16: the key scales, `[2, 4096, 1]` in blocks `[1, 128, 1]` -/

/-- The block index of point `t`: batch `t / 32`, row tile `t % 32`, and `0` on every other axis. -/
theorem index16 : ∀ t : Fin cfg0.N, win0_16.index t (0 : Fin 3) = t.val / 32
    ∧ win0_16.index t (1 : Fin 3) = t.val % 32
    ∧ win0_16.index t (2 : Fin 3) = 0 :=
  (by decide +kernel : ∀ t : Fin grid0.N, _)

/-- Every batch and row tile is some point's block index. -/
theorem onto16 : ∀ (q0 : Fin 2) (q1 : Fin 32), ∃ t : Fin cfg0.N, win0_16.index t = ![q0.val, q1.val, 0] :=
  (by decide +kernel : ∀ (q0 : Fin 2) (q1 : Fin 32), ∃ t : Fin grid0.N, win0_16.index t = ![q0.val, q1.val, 0])

/-- An index of the array is in point `t`'s block iff each coordinate is in the block's range on its axis. -/
theorem mem_blk16 (t : Fin cfg0.N) (i : S2x4096x1.Idx) :
    i ∈ ((cfg0.win 16).blk t).view.set ↔ ∀ a : Fin 3, win0_16.index t a * S1x128x1.size a ≤ (i a).val
      ∧ (i a).val < win0_16.index t a * S1x128x1.size a + S1x128x1.size a := by
  show i ∈ ((View.whole main_v5_3).slice (win0_16.rect t)).set ↔ _
  rw [View.set_slice_whole, Rect.mem_set_unit]
  exact Iff.rfl

/-- THE BLOCKS TILE THE ARRAY: index `(b, s, …)` lies in the block of the point whose block index is `(b, s / 128, 0 …)`,
    and every point writes its block back. -/
theorem cover16 : ∀ i : S2x4096x1.Idx, ∃ t : Fin cfg0.N, (cfg0.win 16).flush t = true ∧ i ∈ ((cfg0.win 16).blk t).view.set := by
  intro i
  have hi0 : (i 0).val < 2 := (i 0).isLt
  have hi1 : (i 1).val < 4096 := (i 1).isLt
  have hi2 : (i 2).val < 1 := (i 2).isLt
  obtain ⟨t, ht⟩ := onto16 ⟨(i 0).val, hi0⟩ ⟨(i 1).val / 128, by omega⟩
  have q0 : win0_16.index t (0 : Fin 3) = (i 0).val := congrFun ht 0
  have q1 : win0_16.index t (1 : Fin 3) = (i 1).val / 128 := congrFun ht 1
  have q2 : win0_16.index t (2 : Fin 3) = 0 := congrFun ht 2
  refine ⟨t, flush0_16 t, ?_⟩
  rw [mem_blk16]
  intro a
  match a with
  | ⟨0, _⟩ =>
    show win0_16.index t (0 : Fin 3) * 1 ≤ (i 0).val ∧ (i 0).val < win0_16.index t (0 : Fin 3) * 1 + 1
    omega
  | ⟨1, _⟩ =>
    show win0_16.index t (1 : Fin 3) * 128 ≤ (i 1).val ∧ (i 1).val < win0_16.index t (1 : Fin 3) * 128 + 128
    omega
  | ⟨2, _⟩ =>
    show win0_16.index t (2 : Fin 3) * 1 ≤ (i 2).val ∧ (i 2).val < win0_16.index t (2 : Fin 3) * 1 + 1
    omega

/-! ## Window 17: the indexer weights, `[2, 4096, 32]` in blocks `[1, 128, 32]` -/

/-- The block index of point `t`: batch `t / 32`, row tile `t % 32`, and `0` on every other axis. -/
theorem index17 : ∀ t : Fin cfg0.N, win0_17.index t (0 : Fin 3) = t.val / 32
    ∧ win0_17.index t (1 : Fin 3) = t.val % 32
    ∧ win0_17.index t (2 : Fin 3) = 0 :=
  (by decide +kernel : ∀ t : Fin grid0.N, _)

/-- Every batch and row tile is some point's block index. -/
theorem onto17 : ∀ (q0 : Fin 2) (q1 : Fin 32), ∃ t : Fin cfg0.N, win0_17.index t = ![q0.val, q1.val, 0] :=
  (by decide +kernel : ∀ (q0 : Fin 2) (q1 : Fin 32), ∃ t : Fin grid0.N, win0_17.index t = ![q0.val, q1.val, 0])

/-- An index of the array is in point `t`'s block iff each coordinate is in the block's range on its axis. -/
theorem mem_blk17 (t : Fin cfg0.N) (i : S2x4096x32.Idx) :
    i ∈ ((cfg0.win 17).blk t).view.set ↔ ∀ a : Fin 3, win0_17.index t a * S1x128x32.size a ≤ (i a).val
      ∧ (i a).val < win0_17.index t a * S1x128x32.size a + S1x128x32.size a := by
  show i ∈ ((View.whole main_v5_4).slice (win0_17.rect t)).set ↔ _
  rw [View.set_slice_whole, Rect.mem_set_unit]
  exact Iff.rfl

/-- THE BLOCKS TILE THE ARRAY: index `(b, s, …)` lies in the block of the point whose block index is `(b, s / 128, 0 …)`,
    and every point writes its block back. -/
theorem cover17 : ∀ i : S2x4096x32.Idx, ∃ t : Fin cfg0.N, (cfg0.win 17).flush t = true ∧ i ∈ ((cfg0.win 17).blk t).view.set := by
  intro i
  have hi0 : (i 0).val < 2 := (i 0).isLt
  have hi1 : (i 1).val < 4096 := (i 1).isLt
  have hi2 : (i 2).val < 32 := (i 2).isLt
  obtain ⟨t, ht⟩ := onto17 ⟨(i 0).val, hi0⟩ ⟨(i 1).val / 128, by omega⟩
  have q0 : win0_17.index t (0 : Fin 3) = (i 0).val := congrFun ht 0
  have q1 : win0_17.index t (1 : Fin 3) = (i 1).val / 128 := congrFun ht 1
  have q2 : win0_17.index t (2 : Fin 3) = 0 := congrFun ht 2
  refine ⟨t, flush0_17 t, ?_⟩
  rw [mem_blk17]
  intro a
  match a with
  | ⟨0, _⟩ =>
    show win0_17.index t (0 : Fin 3) * 1 ≤ (i 0).val ∧ (i 0).val < win0_17.index t (0 : Fin 3) * 1 + 1
    omega
  | ⟨1, _⟩ =>
    show win0_17.index t (1 : Fin 3) * 128 ≤ (i 1).val ∧ (i 1).val < win0_17.index t (1 : Fin 3) * 128 + 128
    omega
  | ⟨2, _⟩ =>
    show win0_17.index t (2 : Fin 3) * 32 ≤ (i 2).val ∧ (i 2).val < win0_17.index t (2 : Fin 3) * 32 + 32
    omega

end Cert.KCover

end
-- ==== Proof.Tail.lean ====
/-
  The host tail both programs end with, named once.

  After the five arrays of `Arrays` are computed, both programs do the same thing with two of them: the quantized keys
  `[2, 4096, 128]` are viewed as 8192 rows and scattered into the key cache at the rows an index array names (an index below
  zero first moved up by the cache's length), and the key scales `[2, 4096, 1]` are viewed as 8192 numbers and scattered into
  the scale cache the same way. The claim never needs to know what a scatter does: both sides apply THESE functions to
  equal arguments. They are stated over the reference's own records so that its stages unfold to them.
-/
import proofs.«167153_j59992103190876_2_alg».proof.Proof.Gen.ReferenceIdeal.Read

noncomputable section

namespace Cert.Tail

open Cert.ReferenceIdeal Cert.ReferenceIdeal.Gen Cert.ReferenceIdeal.Read Idealize.ShloMosaic

/-- The key cache after the scatter of the quantized keys `KQ` at the rows `IDX` names. -/
def keys (KQ : (⟨S2x4096x128, .f32⟩ : BufTy).Contents (Elt Ideal)) (C : (⟨S16384x128, .f32⟩ : BufTy).Contents (Elt Ideal))
    (IDX : (⟨S2x4096, .i32⟩ : BufTy).Contents (Elt Ideal)) : (⟨S16384x128, .f32⟩ : BufTy).Contents (Elt Ideal) :=
  Host.scatter scatter_S16384x128_S8192x1_S8192x128_1_0_0_1 (fun _ b => b) C (val_main_v99 (F := Ideal) IDX)
    (shapeCast _ KQ shapeCasts_S2x4096x128_S8192x128)

/-- The scale cache after the scatter of the key scales `KS` (with their unit axis) at the rows `IDX` names. -/
def scales (KS : (⟨S2x4096x1, .f32⟩ : BufTy).Contents (Elt Ideal)) (C : (⟨S16384, .f32⟩ : BufTy).Contents (Elt Ideal))
    (IDX : (⟨S2x4096, .i32⟩ : BufTy).Contents (Elt Ideal)) : (⟨S16384, .f32⟩ : BufTy).Contents (Elt Ideal) :=
  Host.scatter scatter_S16384_S8192x1_S8192_n_0_0_1 (fun _ b => b) C (val_main_v107 (F := Ideal) IDX)
    (shapeCast _ (shapeCast _ KS shapeCasts_S2x4096x1_S2x4096) shapeCasts_S2x4096_S8192)

/-- The reference's key-cache result is `keys` of its quantized keys. -/
theorem ref_keys (x0 : (⟨S2x4096x2048, .f32⟩ : BufTy).Contents (Elt Ideal)) (x5 : (⟨S2048x128, .f32⟩ : BufTy).Contents (Elt Ideal))
    (x7 x8 : (⟨S2048, .f32⟩ : BufTy).Contents (Elt Ideal)) (x9 x10 : (⟨S4096x128, .f32⟩ : BufTy).Contents (Elt Ideal))
    (x12 : (⟨S128x128, .f32⟩ : BufTy).Contents (Elt Ideal)) (x13 : (⟨S16384x128, .f32⟩ : BufTy).Contents (Elt Ideal))
    (x15 : (⟨S2x4096, .i32⟩ : BufTy).Contents (Elt Ideal)) :
    val_main_v100 (F := Ideal) x0 x5 x7 x8 x9 x10 x12 x13 x15 = keys (val_main_v90 (F := Ideal) x0 x5 x7 x8 x9 x10 x12) x13 x15 := by
  unfold val_main_v100 val_main_v93 keys
  rfl

/-- The reference's scale-cache result is `scales` of its key scales. -/
theorem ref_scales (x0 : (⟨S2x4096x2048, .f32⟩ : BufTy).Contents (Elt Ideal)) (x5 : (⟨S2048x128, .f32⟩ : BufTy).Contents (Elt Ideal))
    (x7 x8 : (⟨S2048, .f32⟩ : BufTy).Contents (Elt Ideal)) (x9 x10 : (⟨S4096x128, .f32⟩ : BufTy).Contents (Elt Ideal))
    (x12 : (⟨S128x128, .f32⟩ : BufTy).Contents (Elt Ideal)) (x14 : (⟨S16384, .f32⟩ : BufTy).Contents (Elt Ideal))
    (x15 : (⟨S2x4096, .i32⟩ : BufTy).Contents (Elt Ideal)) :
    val_main_v108 (F := Ideal) x0 x5 x7 x8 x9 x10 x12 x14 x15 = scales (val_main_v87 (F := Ideal) x0 x5 x7 x8 x9 x10 x12) x14 x15 := by
  unfold val_main_v108 val_main_v101 val_main_v91 scales
  rfl

end Cert.Tail

end
-- ==== Proof.KHost.lean ====
/-
  The kernel program's host operations around its one region, at the ideal instance.

  Before the region the program narrows five weight arrays to a shorter float format; on extended reals a change of
  format is the identity, so the region finds those arrays equal to the arguments. After the region the program views the
  quantized keys as 8192 rows and the key scales as 8192 numbers, moves every index below zero up by the cache's length,
  and scatters both into the caches: the two functions of `Tail`, applied to the region's two key outputs, to the caches
  as launched and to the index array as launched.
-/
import proofs.«167153_j59992103190876_2_alg».proof.Proof.Gen.KernelIdeal.Frame
import proofs.«167153_j59992103190876_2_alg».proof.Proof.Tail
import Idealize.ShloMosaic.Lib.StableHlo.Run
import Idealize.ShloMosaic.Lib.Pipeline.Value

noncomputable section

namespace Cert.KHost

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-! ## Before the region: a change of float format is the identity -/

/-- The narrowed query weights are the query weights. -/
theorem V_wq (c : Dev nD) : (V m c main_v0 : S2048x4096.Idx → EReal) = m ((c : Thread nD τ).loc main_arg3) := by
  show StableHlo.after hostOps0 (fun b => m (c, b)) (Proc.devRef .tc main_v0) = _
  after_results
  rfl

/-- The narrowed key weights are the key weights. -/
theorem V_wk (c : Dev nD) : (V m c main_v1 : S2048x128.Idx → EReal) = m ((c : Thread nD τ).loc main_arg5) := by
  show StableHlo.after hostOps0 (fun b => m (c, b)) (Proc.devRef .tc main_v1) = _
  after_results
  rfl

/-- The narrowed indexer weights are the indexer weights. -/
theorem V_wp (c : Dev nD) : (V m c main_v2 : S2048x32.Idx → EReal) = m ((c : Thread nD τ).loc main_arg6) := by
  show StableHlo.after hostOps0 (fun b => m (c, b)) (Proc.devRef .tc main_v2) = _
  after_results
  rfl

/-- The narrowed query mixing matrix is the query mixing matrix. -/
theorem V_hq (c : Dev nD) : (V m c main_v3 : S128x128.Idx → EReal) = m ((c : Thread nD τ).loc main_arg11) := by
  show StableHlo.after hostOps0 (fun b => m (c, b)) (Proc.devRef .tc main_v3) = _
  after_results
  rfl

/-- The narrowed key mixing matrix is the key mixing matrix. -/
theorem V_hk (c : Dev nD) : (V m c main_v4 : S128x128.Idx → EReal) = m ((c : Thread nD τ).loc main_arg12) := by
  show StableHlo.after hostOps0 (fun b => m (c, b)) (Proc.devRef .tc main_v4) = _
  after_results
  rfl

/-! ## After the region: the two scatters into the caches -/

/-- The key cache the program ends with: `Tail.keys` of the region's quantized keys, the cache as launched and the index
    array as launched. -/
theorem tail_keys (c : Dev nD) :
    Pipeline.afterTail₀ cfgs (dats m) 0 (V0 m) [hostOps1] c main_v15
      = Cert.Tail.keys ((dats m 0 c).arrAt 15 cfg0.N) (m ((c : Thread nD τ).loc main_arg13)) (m ((c : Thread nD τ).loc main_arg15)) := by
  unfold Pipeline.afterTail₀
  show StableHlo.after hostOps1 (Pipeline.withArrays spec0 c (V0 m c) fun w => (dats m 0 c).arrAt w cfg0.N) (Proc.devRef .tc main_v15) = _
  -- what the region leaves at the three buffers the tail reads
  have h15 : Pipeline.withArrays spec0 c (V0 m c) (fun w => (dats m 0 c).arrAt w cfg0.N) (Proc.devRef .tc main_v5_2)
      = (dats m 0 c).arrAt 15 cfg0.N := Pipeline.withArrays_arr spec0 launch0.win.arr_inj c _ _ 15
  have h13 : Pipeline.withArrays spec0 c (V0 m c) (fun w => (dats m 0 c).arrAt w cfg0.N) (Proc.devRef .tc main_arg13)
      = m ((c : Thread nD τ).loc main_arg13) :=
    (Pipeline.withArrays_of_ne _ c (V0 m c) _ main_arg13 (by exact (by decide : ∀ w, Pipeline.arrRef spec0 w ≠ main_arg13))).trans
      (V_main_arg13 m c)
  have hI : Pipeline.withArrays spec0 c (V0 m c) (fun w => (dats m 0 c).arrAt w cfg0.N) (Proc.devRef .tc main_arg15)
      = m ((c : Thread nD τ).loc main_arg15) :=
    (Pipeline.withArrays_of_ne _ c (V0 m c) _ main_arg15 (by exact (by decide : ∀ w, Pipeline.arrRef spec0 w ≠ main_arg15))).trans
      (V_main_arg15 m c)
  generalize Pipeline.withArrays spec0 c (V0 m c) (fun w => (dats m 0 c).arrAt w cfg0.N) = W at h15 h13 hI ⊢
  after_results_simp
  rw [h15, h13, hI]
  -- both sides are now the same operations on three arrays: name the arrays and compare the operations
  generalize (dats m 0 c).arrAt 15 cfg0.N = KQ
  generalize m ((c : Thread nD τ).loc main_arg13) = C
  generalize m ((c : Thread nD τ).loc main_arg15) = IDX
  unfold Cert.Tail.keys Cert.ReferenceIdeal.Read.val_main_v99 Cert.ReferenceIdeal.Read.val_main_v98
    Cert.ReferenceIdeal.Read.val_main_v95 Cert.ReferenceIdeal.Read.val_main_v97 Cert.ReferenceIdeal.Read.val_main_v92
    Cert.ReferenceIdeal.Read.val_main_v94 Cert.ReferenceIdeal.Read.val_main_v96 Cert.ReferenceIdeal.Read.val_main_c
    Cert.ReferenceIdeal.Read.val_main_c_13
  rfl

/-- The scale cache the program ends with: `Tail.scales` of the region's key scales, the cache as launched and the index
    array as launched. -/
theorem tail_scales (c : Dev nD) :
    Pipeline.afterTail₀ cfgs (dats m) 0 (V0 m) [hostOps1] c main_v23
      = Cert.Tail.scales ((dats m 0 c).arrAt 16 cfg0.N) (m ((c : Thread nD τ).loc main_arg14)) (m ((c : Thread nD τ).loc main_arg15)) := by
  unfold Pipeline.afterTail₀
  show StableHlo.after hostOps1 (Pipeline.withArrays spec0 c (V0 m c) fun w => (dats m 0 c).arrAt w cfg0.N) (Proc.devRef .tc main_v23) = _
  -- what the region leaves at the three buffers the tail reads
  have h16 : Pipeline.withArrays spec0 c (V0 m c) (fun w => (dats m 0 c).arrAt w cfg0.N) (Proc.devRef .tc main_v5_3)
      = (dats m 0 c).arrAt 16 cfg0.N := Pipeline.withArrays_arr spec0 launch0.win.arr_inj c _ _ 16
  have h14 : Pipeline.withArrays spec0 c (V0 m c) (fun w => (dats m 0 c).arrAt w cfg0.N) (Proc.devRef .tc main_arg14)
      = m ((c : Thread nD τ).loc main_arg14) :=
    (Pipeline.withArrays_of_ne _ c (V0 m c) _ main_arg14 (by exact (by decide : ∀ w, Pipeline.arrRef spec0 w ≠ main_arg14))).trans
      (V_main_arg14 m c)
  have hI : Pipeline.withArrays spec0 c (V0 m c) (fun w => (dats m 0 c).arrAt w cfg0.N) (Proc.devRef .tc main_arg15)
      = m ((c : Thread nD τ).loc main_arg15) :=
    (Pipeline.withArrays_of_ne _ c (V0 m c) _ main_arg15 (by exact (by decide : ∀ w, Pipeline.arrRef spec0 w ≠ main_arg15))).trans
      (V_main_arg15 m c)
  generalize Pipeline.withArrays spec0 c (V0 m c) (fun w => (dats m 0 c).arrAt w cfg0.N) = W at h16 h14 hI ⊢
  after_results_simp
  rw [h16, h14, hI]
  -- both sides are now the same operations on three arrays: name the arrays and compare the operations
  generalize (dats m 0 c).arrAt 16 cfg0.N = KS
  generalize m ((c : Thread nD τ).loc main_arg14) = C
  generalize m ((c : Thread nD τ).loc main_arg15) = IDX
  unfold Cert.Tail.scales Cert.ReferenceIdeal.Read.val_main_v107 Cert.ReferenceIdeal.Read.val_main_v106
    Cert.ReferenceIdeal.Read.val_main_v103 Cert.ReferenceIdeal.Read.val_main_v105 Cert.ReferenceIdeal.Read.val_main_v92
    Cert.ReferenceIdeal.Read.val_main_v102 Cert.ReferenceIdeal.Read.val_main_v104 Cert.ReferenceIdeal.Read.val_main_c_14
    Cert.ReferenceIdeal.Read.val_main_c_15
  rfl

end Cert.KHost

end
-- ==== Proof.KRun.lean ====
/-
  The kernel program's run, read: every weakly fair execution ends with the five results at the specification's
  functions of the LAUNCH arguments, and the arguments unchanged.

  The frame run already names every window's array after the run and every other buffer after the host tail. A result
  window's array is, where its blocks cover it — everywhere: the blocks tile it —, the whole-array function whose block
  each point wrote back. The arrays the region finds are the launch arguments: untouched ones as launched, the five
  re-formatted weights because a change of float format is the identity on extended reals. The two caches come out of the
  host tail, the shared scatter functions applied to two of those result arrays.
-/
import proofs.«167153_j59992103190876_2_alg».proof.Proof.Gen.KernelIdeal.Frame
import proofs.«167153_j59992103190876_2_alg».proof.Proof.KBlocks
import proofs.«167153_j59992103190876_2_alg».proof.Proof.KCover
import proofs.«167153_j59992103190876_2_alg».proof.Proof.KHost
import proofs.«167153_j59992103190876_2_alg».proof.Proof.Tail
import Idealize.ShloMosaic.Lib.Pipeline.Value

noncomputable section

namespace Cert.KRun

open Idealize.ShloMosaic Idealize.ShloMosaic.TcCoe Idealize.SL.Sem
open Idealize.ShloMosaic.Pipeline (Dat)
open Cert.KernelIdeal Cert.KernelIdeal.Gen Cert.Arrays

variable (m : (ℓ : Loc nD τ sig) → Buf (Elt Ideal) ℓ) (ρ : Dev nD → PrngReg)

/-- The quantized query heads' array after the run. -/
theorem final13 (c : Dev nD) : (dats m 0 c).arrAt 13 cfg0.N = GQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) := by
  rw [(dats m 0 c).arrAt_eq_of_cover 13 (Cert.KBlocks.GQV m c) (fun t _ => Cert.KBlocks.flushed13 m c t) Cert.KCover.cover13]
  unfold Cert.KBlocks.GQV
  rw [V_main_arg0, V_main_arg1, V_main_arg2, Cert.KHost.V_wq, V_main_arg4, V_main_arg9, V_main_arg10, Cert.KHost.V_hq]

/-- Their scales' array after the run. -/
theorem final14 (c : Dev nD) : (dats m 0 c).arrAt 14 cfg0.N = GQS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) := by
  rw [(dats m 0 c).arrAt_eq_of_cover 14 (Cert.KBlocks.GQSV m c) (fun t _ => Cert.KBlocks.flushed14 m c t) Cert.KCover.cover14]
  unfold Cert.KBlocks.GQSV
  rw [V_main_arg0, V_main_arg1, V_main_arg2, Cert.KHost.V_wq, V_main_arg4, V_main_arg9, V_main_arg10, Cert.KHost.V_hq]

/-- The quantized keys' array after the run (before the host tail scatters it). -/
theorem final15 (c : Dev nD) : (dats m 0 c).arrAt 15 cfg0.N = GK (m ((c.tc : Thread nD τ).loc main_arg0)) (m ((c.tc : Thread nD τ).loc main_arg7)) (m ((c.tc : Thread nD τ).loc main_arg8)) (m ((c.tc : Thread nD τ).loc main_arg5)) (m ((c.tc : Thread nD τ).loc main_arg9)) (m ((c.tc : Thread nD τ).loc main_arg10)) (m ((c.tc : Thread nD τ).loc main_arg12)) := by
  rw [(dats m 0 c).arrAt_eq_of_cover 15 (Cert.KBlocks.GKV m c) (fun t _ => Cert.KBlocks.flushed15 m c t) Cert.KCover.cover15]
  unfold Cert.KBlocks.GKV
  rw [V_main_arg0, V_main_arg7, V_main_arg8, Cert.KHost.V_wk, V_main_arg9, V_main_arg10, Cert.KHost.V_hk]

/-- The key scales' array after the run. -/
theorem final16 (c : Dev nD) : (dats m 0 c).arrAt 16 cfg0.N = GKS (m ((c.tc : Thread nD τ).loc main_arg0)) (m ((c.tc : Thread nD τ).loc main_arg7)) (m ((c.tc : Thread nD τ).loc main_arg8)) (m ((c.tc : Thread nD τ).loc main_arg5)) (m ((c.tc : Thread nD τ).loc main_arg9)) (m ((c.tc : Thread nD τ).loc main_arg10)) (m ((c.tc : Thread nD τ).loc main_arg12)) := by
  rw [(dats m 0 c).arrAt_eq_of_cover 16 (Cert.KBlocks.GKSV m c) (fun t _ => Cert.KBlocks.flushed16 m c t) Cert.KCover.cover16]
  unfold Cert.KBlocks.GKSV
  rw [V_main_arg0, V_main_arg7, V_main_arg8, Cert.KHost.V_wk, V_main_arg9, V_main_arg10, Cert.KHost.V_hk]

/-- The indexer weights' array after the run. -/
theorem final17 (c : Dev nD) : (dats m 0 c).arrAt 17 cfg0.N = GW (m ((c.tc : Thread nD τ).loc main_arg0)) (m ((c.tc : Thread nD τ).loc main_arg6)) := by
  rw [(dats m 0 c).arrAt_eq_of_cover 17 (Cert.KBlocks.GWV m c) (fun t _ => Cert.KBlocks.flushed17 m c t) Cert.KCover.cover17]
  unfold Cert.KBlocks.GWV
  rw [V_main_arg0, Cert.KHost.V_wp]

/-- THE RUN: the five results at the specification, the sixteen arguments unchanged. -/
theorem run : θ_run defs (onTc (τ := τ) (main (F := Ideal))) ⟨m, fun _ => 0, ρ⟩ (fun r => ∀ c : Dev nD,
      r.2.mem ((c.tc : Thread nD τ).loc main_v5_0) = GQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11))
      ∧ r.2.mem ((c.tc : Thread nD τ).loc main_v5_1) = GQS (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11))
      ∧ r.2.mem ((c.tc : Thread nD τ).loc main_v15) = Cert.Tail.keys (GK (m ((c.tc : Thread nD τ).loc main_arg0)) (m ((c.tc : Thread nD τ).loc main_arg7)) (m ((c.tc : Thread nD τ).loc main_arg8)) (m ((c.tc : Thread nD τ).loc main_arg5)) (m ((c.tc : Thread nD τ).loc main_arg9)) (m ((c.tc : Thread nD τ).loc main_arg10)) (m ((c.tc : Thread nD τ).loc main_arg12))) (m ((c.tc : Thread nD τ).loc main_arg13)) (m ((c.tc : Thread nD τ).loc main_arg15))
      ∧ r.2.mem ((c.tc : Thread nD τ).loc main_v23) = Cert.Tail.scales (GKS (m ((c.tc : Thread nD τ).loc main_arg0)) (m ((c.tc : Thread nD τ).loc main_arg7)) (m ((c.tc : Thread nD τ).loc main_arg8)) (m ((c.tc : Thread nD τ).loc main_arg5)) (m ((c.tc : Thread nD τ).loc main_arg9)) (m ((c.tc : Thread nD τ).loc main_arg10)) (m ((c.tc : Thread nD τ).loc main_arg12))) (m ((c.tc : Thread nD τ).loc main_arg14)) (m ((c.tc : Thread nD τ).loc main_arg15))
      ∧ r.2.mem ((c.tc : Thread nD τ).loc main_v5_4) = GW (m ((c.tc : Thread nD τ).loc main_arg0)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨((h c).1 13).trans (final13 m c),
      ((h c).1 14).trans (final14 m c),
      ((h c).2 main_v15 (Pipeline.mem_restRefs_of main_v15 (by decide) (by decide))).trans
        ((Cert.KHost.tail_keys m c).trans (congrArg (fun K => Cert.Tail.keys K (m ((c.tc : Thread nD τ).loc main_arg13)) (m ((c.tc : Thread nD τ).loc main_arg15))) (final15 m c))),
      ((h c).2 main_v23 (Pipeline.mem_restRefs_of main_v23 (by decide) (by decide))).trans
        ((Cert.KHost.tail_scales m c).trans (congrArg (fun K => Cert.Tail.scales K (m ((c.tc : Thread nD τ).loc main_arg14)) (m ((c.tc : Thread nD τ).loc main_arg15))) (final16 m c))),
      ((h c).1 17).trans (final17 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c))⟩)
    (run_main m ρ)

end Cert.KRun

end
-- ==== Proof.RefQuery.lean ====
/-
  The reference's query branch is the specification's.

  The reference computes the quantized query heads and their scales by a chain of whole-array operations. Read at one
  index, each stage of that chain is one of the row functions of `Rows` applied to row `(b, s)` of `x`, to row `s` of the
  cosine and sine tables and to the weight arrays: the reciprocal root of the mean square, the gained row, the projection
  with its column scale read as 32 heads of 128, the rotation, the mixing product, the scale and the rounded quotient.
  The lemmas below read the stages bottom-up at explicit coordinates; the two theorems at the end assemble them.
-/
import proofs.«167153_j59992103190876_2_alg».proof.Proof.Gen.ReferenceIdeal.Read
import proofs.«167153_j59992103190876_2_alg».proof.Proof.Arrays
import Idealize.ShloMosaic.Lib.Pipeline.Value
import Idealize.ShloMosaic.Lib.ValueIdx
import Idealize.ShloMosaic.PureOps.Ideal.Laws
import Idealize.ShloMosaic.PureOps.Reduce

noncomputable section

namespace Cert.RefQuery

open Cert.ReferenceIdeal Cert.ReferenceIdeal.Gen Cert.ReferenceIdeal.Read Idealize.ShloMosaic Idealize.ShloMosaic.ValueIdx
open Cert.Rows Cert.Arrays

variable (x0 : (⟨S2x4096x2048, .f32⟩ : BufTy).Contents (Elt Ideal))
  (x1 x2 : (⟨S2048, .f32⟩ : BufTy).Contents (Elt Ideal))
  (x3 : (⟨S2048x4096, .f32⟩ : BufTy).Contents (Elt Ideal))
  (x4 : (⟨S4096, .f32⟩ : BufTy).Contents (Elt Ideal))
  (x9 x10 : (⟨S4096x128, .f32⟩ : BufTy).Contents (Elt Ideal))
  (x11 : (⟨S128x128, .f32⟩ : BufTy).Contents (Elt Ideal))

/-- The reciprocal root of (the mean square plus ε) of row `(b, s)`. -/
theorem invRms_at (b : Fin 2) (s : Fin 4096) :
    val_main_v7 (F := Ideal) x0 (ix3 b s 0) = invRms (row3 x0 b s) := by
  have e1 : ∀ k : Fin 2048, idx_main_v1 (idx_main_v2 (ix3 b s (0 : Fin 1))) k = ix3 b s k := fun k =>
    funext fun a => Fin.ext (by match a with | ⟨0, _⟩ => rfl | ⟨1, _⟩ => rfl | ⟨2, _⟩ => rfl)
  rw [val_main_v7_apply, val_main_v6_apply, val_main_v4_apply, val_main_v2_apply, val_main_v1_apply, val_main_v3_apply,
    val_main_v5_apply, val_main_cst_apply, val_main_cst_0_apply, val_main_cst_1_apply]
  simp only [val_main_v0_apply, e1, Ideal.hostUnary_rsqrt_def, Ideal.addf_def, Ideal.hostDivf_def, Ideal.mulf_def,
    Ideal.ofBits_def, Ideal.ofBits_zero_f32, zero_add]
  rfl

/-- The query branch's normalized row: `((x · invRms) · g₁) · g₂`. -/
theorem qIn_at (b : Fin 2) (s : Fin 4096) (h : Fin 2048) :
    val_main_v15 (F := Ideal) x0 x1 x2 (ix3 b s h) = qIn (row3 x0 b s) (vec x1) (vec x2) h := by
  have e8 : idx_main_v8 (ix3 b s h) = ix3 b s (0 : Fin 1) :=
    funext fun a => Fin.ext (by match a with | ⟨0, _⟩ => rfl | ⟨1, _⟩ => rfl | ⟨2, _⟩ => rfl)
  have e10 : idx_main_v10 (idx_main_v11 (ix3 b s h)) = ix1 h :=
    funext fun a => Fin.ext (by match a with | ⟨0, _⟩ => rfl)
  have e13 : idx_main_v13 (idx_main_v14 (ix3 b s h)) = ix1 h :=
    funext fun a => Fin.ext (by match a with | ⟨0, _⟩ => rfl)
  rw [val_main_v15_apply, val_main_v12_apply, val_main_v9_apply, val_main_v8_apply, val_main_v11_apply,
    val_main_v10_apply, val_main_v14_apply, val_main_v13_apply, e8, e10, e13, invRms_at]
  rfl

/-- The projection to 4096 columns with its per-column scale. -/
theorem qLin_at (b : Fin 2) (s : Fin 4096) (j : Fin 4096) :
    val_main_v19 (F := Ideal) x0 x1 x2 x3 x4 (ix3 b s j)
      = qLin (row3 x0 b s) (vec x1) (vec x2) (mat x3) (vec x4) j := by
  have el : ∀ k : Fin 2048, lidx_main_v16 (ix3 b s j) k = ix3 b s k := fun k =>
    funext fun a => Fin.ext (by match a with | ⟨0, _⟩ => rfl | ⟨1, _⟩ => rfl | ⟨2, _⟩ => rfl)
  have er : ∀ k : Fin 2048, ridx_main_v16 (ix3 b s j) k = ix2 k j := fun k =>
    funext fun a => Fin.ext (by match a with | ⟨0, _⟩ => rfl | ⟨1, _⟩ => rfl)
  have e17 : idx_main_v17 (idx_main_v18 (ix3 b s j)) = ix1 j :=
    funext fun a => Fin.ext (by match a with | ⟨0, _⟩ => rfl)
  rw [val_main_v19_apply, val_main_v16_apply, val_main_v18_apply, val_main_v17_apply, e17]
  simp only [el, er, qIn_at]
  rfl

/-- The reshape to heads: head `hd`, entry `d` is column `128·hd + d`. -/
theorem head_at (b : Fin 2) (s : Fin 4096) (hd : Fin 32) (d : Fin 128) :
    val_main_v20 (F := Ideal) x0 x1 x2 x3 x4 (ix4 b s hd d)
      = headOf (qLin (row3 x0 b s) (vec x1) (vec x2) (mat x3) (vec x4)) hd d := by
  have hb := b.isLt; have hs := s.isLt; have hh := hd.isLt; have hdd := d.isLt
  have e20 : idx_main_v20 (ix4 b s hd d)
      = ix3 b s (⟨hd.val * 128 + d.val, by omega⟩ : Fin 4096) :=
    funext fun a => Fin.ext (by
      match a with
      | ⟨0, _⟩ => show (((b.val * 4096 + s.val) * 32 + hd.val) * 128 + d.val) / 16777216 = b.val; omega
      | ⟨1, _⟩ => show (((b.val * 4096 + s.val) * 32 + hd.val) * 128 + d.val) / 4096 % 4096 = s.val; omega
      | ⟨2, _⟩ => show (((b.val * 4096 + s.val) * 32 + hd.val) * 128 + d.val) % 4096 = hd.val * 128 + d.val; omega)
  rw [val_main_v20_apply, e20, qLin_at]
  rfl

/-- The half-swap with a sign, as the reference builds it: the negated upper half joined to the lower half. -/
theorem halfSwap_at (b : Fin 2) (s : Fin 4096) (hd : Fin 32) (d : Fin 128) :
    val_main_v28 (F := Ideal) x0 x1 x2 x3 x4 (ix4 b s hd d)
      = halfSwap (headOf (qLin (row3 x0 b s) (vec x1) (vec x2) (mat x3) (vec x4)) hd) d := by
  have hdd := d.isLt
  unfold val_main_v28 halfSwap
  by_cases h : d.val < 64
  · rw [dif_pos h]
    have e25 : idx_main_v25 (ix4 b s hd (⟨d.val, h⟩ : Fin 64)) = ix4 b s hd (⟨d.val + 64, by omega⟩ : Fin 128) :=
      funext fun a => Fin.ext (by
        match a with
        | ⟨0, _⟩ => rfl
        | ⟨1, _⟩ => rfl
        | ⟨2, _⟩ => rfl
        | ⟨3, _⟩ => show 64 + d.val = d.val + 64; omega)
    refine (concatenate_pair_apply_left (3 : Fin 4) (val_main_v26 (F := Ideal) x0 x1 x2 x3 x4)
      (val_main_v27 (F := Ideal) x0 x1 x2 x3 x4) concatenates_S2x4096x32x64_S2x4096x32x64_S2x4096x32x128_d3
      (ix4 b s hd d) rfl (ix4 b s hd (⟨d.val, h⟩ : Fin 64)) (fun c => by
        match c with
        | ⟨0, _⟩ => rfl
        | ⟨1, _⟩ => rfl
        | ⟨2, _⟩ => rfl
        | ⟨3, _⟩ => rfl)).trans ?_
    rw [val_main_v26_apply, val_main_v25_apply, e25, head_at]
    rfl
  · rw [dif_neg h]
    have e27 : idx_main_v27 (ix4 b s hd (⟨d.val - 64, by omega⟩ : Fin 64)) = ix4 b s hd (⟨d.val - 64, by omega⟩ : Fin 128) :=
      funext fun a => Fin.ext (by
        match a with
        | ⟨0, _⟩ => rfl
        | ⟨1, _⟩ => rfl
        | ⟨2, _⟩ => rfl
        | ⟨3, _⟩ => rfl)
    refine (concatenate_pair_apply_right (3 : Fin 4) (val_main_v26 (F := Ideal) x0 x1 x2 x3 x4)
      (val_main_v27 (F := Ideal) x0 x1 x2 x3 x4) concatenates_S2x4096x32x64_S2x4096x32x64_S2x4096x32x128_d3
      (ix4 b s hd d) rfl rfl (ix4 b s hd (⟨d.val - 64, by omega⟩ : Fin 64)) (fun c hc => by
        match c with
        | ⟨0, _⟩ => rfl
        | ⟨1, _⟩ => rfl
        | ⟨2, _⟩ => rfl
        | ⟨3, _⟩ => exact absurd rfl hc) (by show d.val - 64 + 64 = d.val; omega)).trans ?_
    rw [val_main_v27_apply, e27, head_at]

/-- The rotation: the head times the cosine row plus its half-swap times the sine row. -/
theorem rope_at (b : Fin 2) (s : Fin 4096) (hd : Fin 32) (d : Fin 128) :
    val_main_v31 (F := Ideal) x0 x1 x2 x3 x4 x9 x10 (ix4 b s hd d)
      = rope (headOf (qLin (row3 x0 b s) (vec x1) (vec x2) (mat x3) (vec x4)) hd) (row2 x9 s) (row2 x10 s) d := by
  have e21 : idx_main_v21 (idx_main_v23 (ix4 b s hd d)) = ix2 s d :=
    funext fun a => Fin.ext (by match a with | ⟨0, _⟩ => rfl | ⟨1, _⟩ => rfl)
  have e22 : idx_main_v22 (idx_main_v29 (ix4 b s hd d)) = ix2 s d :=
    funext fun a => Fin.ext (by match a with | ⟨0, _⟩ => rfl | ⟨1, _⟩ => rfl)
  rw [val_main_v31_apply, val_main_v24_apply, val_main_v30_apply, val_main_v23_apply, val_main_v21_apply,
    val_main_v29_apply, val_main_v22_apply, e21, e22, head_at, halfSwap_at]
  rfl

/-- The mixing product: the rotated head times the 128×128 matrix. -/
theorem qMixed_at (b : Fin 2) (s : Fin 4096) (hd : Fin 32) (e : Fin 128) :
    val_main_v32 (F := Ideal) x0 x1 x2 x3 x4 x9 x10 x11 (ix4 b s hd e)
      = qMixed (row3 x0 b s) (vec x1) (vec x2) (mat x3) (vec x4) (row2 x9 s) (row2 x10 s) (mat x11) hd e := by
  have el : ∀ k : Fin 128, lidx_main_v32 (ix4 b s hd e) k = ix4 b s hd k := fun k =>
    funext fun a => Fin.ext (by match a with | ⟨0, _⟩ => rfl | ⟨1, _⟩ => rfl | ⟨2, _⟩ => rfl | ⟨3, _⟩ => rfl)
  have er : ∀ k : Fin 128, ridx_main_v32 (ix4 b s hd e) k = ix2 k e := fun k =>
    funext fun a => Fin.ext (by match a with | ⟨0, _⟩ => rfl | ⟨1, _⟩ => rfl)
  rw [val_main_v32_apply]
  simp only [el, er, rope_at]
  rfl

/-- The head's largest absolute entry: the fold of `max` from −∞ over the 128 entries' absolute values. -/
theorem amax_at (b : Fin 2) (s : Fin 4096) (hd : Fin 32) :
    val_main_v34 (F := Ideal) x0 x1 x2 x3 x4 x9 x10 x11 (ix3 b s hd)
      = (Finset.univ : Finset (Fin 128)).fold max cBot (fun e =>
          max (qMixed (row3 x0 b s) (vec x1) (vec x2) (mat x3) (vec x4) (row2 x9 s) (row2 x10 s) (mat x11) hd e)
            (-(qMixed (row3 x0 b s) (vec x1) (vec x2) (mat x3) (vec x4) (row2 x9 s) (row2 x10 s) (mat x11) hd e))) := by
  have hR : S2x4096x32x128.Reduces [3] S2x4096x32 := by decide
  unfold val_main_v34
  refine (Host.reduce_eq_fold_single (FloatOps.maximumf (F := Ideal) (φ := .f32))
    (val_main_v33 (F := Ideal) x0 x1 x2 x3 x4 x9 x10 x11) (val_main_cst_2 (F := Ideal))
    reducesTo_S2x4096x32x128_S2x4096x32_d3 hR h_S_ (ix3 b s hd)).trans ?_
  have ev : ∀ e : Fin 128, val_main_v33 (F := Ideal) x0 x1 x2 x3 x4 x9 x10 x11 (hR.lift (ix3 b s hd) e)
      = max (qMixed (row3 x0 b s) (vec x1) (vec x2) (mat x3) (vec x4) (row2 x9 s) (row2 x10 s) (mat x11) hd e)
          (-(qMixed (row3 x0 b s) (vec x1) (vec x2) (mat x3) (vec x4) (row2 x9 s) (row2 x10 s) (mat x11) hd e)) := fun e => by
    have el : hR.lift (ix3 b s hd) e = ix4 b s hd e :=
      funext fun a => Fin.ext (by match a with | ⟨0, _⟩ => rfl | ⟨1, _⟩ => rfl | ⟨2, _⟩ => rfl | ⟨3, _⟩ => rfl)
    rw [el, val_main_v33_apply, qMixed_at]
    rfl
  exact congrArg (fun f : Fin 128 → EReal => (Finset.univ : Finset (Fin 128)).fold max cBot f) (funext ev)

/-- The head's scale: its largest absolute entry over 127, floored. -/
theorem scale_at (b : Fin 2) (s : Fin 4096) (hd : Fin 32) :
    val_main_v39 (F := Ideal) x0 x1 x2 x3 x4 x9 x10 x11 (ix4 b s hd (0 : Fin 1))
      = scaleOf (qMixed (row3 x0 b s) (vec x1) (vec x2) (mat x3) (vec x4) (row2 x9 s) (row2 x10 s) (mat x11) hd) := by
  have e35 : idx_main_v35 (ix4 b s hd (0 : Fin 1)) = ix3 b s hd :=
    funext fun a => Fin.ext (by match a with | ⟨0, _⟩ => rfl | ⟨1, _⟩ => rfl | ⟨2, _⟩ => rfl)
  rw [val_main_v39_apply, val_main_v37_apply, val_main_v35_apply, e35, val_main_v36_apply, val_main_v38_apply,
    val_main_cst_3_apply, val_main_cst_4_apply, amax_at]
  rfl

/-- A quantized entry: the mixed entry over the head's scale, rounded half to even. -/
theorem quant_at (b : Fin 2) (s : Fin 4096) (hd : Fin 32) (e : Fin 128) :
    val_main_v42 (F := Ideal) x0 x1 x2 x3 x4 x9 x10 x11 (ix4 b s hd e)
      = quant (qMixed (row3 x0 b s) (vec x1) (vec x2) (mat x3) (vec x4) (row2 x9 s) (row2 x10 s) (mat x11) hd) e := by
  have e40 : idx_main_v40 (ix4 b s hd e) = ix4 b s hd (0 : Fin 1) :=
    funext fun a => Fin.ext (by match a with | ⟨0, _⟩ => rfl | ⟨1, _⟩ => rfl | ⟨2, _⟩ => rfl | ⟨3, _⟩ => rfl)
  rw [val_main_v42_apply, val_main_v41_apply, val_main_v40_apply, e40, scale_at, qMixed_at]
  rfl

/-- The scale with its unit axis dropped. -/
theorem scale3_at (b : Fin 2) (s : Fin 4096) (hd : Fin 32) :
    val_main_v43 (F := Ideal) x0 x1 x2 x3 x4 x9 x10 x11 (ix3 b s hd)
      = scaleOf (qMixed (row3 x0 b s) (vec x1) (vec x2) (mat x3) (vec x4) (row2 x9 s) (row2 x10 s) (mat x11) hd) := by
  have hb := b.isLt; have hs := s.isLt; have hh := hd.isLt
  have e43 : idx_main_v43 (ix3 b s hd) = ix4 b s hd (0 : Fin 1) :=
    funext fun a => Fin.ext (by
      match a with
      | ⟨0, _⟩ => show ((b.val * 4096 + s.val) * 32 + hd.val) / 131072 = b.val; omega
      | ⟨1, _⟩ => show ((b.val * 4096 + s.val) * 32 + hd.val) / 32 % 4096 = s.val; omega
      | ⟨2, _⟩ => show ((b.val * 4096 + s.val) * 32 + hd.val) / 1 % 32 = hd.val; omega
      | ⟨3, _⟩ => rfl)
  rw [val_main_v43_apply, e43, scale_at]

/-- The reference's quantized query heads are the specification's. -/
theorem refQ (x0 : (⟨S2x4096x2048, .f32⟩ : BufTy).Contents (Elt Ideal))
    (x1 x2 : (⟨S2048, .f32⟩ : BufTy).Contents (Elt Ideal))
    (x3 : (⟨S2048x4096, .f32⟩ : BufTy).Contents (Elt Ideal))
    (x4 : (⟨S4096, .f32⟩ : BufTy).Contents (Elt Ideal))
    (x9 x10 : (⟨S4096x128, .f32⟩ : BufTy).Contents (Elt Ideal))
    (x11 : (⟨S128x128, .f32⟩ : BufTy).Contents (Elt Ideal)) :
    Cert.ReferenceIdeal.Read.val_main_v42 (F := Ideal) x0 x1 x2 x3 x4 x9 x10 x11
      = Cert.Arrays.GQ x0 x1 x2 x3 x4 x9 x10 x11 := by
  funext i
  obtain ⟨b, s, hd, e, rfl⟩ : ∃ (b : Fin 2) (s : Fin 4096) (hd : Fin 32) (e : Fin 128), i = ix4 b s hd e :=
    ⟨i 0, i 1, i 2, i 3, eq_ix4 i⟩
  exact quant_at x0 x1 x2 x3 x4 x9 x10 x11 b s hd e

/-- The reference's query scales are the specification's. -/
theorem refQS (x0 : (⟨S2x4096x2048, .f32⟩ : BufTy).Contents (Elt Ideal))
    (x1 x2 : (⟨S2048, .f32⟩ : BufTy).Contents (Elt Ideal))
    (x3 : (⟨S2048x4096, .f32⟩ : BufTy).Contents (Elt Ideal))
    (x4 : (⟨S4096, .f32⟩ : BufTy).Contents (Elt Ideal))
    (x9 x10 : (⟨S4096x128, .f32⟩ : BufTy).Contents (Elt Ideal))
    (x11 : (⟨S128x128, .f32⟩ : BufTy).Contents (Elt Ideal)) :
    Cert.ReferenceIdeal.Read.val_main_v43 (F := Ideal) x0 x1 x2 x3 x4 x9 x10 x11
      = Cert.Arrays.GQS x0 x1 x2 x3 x4 x9 x10 x11 := by
  funext i
  obtain ⟨b, s, hd, rfl⟩ : ∃ (b : Fin 2) (s : Fin 4096) (hd : Fin 32), i = ix3 b s hd :=
    ⟨i 0, i 1, i 2, eq_ix3 i⟩
  exact scale3_at x0 x1 x2 x3 x4 x9 x10 x11 b s hd

end Cert.RefQuery

end
-- ==== Proof.RefKey.lean ====
/-
  The reference's key branch and indexer weights, read entry by entry.

  Each stage of the reference program on the key side is read at explicit coordinates `(b, s, …)` and identified with
  the row function of `Rows` it computes: the row's mean, the centred row, its variance, the normalized row, the
  projection to 128 columns, the rotation (whose half-swap is the concatenation of the negated upper half and the lower
  half), the mixing product, the largest absolute entry, the floored scale and the rounded quotient. The indexer weights
  are one contraction of the row with the weight matrix.
-/
import proofs.«167153_j59992103190876_2_alg».proof.Proof.Gen.ReferenceIdeal.Read
import proofs.«167153_j59992103190876_2_alg».proof.Proof.Arrays
import Idealize.ShloMosaic.Lib.Pipeline.Value
import Idealize.ShloMosaic.Lib.ValueIdx
import Idealize.ShloMosaic.PureOps.Ideal.Laws
import Idealize.ShloMosaic.PureOps.Reduce

noncomputable section

namespace Cert.RefKey

open Idealize.ShloMosaic Idealize.ShloMosaic.ValueIdx Cert.ReferenceIdeal Cert.ReferenceIdeal.Gen Cert.ReferenceIdeal.Read
open Cert.Rows Cert.Arrays

/-- The array `x`, `[2, 4096, 2048]`. -/
abbrev TX : Type := (⟨S2x4096x2048, .f32⟩ : BufTy).Contents (Elt Ideal)
/-- A vector of 2048 entries (the gain and the shift). -/
abbrev TV : Type := (⟨S2048, .f32⟩ : BufTy).Contents (Elt Ideal)
/-- The key projection's weights, `[2048, 128]`. -/
abbrev TWK : Type := (⟨S2048x128, .f32⟩ : BufTy).Contents (Elt Ideal)
/-- A rotation table, `[4096, 128]`. -/
abbrev TT : Type := (⟨S4096x128, .f32⟩ : BufTy).Contents (Elt Ideal)
/-- The mixing matrix, `[128, 128]`. -/
abbrev TH : Type := (⟨S128x128, .f32⟩ : BufTy).Contents (Elt Ideal)
/-- The indexer projection's weights, `[2048, 32]`. -/
abbrev TWP : Type := (⟨S2048x32, .f32⟩ : BufTy).Contents (Elt Ideal)

/-! ## The indexer weights -/

/-- The indexer weights are the row of `x` contracted with the weight matrix. -/
theorem refW (x0 : TX) (x6 : TWP) : val_main_v109 (F := Ideal) x0 x6 = GW x0 x6 := by
  funext i
  rw [val_main_v109_apply]
  unfold GW proj row3 mat
  refine Finset.sum_congr rfl fun k _ => ?_
  have el : lidx_main_v109 i k = ix3 (i 0) (i 1) k :=
    funext fun a => Fin.ext (by match a with | ⟨0, _⟩ => rfl | ⟨1, _⟩ => rfl | ⟨2, _⟩ => rfl)
  have er : ridx_main_v109 i k = ix2 k (i 2) :=
    funext fun a => Fin.ext (by match a with | ⟨0, _⟩ => rfl | ⟨1, _⟩ => rfl)
  rw [el, er]
  rfl

/-! ## The row's mean, centred row, variance and normalized row -/

/-- The zero word plus a sum is the sum. -/
theorem zero_word_add (z : EReal) : Ideal.ofBits .f32 0x00000000#32 + z = z := by
  rw [Ideal.ofBits_zero_f32, zero_add]

/-- The mean stage at `(b, s, 0)`: the mean of row `(b, s)`. -/
theorem v47_at (x0 : TX) (b : Fin 2) (s : Fin 4096) (u : Fin 1) :
    val_main_v47 (F := Ideal) x0 (ix3 b s u) = mean (row3 x0 b s) := by
  rw [val_main_v47_apply, val_main_v45_apply, val_main_v44_apply, val_main_v46_apply]
  simp only [val_main_cst_5_apply, val_main_cst_6_apply, Ideal.hostDivf_def, Ideal.ofBits_def]
  unfold mean row3
  rw [zero_word_add]
  refine congrArg (fun z => Ideal.div z _) (Finset.sum_congr rfl fun k _ => congrArg x0 ?_)
  exact funext fun a => Fin.ext (by match a with | ⟨0, _⟩ => rfl | ⟨1, _⟩ => rfl | ⟨2, _⟩ => rfl)

/-- The centred row at `(b, s, h)` (the copy the variance squares). -/
theorem v49_at (x0 : TX) (b : Fin 2) (s : Fin 4096) (h : Fin 2048) :
    val_main_v49 (F := Ideal) x0 (ix3 b s h) = centred (row3 x0 b s) h := by
  rw [val_main_v49_apply, val_main_v48_apply]
  have e : idx_main_v48 (ix3 b s h) = ix3 b s (0 : Fin 1) := funext fun a => Fin.ext (by match a with | ⟨0, _⟩ => rfl | ⟨1, _⟩ => rfl | ⟨2, _⟩ => rfl)
  rw [e, v47_at]
  rfl

/-- The centred row at `(b, s, h)` (the copy the normalization scales). -/
theorem v56_at (x0 : TX) (b : Fin 2) (s : Fin 4096) (h : Fin 2048) :
    val_main_v56 (F := Ideal) x0 (ix3 b s h) = centred (row3 x0 b s) h := by
  rw [val_main_v56_apply, val_main_v55_apply]
  have e : idx_main_v55 (ix3 b s h) = ix3 b s (0 : Fin 1) := funext fun a => Fin.ext (by match a with | ⟨0, _⟩ => rfl | ⟨1, _⟩ => rfl | ⟨2, _⟩ => rfl)
  rw [e, v47_at]
  rfl

/-- The variance stage at `(b, s, 0)`: the mean of the squares of the centred row. -/
theorem v54_at (x0 : TX) (b : Fin 2) (s : Fin 4096) (u : Fin 1) :
    val_main_v54 (F := Ideal) x0 (ix3 b s u)
      = mean (fun h' => centred (row3 x0 b s) h' * centred (row3 x0 b s) h') := by
  rw [val_main_v54_apply, val_main_v52_apply, val_main_v51_apply, val_main_v53_apply]
  simp only [val_main_cst_7_apply, val_main_cst_8_apply, Ideal.hostDivf_def, Ideal.ofBits_def]
  unfold mean
  rw [zero_word_add]
  refine congrArg (fun z => Ideal.div z _) (Finset.sum_congr rfl fun k _ => ?_)
  have e : idx_main_v51 (idx_main_v52 (ix3 b s u)) k = ix3 b s k := funext fun a => Fin.ext (by match a with | ⟨0, _⟩ => rfl | ⟨1, _⟩ => rfl | ⟨2, _⟩ => rfl)
  rw [e, val_main_v50_apply, v49_at]
  rfl

/-- The reciprocal root of the variance plus ε, at `(b, s, 0)`. -/
theorem v59_at (x0 : TX) (b : Fin 2) (s : Fin 4096) (u : Fin 1) :
    val_main_v59 (F := Ideal) x0 (ix3 b s u)
      = Ideal.rsqrt (mean (fun h' => centred (row3 x0 b s) h' * centred (row3 x0 b s) h') + cEps) := by
  rw [val_main_v59_apply, val_main_v58_apply, v54_at, val_main_v57_apply]
  rfl

/-- The normalized, gained and shifted row at `(b, s, h)`. -/
theorem v67_at (x0 : TX) (x7 x8 : TV) (b : Fin 2) (s : Fin 4096) (h : Fin 2048) :
    val_main_v67 (F := Ideal) x0 x7 x8 (ix3 b s h) = kIn (row3 x0 b s) (vec x7) (vec x8) h := by
  rw [val_main_v67_apply, val_main_v64_apply, val_main_v61_apply, val_main_v60_apply, val_main_v63_apply,
    val_main_v62_apply, val_main_v66_apply, val_main_v65_apply]
  have e60 : idx_main_v60 (ix3 b s h) = ix3 b s (0 : Fin 1) := funext fun a => Fin.ext (by match a with | ⟨0, _⟩ => rfl | ⟨1, _⟩ => rfl | ⟨2, _⟩ => rfl)
  have e7 : idx_main_v62 (idx_main_v63 (ix3 b s h)) = ix1 h := funext fun a => Fin.ext (by match a with | ⟨0, _⟩ => rfl)
  have e8 : idx_main_v65 (idx_main_v66 (ix3 b s h)) = ix1 h := funext fun a => Fin.ext (by match a with | ⟨0, _⟩ => rfl)
  rw [e60, e7, e8, v56_at, v59_at]
  rfl

/-! ## The projection, the rotation and the mixing product -/

/-- The key projection at `(b, s, d)`. -/
theorem v68_at (x0 : TX) (x5 : TWK) (x7 x8 : TV) (b : Fin 2) (s : Fin 4096) (d : Fin 128) :
    val_main_v68 (F := Ideal) x0 x5 x7 x8 (ix3 b s d)
      = proj (kIn (row3 x0 b s) (vec x7) (vec x8)) (mat x5) d := by
  rw [val_main_v68_apply]
  unfold proj mat
  refine Finset.sum_congr rfl fun k _ => ?_
  have el : lidx_main_v68 (ix3 b s d) k = ix3 b s k := funext fun a => Fin.ext (by match a with | ⟨0, _⟩ => rfl | ⟨1, _⟩ => rfl | ⟨2, _⟩ => rfl)
  have er : ridx_main_v68 (ix3 b s d) k = ix2 k d := funext fun a => Fin.ext (by match a with | ⟨0, _⟩ => rfl | ⟨1, _⟩ => rfl)
  rw [el, er, v67_at]

/-- The concatenation of the negated upper half and the lower half, at `(b, s, d)`: the half-swap with its sign. -/
theorem v76_at (x0 : TX) (x5 : TWK) (x7 x8 : TV) (b : Fin 2) (s : Fin 4096) (d : Fin 128) :
    val_main_v76 (F := Ideal) x0 x5 x7 x8 (ix3 b s d)
      = halfSwap (proj (kIn (row3 x0 b s) (vec x7) (vec x8)) (mat x5)) d := by
  unfold val_main_v76 halfSwap
  by_cases hd : d.val < 64
  · rw [dif_pos hd]
    refine (concatenate_pair_apply_left (2 : Fin S2x4096x128.rank) _ _
      concatenates_S2x4096x64_S2x4096x64_S2x4096x128_d2 (ix3 b s d) rfl (ix3 b s (⟨d.val, hd⟩ : Fin 64))
      (fun a => by match a with | ⟨0, _⟩ => rfl | ⟨1, _⟩ => rfl | ⟨2, _⟩ => rfl)).trans ?_
    rw [val_main_v74_apply, val_main_v73_apply]
    have e : idx_main_v73 (ix3 b s (⟨d.val, hd⟩ : Fin 64)) = ix3 b s (⟨d.val + 64, by omega⟩ : Fin 128) :=
      funext fun a => Fin.ext (by
        match a with
        | ⟨0, _⟩ => rfl
        | ⟨1, _⟩ => rfl
        | ⟨2, _⟩ => exact Nat.add_comm 64 d.val)
    rw [e, v68_at]
    rfl
  · rw [dif_neg hd]
    have hd' : d.val - 64 < 64 := by have := d.isLt; omega
    refine (concatenate_pair_apply_right (2 : Fin S2x4096x128.rank) _ _
      concatenates_S2x4096x64_S2x4096x64_S2x4096x128_d2 (ix3 b s d) rfl rfl (ix3 b s (⟨d.val - 64, hd'⟩ : Fin 64))
      (fun a ha => by
        match a with
        | ⟨0, _⟩ => rfl
        | ⟨1, _⟩ => rfl
        | ⟨2, _⟩ => exact absurd rfl ha)
      (by show d.val - 64 + 64 = d.val; omega)).trans ?_
    rw [val_main_v75_apply]
    have e : idx_main_v75 (ix3 b s (⟨d.val - 64, hd'⟩ : Fin 64))
        = ix3 b s (⟨d.val - 64, by have := d.isLt; omega⟩ : Fin 128) := funext fun a => Fin.ext (by match a with | ⟨0, _⟩ => rfl | ⟨1, _⟩ => rfl | ⟨2, _⟩ => rfl)
    rw [e, v68_at]

/-- The rotated row at `(b, s, d)`. -/
theorem v79_at (x0 : TX) (x5 : TWK) (x7 x8 : TV) (x9 x10 : TT) (b : Fin 2) (s : Fin 4096) (d : Fin 128) :
    val_main_v79 (F := Ideal) x0 x5 x7 x8 x9 x10 (ix3 b s d)
      = rope (proj (kIn (row3 x0 b s) (vec x7) (vec x8)) (mat x5)) (row2 x9 s) (row2 x10 s) d := by
  rw [val_main_v79_apply, val_main_v72_apply, val_main_v78_apply, val_main_v71_apply, val_main_v69_apply,
    val_main_v77_apply, val_main_v70_apply, v68_at, v76_at]
  have e9 : idx_main_v69 (idx_main_v71 (ix3 b s d)) = ix2 s d := funext fun a => Fin.ext (by match a with | ⟨0, _⟩ => rfl | ⟨1, _⟩ => rfl)
  have e10 : idx_main_v70 (idx_main_v77 (ix3 b s d)) = ix2 s d := funext fun a => Fin.ext (by match a with | ⟨0, _⟩ => rfl | ⟨1, _⟩ => rfl)
  rw [e9, e10]
  rfl

/-- The mixed row at `(b, s, e)`. -/
theorem v80_at (x0 : TX) (x5 : TWK) (x7 x8 : TV) (x9 x10 : TT) (x12 : TH) (b : Fin 2) (s : Fin 4096) (e : Fin 128) :
    val_main_v80 (F := Ideal) x0 x5 x7 x8 x9 x10 x12 (ix3 b s e)
      = kMixed (row3 x0 b s) (vec x7) (vec x8) (mat x5) (row2 x9 s) (row2 x10 s) (mat x12) e := by
  rw [val_main_v80_apply]
  unfold kMixed mix
  refine Finset.sum_congr rfl fun k _ => ?_
  have el : lidx_main_v80 (ix3 b s e) k = ix3 b s k := funext fun a => Fin.ext (by match a with | ⟨0, _⟩ => rfl | ⟨1, _⟩ => rfl | ⟨2, _⟩ => rfl)
  have er : ridx_main_v80 (ix3 b s e) k = ix2 k e := funext fun a => Fin.ext (by match a with | ⟨0, _⟩ => rfl | ⟨1, _⟩ => rfl)
  rw [el, er, v79_at]
  rfl

/-! ## The scale and the quantized entry -/

/-- Dropping the last axis of `[2, 4096, 128]` leaves `[2, 4096]`. -/
theorem reduces_last : S2x4096x128.Reduces [2] S2x4096 := by decide

/-- The reduced index `(b, s)` with the coordinate `k` put back on the last axis is `(b, s, k)`. -/
theorem lift_last (b : Fin 2) (s : Fin 4096) (k : Fin (S2x4096x128.size 2)) :
    reduces_last.lift (ix2 b s) k = ix3 b s (⟨k.val, k.isLt⟩ : Fin 128) := by
  funext c; apply Fin.ext
  fin_cases c <;> rfl

/-- The largest absolute entry of the mixed row, at `(b, s)`: the fold of `max` from −∞ over the 128 entries. -/
theorem v82_at (x0 : TX) (x5 : TWK) (x7 x8 : TV) (x9 x10 : TT) (x12 : TH) (b : Fin 2) (s : Fin 4096) :
    val_main_v82 (F := Ideal) x0 x5 x7 x8 x9 x10 x12 (ix2 b s)
      = (Finset.univ : Finset (Fin 128)).fold max cBot (fun e =>
          max (kMixed (row3 x0 b s) (vec x7) (vec x8) (mat x5) (row2 x9 s) (row2 x10 s) (mat x12) e)
            (-(kMixed (row3 x0 b s) (vec x7) (vec x8) (mat x5) (row2 x9 s) (row2 x10 s) (mat x12) e))) := by
  unfold val_main_v82
  rw [Host.reduce_eq_fold_single FloatOps.maximumf _ _ reducesTo_S2x4096x128_S2x4096_d2 reduces_last h_S_]
  have hf : (val_main_v81 (F := Ideal) x0 x5 x7 x8 x9 x10 x12 ∘ reduces_last.lift (ix2 b s))
      = fun e : Fin 128 =>
          max (kMixed (row3 x0 b s) (vec x7) (vec x8) (mat x5) (row2 x9 s) (row2 x10 s) (mat x12) e)
            (-(kMixed (row3 x0 b s) (vec x7) (vec x8) (mat x5) (row2 x9 s) (row2 x10 s) (mat x12) e)) :=
    funext fun k => by
      show val_main_v81 (F := Ideal) x0 x5 x7 x8 x9 x10 x12 (reduces_last.lift (ix2 b s) k) = _
      rw [lift_last, val_main_v81_apply, v80_at]
      rfl
  exact congrArg (fun f => Finset.fold max cBot f (Finset.univ : Finset (Fin 128))) hf

/-- The floored scale at `(b, s, 0)`. -/
theorem v87_at (x0 : TX) (x5 : TWK) (x7 x8 : TV) (x9 x10 : TT) (x12 : TH) (b : Fin 2) (s : Fin 4096) (u : Fin 1) :
    val_main_v87 (F := Ideal) x0 x5 x7 x8 x9 x10 x12 (ix3 b s u)
      = scaleOf (kMixed (row3 x0 b s) (vec x7) (vec x8) (mat x5) (row2 x9 s) (row2 x10 s) (mat x12)) := by
  rw [val_main_v87_apply, val_main_v85_apply, val_main_v83_apply, val_main_v84_apply, val_main_v86_apply]
  have e : idx_main_v83 (ix3 b s u) = ix2 b s := funext fun a => Fin.ext (by match a with | ⟨0, _⟩ => rfl | ⟨1, _⟩ => rfl)
  rw [e, v82_at]
  rfl

/-- The quantized entry at `(b, s, e)`. -/
theorem v90_at (x0 : TX) (x5 : TWK) (x7 x8 : TV) (x9 x10 : TT) (x12 : TH) (b : Fin 2) (s : Fin 4096) (e : Fin 128) :
    val_main_v90 (F := Ideal) x0 x5 x7 x8 x9 x10 x12 (ix3 b s e)
      = quant (kMixed (row3 x0 b s) (vec x7) (vec x8) (mat x5) (row2 x9 s) (row2 x10 s) (mat x12)) e := by
  rw [val_main_v90_apply, val_main_v89_apply, val_main_v88_apply, v80_at]
  have e88 : idx_main_v88 (ix3 b s e) = ix3 b s (0 : Fin 1) := funext fun a => Fin.ext (by match a with | ⟨0, _⟩ => rfl | ⟨1, _⟩ => rfl | ⟨2, _⟩ => rfl)
  rw [e88, v87_at]
  rfl

/-! ## The two results of the key branch -/

/-- The reference's quantized keys are the specification's. -/
theorem refK (x0 : TX) (x5 : TWK) (x7 x8 : TV) (x9 x10 : TT) (x12 : TH) :
    val_main_v90 (F := Ideal) x0 x5 x7 x8 x9 x10 x12 = GK x0 x7 x8 x5 x9 x10 x12 := by
  funext i
  obtain ⟨b, s, e, rfl⟩ : ∃ (b : Fin 2) (s : Fin 4096) (e : Fin 128), i = ix3 b s e := ⟨i 0, i 1, i 2, eq_ix3 i⟩
  rw [v90_at]
  rfl

/-- The reference's key scales (with their unit axis) are the specification's. -/
theorem refKS (x0 : TX) (x5 : TWK) (x7 x8 : TV) (x9 x10 : TT) (x12 : TH) :
    val_main_v87 (F := Ideal) x0 x5 x7 x8 x9 x10 x12 = GKS x0 x7 x8 x5 x9 x10 x12 := by
  funext i
  obtain ⟨b, s, u, rfl⟩ : ∃ (b : Fin 2) (s : Fin 4096) (u : Fin 1), i = ix3 b s u := ⟨i 0, i 1, i 2, eq_ix3 i⟩
  rw [v87_at]
  rfl

end Cert.RefKey

end
-- ==== Proof.RefRun.lean ====
/-
  The reference's run, stated at the specification.

  Every weakly fair execution of the reference terminates with its five results at the operations' composed terms of the
  argument arrays and with the arguments unchanged. Those terms are the stages read in `RefQuery` and `RefKey`: the quantized
  query heads and their scales are `GQ` and `GQS`, the two caches are the host tail's `keys` and `scales` of `GK` and `GKS`,
  and the indexer weights are `GW`. So the same executions end with the results at the specification's arrays, and, with the
  results dropped, this is the reference's frame.
-/
import proofs.«167153_j59992103190876_2_alg».proof.Defs
import proofs.«167153_j59992103190876_2_alg».proof.Proof.Gen.ReferenceIdeal
import proofs.«167153_j59992103190876_2_alg».proof.Proof.Gen.Pre_finite_inputs
import proofs.«167153_j59992103190876_2_alg».proof.Proof.Gen.ReferenceIdeal.Run
import proofs.«167153_j59992103190876_2_alg».proof.Proof.Gen.ReferenceIdeal.Read
import proofs.«167153_j59992103190876_2_alg».proof.Proof.Tail
import proofs.«167153_j59992103190876_2_alg».proof.Proof.RefQuery
import proofs.«167153_j59992103190876_2_alg».proof.Proof.RefKey

noncomputable section

namespace Cert.RefRun

open Idealize.ShloMosaic Idealize.SL.Sem

/-- From any memory with zero counters, every weakly fair execution of the reference terminates with the five results at
    the specification's arrays of the argument arrays (the caches through the host tail) and the arguments unchanged. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v42) = Cert.Arrays.GQ (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v43) = Cert.Arrays.GQS (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v100) = Cert.Tail.keys (Cert.Arrays.GK (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg12))) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg15))
      ∧ r.2.mem ((c.tc : Thread Cert.ReferenceIdeal.nD Cert.ReferenceIdeal.τ).loc Cert.ReferenceIdeal.main_v108) = Cert.Tail.scales (Cert.Arrays.GKS (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg12))) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      ∧ r.2.mem ((c.tc : Thread Cert.ReferenceIdeal.nD Cert.ReferenceIdeal.τ).loc Cert.ReferenceIdeal.main_v109) = Cert.Arrays.GW (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)) :=
  (θ_run Cert.ReferenceIdeal.defs _ _).mono (fun _ h c =>
    ⟨(h c).1.trans (by rw [Cert.ReferenceIdeal.Read.val_main_v42_eq, Cert.RefQuery.refQ]),
      (h c).2.1.trans (by rw [Cert.ReferenceIdeal.Read.val_main_v43_eq, Cert.RefQuery.refQS]),
      (h c).2.2.1.trans (by rw [Cert.ReferenceIdeal.Read.val_main_v100_eq, Cert.Tail.ref_keys, Cert.RefKey.refK]),
      (h c).2.2.2.1.trans (by rw [Cert.ReferenceIdeal.Read.val_main_v108_eq, Cert.Tail.ref_scales, Cert.RefKey.refKS]),
      (h c).2.2.2.2.1.trans ((Cert.ReferenceIdeal.Read.val_main_v109_eq _ _).trans (Cert.RefKey.refW _ _)),
      (h c).2.2.2.2.2⟩)
    (Cert.ReferenceIdeal.Value.run (F := Ideal) m' ρ')

/-- The reference's frame: the same run with the results dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2.2.2.2.2) (Cert.ReferenceIdeal.Value.run (F := Ideal) m ρ)

end Cert.RefRun

end
-- ==== Proof.lean ====
/-
  The certificate of a fused query/key prologue kernel against its jnp reference.

  THE CLAIM. Under the precondition (every float input finite — never used here), the kernel program, its idealization
  and the idealized reference each run to the end without a fault and leave their sixteen argument arrays unchanged; the
  idealization rewrote no operation; and, read at the ideal instance (floats are extended reals, every operation exact, a
  change of float format the identity), the idealized kernel and the idealized reference, started from memories that
  agree on the arguments, end with the same five results: the quantized query heads, their scales, the key cache and the
  scale cache after the scatter of the quantized keys and their scales, and the indexer weights.

  WHY IT HOLDS. Every entry of the five arrays the two programs compute before the scatter depends on one row of `x`,
  one row of the cosine and sine tables and the whole weight arrays, through the same chain of operations in the same
  order: a mean, a reciprocal root, gains, a projection, the rotation with its half-swap, a second projection, the largest
  absolute entry of a row over 127 floored at a constant, a division and a rounding. `Rows` states that chain once;
  `Arrays` reads it off the arrays. The reference IS that function of its arguments, stage by stage (`RefQuery`,
  `RefKey`, `RefRun`). The kernel computes it 128 rows at a time on a grid of 64 points: what the body stores at a point
  is the function's block there (`PayQuery`, `PayKey`, `KBlocks`), the blocks tile each result (`KCover`), and the arrays
  the region finds are the arguments themselves, five of them re-formatted, which changes nothing at the ideal instance
  (`KHost`, `KRun`). Both programs then apply the same scatter to equal arrays (`Tail`). No law of arithmetic is needed
  beyond `0 − x = −x` and `0 + x = x`: the two programs group and order their sums alike, the kernel's tiling cuts no sum.
  The three frames are the generated frame certificates of the two kernel programs and the reference's generated run.
-/
import proofs.«167153_j59992103190876_2_alg».proof.Defs
import proofs.«167153_j59992103190876_2_alg».proof.Proof.Gen.Kernel
import proofs.«167153_j59992103190876_2_alg».proof.Proof.Gen.Kernel.Skeleton
import proofs.«167153_j59992103190876_2_alg».proof.Proof.Gen.Kernel.Launch
import proofs.«167153_j59992103190876_2_alg».proof.Proof.Gen.Kernel.Points
import proofs.«167153_j59992103190876_2_alg».proof.Proof.Gen.Kernel.Frame
import proofs.«167153_j59992103190876_2_alg».proof.Proof.Gen.KernelIdeal
import proofs.«167153_j59992103190876_2_alg».proof.Proof.Gen.KernelIdeal.Skeleton
import proofs.«167153_j59992103190876_2_alg».proof.Proof.Gen.KernelIdeal.Launch
import proofs.«167153_j59992103190876_2_alg».proof.Proof.Gen.KernelIdeal.Points
import proofs.«167153_j59992103190876_2_alg».proof.Proof.Gen.KernelIdeal.Frame
import proofs.«167153_j59992103190876_2_alg».proof.Proof.Gen.ReferenceIdeal
import proofs.«167153_j59992103190876_2_alg».proof.Proof.Gen.Pre_finite_inputs
import proofs.«167153_j59992103190876_2_alg».proof.Proof.Gen.ReferenceIdeal.Run
import proofs.«167153_j59992103190876_2_alg».proof.Proof.Gen.ReferenceIdeal.Read
import proofs.«167153_j59992103190876_2_alg».proof.Proof.KRun
import proofs.«167153_j59992103190876_2_alg».proof.Proof.RefRun
import Idealize.ShloMosaic.Adequacy
import Idealize.ShloMosaic.Init

noncomputable section

namespace Cert.Proof

open Idealize.ShloMosaic Idealize.SL.Sem

/-- The two idealized programs, from memories agreeing on the arguments, end with equal results: each run ends at the
    specification's functions of its own arguments, and the arguments agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, _, _, _, _, Cert.KRun.run m ρ, ?_⟩
  refine (θ_run Cert.ReferenceIdeal.defs _ _).mono (fun r h c => ?_) (Cert.RefRun.run m' ρ')
  obtain ⟨a0, a1, a2, a3, a4, a5, a6, a7, a8, a9, a10, a11, a12, a13, a14, a15⟩ := hagree c
  obtain ⟨h0, h1, h2, h3, h4, hargs⟩ := h c
  refine ⟨h0.trans ?_, h1.trans ?_, h2.trans ?_, h3.trans ?_, h4.trans ?_, hargs⟩
  · rw [a0, a1, a2, a3, a4, a9, a10, a11]
  · rw [a0, a1, a2, a3, a4, a9, a10, a11]
  · rw [a0, a5, a7, a8, a9, a10, a12, a13, a15]
  · rw [a0, a5, a7, a8, a9, a10, a12, a14, a15]
  · rw [a0, a6]

theorem claim : Cert.Claim := ⟨Cert.Kernel.Gen.facts, Cert.KernelIdeal.Gen.facts, Cert.ReferenceIdeal.Gen.facts, Cert.Pre_finite_inputs.Gen.facts, by
  refine ⟨?_, ?_, ?_, ?_, ?_⟩
  · exact fun m ρ _ => Cert.Kernel.Gen.frame m ρ
  · exact fun m ρ _ => Cert.KernelIdeal.Gen.frame m ρ
  · exact Cert.RefRun.frame_ri
  · exact trivial
  · exact algebraic⟩

end Cert.Proof

end
